-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v87)) (v1 : (c : Dev Cert.KernelIdeal.nD) → Buf (Elt Ideal) ((c.tc : Thread Cert.KernelIdeal.nD Cert.KernelIdeal.τ).loc Cert.KernelIdeal.main_v88)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_v88) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_v112) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg12 : FVec F S256x128 .f32) (main_arg13 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S256x128 .f32 := Host.absf main_arg12
  let main_cst_20 : FVec F S_ .f32 := constant S_ .f32 0x7F800000#32
  let main_v55 : FVec F S256x128 .f32 := broadcastInDim S256x128 ![] bcast_S_S256x128 main_cst_20
  let main_v56 : IVec S256x128 1 := cmpf .olt main_v54 main_v55
  let main_c_21 : IVec S_ 1 := constantI S_ 1 1#1
  let main_v57 : IVec S_ 1 := (fun x v => Host.reduce IntOp.andi x v reducesTo_S256x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  main_v63

def fn_part2 {F : FTy → Type} [FloatOps F] (main_arg8 : FVec F S256 .f32) (main_arg9 : FVec F S256 .f32) (main_arg10 : FVec F S256x128 .f32) (main_arg11 : FVec F S128 .f32) (main_arg12 : FVec F S256x128 .f32) (main_arg13 : FVec F S128 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x128 .f32 := Host.absf main_arg10
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_v48 main_v49 main_v50

def fn_part1 {F : FTy → Type} [FloatOps F] (main_arg5 : FVec F S256 .f32) (main_arg6 : FVec F S256x256 .f32) (main_arg7 : FVec F S256 .f32) (main_arg8 : FVec F S256 .f32) (main_arg9 : FVec F S256 .f32) (main_arg10 : FVec F S256x128 .f32) (main_arg11 : FVec F S128 .f32) (main_arg12 : FVec F S256x128 .f32) (main_arg13 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S50000x256 .f32) (main_arg1 : IVec S2x800000 32) (main_arg2 : FVec F S256x256 .f32) (main_arg3 : FVec F S256 .f32) (main_arg4 : FVec F S256 .f32) (main_arg5 : FVec F S256 .f32) (main_arg6 : FVec F S256x256 .f32) (main_arg7 : FVec F S256 .f32) (main_arg8 : FVec F S256 .f32) (main_arg9 : FVec F S256 .f32) (main_arg10 : FVec F S256x128 .f32) (main_arg11 : FVec F S128 .f32) (main_arg12 : FVec F S256x128 .f32) (main_arg13 : FVec F S128 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_arg11 main_arg12 main_arg13 main_v13 main_v16
-- ==== Kernel.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S2000x256 : Shape := ⟨2, ![2000, 256]⟩
abbrev S850000x256 : Shape := ⟨2, ![850000, 256]⟩
abbrev S1x256 : Shape := ⟨2, ![1, 256]⟩
abbrev S50000x128 : Shape := ⟨2, ![50000, 128]⟩

abbrev nBuf : Space → Nat
  | .hbm => 168
  | .vmem => 32
  | .smem => 0
  | _ => 0

abbrev hbmTy0_0 (i : Nat) : BufTy := match i % 128 with
  | 0 => ⟨S50000x256, .f32⟩
  | 1 => ⟨S2x800000, .i32⟩
  | 2 => ⟨S256x256, .f32⟩
  | 3 => ⟨S256, .f32⟩
  | 4 => ⟨S256, .f32⟩
  | 5 => ⟨S256, .f32⟩
  | 6 => ⟨S256x256, .f32⟩
  | 7 => ⟨S256, .f32⟩
  | 8 => ⟨S256, .f32⟩
  | 9 => ⟨S256, .f32⟩
  | 10 => ⟨S256x128, .f32⟩
  | 11 => ⟨S128, .f32⟩
  | 12 => ⟨S256x128, .f32⟩
  | 13 => ⟨S128, .f32⟩
  | 14 => ⟨S50000, .i32⟩
  | 15 => ⟨S1x800000, .i32⟩
  | 16 => ⟨S800000, .i32⟩
  | 17 => ⟨S850000, .i32⟩
  | 18 => ⟨S1x800000, .i32⟩
  | 19 => ⟨S800000, .i32⟩
  | 20 => ⟨S850000, .i32⟩
  | 21 => ⟨S_, .f32⟩
  | 22 => ⟨S850000, .f32⟩
  | 23 => ⟨S_, .f32⟩
  | 24 => ⟨S50000, .f32⟩
  | 25 => ⟨S850000x1, .i32⟩
  | 26 => ⟨S50000, .f32⟩
  | 27 => ⟨S_, .f32⟩
  | 28 => ⟨S50000, .f32⟩
  | 29 => ⟨S50000, .i1⟩
  | 30 => ⟨S_, .f32⟩
  | 31 => ⟨S50000, .f32⟩
  | 32 => ⟨S50000, .f32⟩
  | 33 => ⟨S50000, .f32⟩
  | 34 => ⟨S_, .f32⟩
  | 35 => ⟨S_, .f32⟩
  | 36 => ⟨S50000, .f32⟩
  | 37 => ⟨S50000, .f32⟩
  | 38 => ⟨S_, .i32⟩
  | 39 => ⟨S850000, .i32⟩
  | 40 => ⟨S850000, .i1⟩
  | 41 => ⟨S_, .i32⟩
  | 42 => ⟨S850000, .i32⟩
  | 43 => ⟨S850000, .i32⟩
  | 44 => ⟨S850000, .i32⟩
  | 45 => ⟨S850000x1, .i32⟩
  | 46 => ⟨S850000, .f32⟩
  | 47 => ⟨S_, .i32⟩
  | 48 => ⟨S850000, .i32⟩
  | 49 => ⟨S850000, .i1⟩
  | 50 => ⟨S_, .i32⟩
  | 51 => ⟨S850000, .i32⟩
  | 52 => ⟨S850000, .i32⟩
  | 53 => ⟨S850000, .i32⟩
  | 54 => ⟨S850000x1, .i32⟩
  | 55 => ⟨S850000, .f32⟩
  | 56 => ⟨S850000, .f32⟩
  | 57 => ⟨S850000x1, .f32⟩
  | 58 => ⟨S50000x256, .f32⟩
  | 59 => ⟨S_, .i32⟩
  | 60 => ⟨S850000, .i32⟩
  | 61 => ⟨S850000, .i1⟩
  | 62 => ⟨S_, .i32⟩
  | 63 => ⟨S850000, .i32⟩
  | 64 => ⟨S850000, .i32⟩
  | 65 => ⟨S850000, .i32⟩
  | 66 => ⟨S850000x1, .i32⟩
  | 67 => ⟨S850000x256, .f32⟩
  | 68 => ⟨S850000x256, .f32⟩
  | 69 => ⟨S850000x256, .f32⟩
  | 70 => ⟨S_, .f32⟩
  | 71 => ⟨S50000x256, .f32⟩
  | 72 => ⟨S850000x1, .i32⟩
  | 73 => ⟨S50000x256, .f32⟩
  | 74 => ⟨S1x256, .f32⟩
  | 75 => ⟨S50000x256, .f32⟩
  | 76 => ⟨S50000x256, .f32⟩
  | 77 => ⟨S_, .f32⟩
  | 78 => ⟨S256, .f32⟩
  | 79 => ⟨S_, .f32⟩
  | 80 => ⟨S256, .f32⟩
  | 81 => ⟨S256, .f32⟩
  | 82 => ⟨S_, .i32⟩
  | 83 => ⟨S_, .f32⟩
  | 84 => ⟨S256, .f32⟩
  | 85 => ⟨S1x256, .f32⟩
  | 86 => ⟨S_, .f32⟩
  | 87 => ⟨S1x256, .f32⟩
  | 88 => ⟨S1x256, .f32⟩
  | 89 => ⟨S50000x256, .f32⟩
  | 90 => ⟨S50000x256, .f32⟩
  | 91 => ⟨S50000x256, .f32⟩
  | 92 => ⟨S_, .f32⟩
  | 93 => ⟨S_, .f32⟩
  | 94 => ⟨S_, .f32⟩
  | 95 => ⟨S_, .f32⟩
  | 96 => ⟨S256, .f32⟩
  | 97 => ⟨S256, .f32⟩
  | 98 => ⟨S256, .f32⟩
  | 99 => ⟨S_, .f32⟩
  | 100 => ⟨S_, .i1⟩
  | 101 => ⟨S_, .f32⟩
  | 102 => ⟨S_, .f32⟩
  | 103 => ⟨S256, .f32⟩
  | 104 => ⟨S256, .f32⟩
  | 105 => ⟨S1x256, .f32⟩
  | 106 => ⟨S1x256, .f32⟩
  | 107 => ⟨S1x256, .f32⟩
  | 108 => ⟨S1x256, .f32⟩
  | 109 => ⟨S50000x256, .f32⟩
  | 110 => ⟨S50000x256, .f32⟩
  | 111 => ⟨S_, .i32⟩
  | 112 => ⟨S850000, .i32⟩
  | 113 => ⟨S850000, .i1⟩
  | 114 => ⟨S_, .i32⟩
  | 115 => ⟨S850000, .i32⟩
  | 116 => ⟨S850000, .i32⟩
  | 117 => ⟨S850000, .i32⟩
  | 118 => ⟨S850000x1, .i32⟩
  | 119 => ⟨S850000x256, .f32⟩
  | 120 => ⟨S850000x256, .f32⟩
  | 121 => ⟨S850000x256, .f32⟩
  | 122 => ⟨S_, .f32⟩
  | 123 => ⟨S50000x256, .f32⟩
  | 124 => ⟨S850000x1, .i32⟩
  | 125 => ⟨S50000x256, .f32⟩
  | 126 => ⟨S1x256, .f32⟩
  | 127 => ⟨S50000x256, .f32⟩
  | _ => ⟨S50000x256, .f32⟩

abbrev hbmTy0_1 (i : Nat) : BufTy := match i % 128 with
  | 0 => ⟨S50000x256, .f32⟩
  | 1 => ⟨S_, .f32⟩
  | 2 => ⟨S256, .f32⟩
  | 3 => ⟨S_, .f32⟩
  | 4 => ⟨S256, .f32⟩
  | 5 => ⟨S256, .f32⟩
  | 6 => ⟨S_, .i32⟩
  | 7 => ⟨S_, .f32⟩
  | 8 => ⟨S256, .f32⟩
  | 9 => ⟨S1x256, .f32⟩
  | 10 => ⟨S_, .f32⟩
  | 11 => ⟨S1x256, .f32⟩
  | 12 => ⟨S1x256, .f32⟩
  | 13 => ⟨S50000x256, .f32⟩
  | 14 => ⟨S50000x256, .f32⟩
  | 15 => ⟨S50000x256, .f32⟩
  | 16 => ⟨S_, .f32⟩
  | 17 => ⟨S_, .f32⟩
  | 18 => ⟨S_, .f32⟩
  | 19 => ⟨S_, .f32⟩
  | 20 => ⟨S256, .f32⟩
  | 21 => ⟨S256, .f32⟩
  | 22 => ⟨S256, .f32⟩
  | 23 => ⟨S_, .f32⟩
  | 24 => ⟨S_, .i1⟩
  | 25 => ⟨S_, .f32⟩
  | 26 => ⟨S_, .f32⟩
  | 27 => ⟨S256, .f32⟩
  | 28 => ⟨S256, .f32⟩
  | 29 => ⟨S1x256, .f32⟩
  | 30 => ⟨S1x256, .f32⟩
  | 31 => ⟨S1x256, .f32⟩
  | 32 => ⟨S1x256, .f32⟩
  | 33 => ⟨S50000x256, .f32⟩
  | 34 => ⟨S256x256, .f32⟩
  | 35 => ⟨S256, .f32⟩
  | 36 => ⟨S1x256, .f32⟩
  | 37 => ⟨S50000x256, .f32⟩
  | 38 => ⟨S50000x128, .f32⟩
  | 39 => ⟨S50000x128, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S256x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S1x256, .f32⟩
  | .local _ .vmem, ⟨21, _⟩ => ⟨S1x256, .f32⟩
  | .local _ .vmem, ⟨22, _⟩ => ⟨S1x256, .f32⟩
  | .local _ .vmem, ⟨23, _⟩ => ⟨S1x256, .f32⟩
  | .local _ .vmem, ⟨24, _⟩ => ⟨S2000x256, .f32⟩
  | .local _ .vmem, ⟨25, _⟩ => ⟨S2000x256, .f32⟩
  | .local _ .vmem, ⟨26, _⟩ => ⟨S2000x256, .f32⟩
  | .local _ .vmem, ⟨27, _⟩ => ⟨S2000x256, .f32⟩
  | .local _ .vmem, ⟨28, _⟩ => ⟨S256x256, .f32⟩
  | .local _ .vmem, ⟨29, _⟩ => ⟨S1x256, .f32⟩
  | .local _ .vmem, ⟨30, _⟩ => ⟨S2000x256, .f32⟩
  | .local _ .vmem, ⟨31, _⟩ => ⟨S2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v16 : Ref sig .tc := ⟨.hbm, 37, rfl⟩
abbrev main_c : Ref sig .tc := ⟨.hbm, 38, rfl⟩
abbrev main_v17 : Ref sig .tc := ⟨.hbm, 39, rfl⟩
abbrev main_v18 : Ref sig .tc := ⟨.hbm, 40, rfl⟩
abbrev main_c_4 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_c_5 : Ref sig .tc := ⟨.hbm, 47, rfl⟩
abbrev main_v24 : Ref sig .tc := ⟨.hbm, 48, rfl⟩
abbrev main_v25 : Ref sig .tc := ⟨.hbm, 49, rfl⟩
abbrev main_c_6 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_c_7 : Ref sig .tc := ⟨.hbm, 59, rfl⟩
abbrev main_v34 : Ref sig .tc := ⟨.hbm, 60, rfl⟩
abbrev main_v35 : Ref sig .tc := ⟨.hbm, 61, rfl⟩
abbrev main_c_8 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_9 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_10 : Ref sig .tc := ⟨.hbm, 77, rfl⟩
abbrev main_v49 : Ref sig .tc := ⟨.hbm, 78, rfl⟩
abbrev main_cst_11 : Ref sig .tc := ⟨.hbm, 79, rfl⟩
abbrev main_v50 : Ref sig .tc := ⟨.hbm, 80, rfl⟩
abbrev main_v51 : Ref sig .tc := ⟨.hbm, 81, rfl⟩
abbrev main_c_12 : Ref sig .tc := ⟨.hbm, 82, rfl⟩
abbrev main_call1_cst : Ref sig .tc := ⟨.hbm, 83, rfl⟩
abbrev main_call1_v0 : Ref sig .tc := ⟨.hbm, 84, rfl⟩
abbrev main_call1_v1 : Ref sig .tc := ⟨.hbm, 85, rfl⟩
abbrev main_call1_cst_0 : Ref sig .tc := ⟨.hbm, 86, rfl⟩
abbrev main_call1_v2 : Ref sig .tc := ⟨.hbm, 87, rfl⟩
abbrev main_call1_v3 : Ref sig .tc := ⟨.hbm, 88, rfl⟩
abbrev main_call1_v4 : Ref sig .tc := ⟨.hbm, 89, rfl⟩
abbrev main_call1_v5 : Ref sig .tc := ⟨.hbm, 90, rfl⟩
abbrev main_call1_v6 : Ref sig .tc := ⟨.hbm, 91, rfl⟩
abbrev main_call1_v7 : Ref sig .tc := ⟨.hbm, 92, rfl⟩
abbrev main_call1_cst_1 : Ref sig .tc := ⟨.hbm, 93, rfl⟩
abbrev main_call1_v8 : Ref sig .tc := ⟨.hbm, 94, rfl⟩
abbrev main_call1_cst_2 : Ref sig .tc := ⟨.hbm, 95, rfl⟩
abbrev main_call1_v9 : Ref sig .tc := ⟨.hbm, 96, rfl⟩
abbrev main_call1_v10 : Ref sig .tc := ⟨.hbm, 97, rfl⟩
abbrev main_call1_v11 : Ref sig .tc := ⟨.hbm, 98, rfl⟩
abbrev main_call1_cst_3 : Ref sig .tc := ⟨.hbm, 99, rfl⟩
abbrev main_call1_v12 : Ref sig .tc := ⟨.hbm, 100, rfl⟩
abbrev main_call1_cst_4 : Ref sig .tc := ⟨.hbm, 101, rfl⟩
abbrev main_call1_call0_v0 : Ref sig .tc := ⟨.hbm, 102, rfl⟩
abbrev main_call1_call0_v1 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_c_13 : Ref sig .tc := ⟨.hbm, 111, rfl⟩
abbrev main_v59 : Ref sig .tc := ⟨.hbm, 112, rfl⟩
abbrev main_v60 : Ref sig .tc := ⟨.hbm, 113, rfl⟩
abbrev main_c_14 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_cst_15 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_cst_16 : Ref sig .tc := ⟨.hbm, 129, rfl⟩
abbrev main_v74 : Ref sig .tc := ⟨.hbm, 130, rfl⟩
abbrev main_cst_17 : Ref sig .tc := ⟨.hbm, 131, rfl⟩
abbrev main_v75 : Ref sig .tc := ⟨.hbm, 132, rfl⟩
abbrev main_v76 : Ref sig .tc := ⟨.hbm, 133, rfl⟩
abbrev main_c_18 : Ref sig .tc := ⟨.hbm, 134, rfl⟩
abbrev main_call2_cst : Ref sig .tc := ⟨.hbm, 135, rfl⟩
abbrev main_call2_v0 : Ref sig .tc := ⟨.hbm, 136, rfl⟩
abbrev main_call2_v1 : Ref sig .tc := ⟨.hbm, 137, rfl⟩
abbrev main_call2_cst_0 : Ref sig .tc := ⟨.hbm, 138, rfl⟩
abbrev main_call2_v2 : Ref sig .tc := ⟨.hbm, 139, rfl⟩
abbrev main_call2_v3 : Ref sig .tc := ⟨.hbm, 140, rfl⟩
abbrev main_call2_v4 : Ref sig .tc := ⟨.hbm, 141, rfl⟩
abbrev main_call2_v5 : Ref sig .tc := ⟨.hbm, 142, rfl⟩
abbrev main_call2_v6 : Ref sig .tc := ⟨.hbm, 143, rfl⟩
abbrev main_call2_v7 : Ref sig .tc := ⟨.hbm, 144, rfl⟩
abbrev main_call2_cst_1 : Ref sig .tc := ⟨.hbm, 145, rfl⟩
abbrev main_call2_v8 : Ref sig .tc := ⟨.hbm, 146, rfl⟩
abbrev main_call2_cst_2 : Ref sig .tc := ⟨.hbm, 147, rfl⟩
abbrev main_call2_v9 : Ref sig .tc := ⟨.hbm, 148, rfl⟩
abbrev main_call2_v10 : Ref sig .tc := ⟨.hbm, 149, rfl⟩
abbrev main_call2_v11 : Ref sig .tc := ⟨.hbm, 150, rfl⟩
abbrev main_call2_cst_3 : Ref sig .tc := ⟨.hbm, 151, rfl⟩
abbrev main_call2_v12 : Ref sig .tc := ⟨.hbm, 152, rfl⟩
abbrev main_call2_cst_4 : Ref sig .tc := ⟨.hbm, 153, rfl⟩
abbrev main_call2_call0_v0 : Ref sig .tc := ⟨.hbm, 154, rfl⟩
abbrev main_call2_call0_v1 : Ref sig .tc := ⟨.hbm, 155, rfl⟩
abbrev main_v77 : Ref sig .tc := ⟨.hbm, 156, rfl⟩
abbrev main_v78 : Ref sig .tc := ⟨.hbm, 157, rfl⟩
abbrev main_v79 : Ref sig .tc := ⟨.hbm, 158, rfl⟩
abbrev main_v80 : Ref sig .tc := ⟨.hbm, 159, rfl⟩
abbrev main_v81 : Ref sig .tc := ⟨.hbm, 160, rfl⟩
abbrev main_v82 : Ref sig .tc := ⟨.hbm, 161, rfl⟩
abbrev main_v83 : Ref sig .tc := ⟨.hbm, 162, rfl⟩
abbrev main_v84 : Ref sig .tc := ⟨.hbm, 163, rfl⟩
abbrev main_v85 : Ref sig .tc := ⟨.hbm, 164, rfl⟩
abbrev main_v86 : Ref sig .tc := ⟨.hbm, 165, rfl⟩
abbrev main_v87 : Ref sig .tc := ⟨.hbm, 166, rfl⟩
abbrev main_v88 : Ref sig .tc := ⟨.hbm, 167, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg4_0 : Ref sig .tc := ⟨.vmem, 23, rfl⟩
abbrev cc3_stg5_0 : Ref sig .tc := ⟨.vmem, 24, rfl⟩
abbrev cc3_stg5_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg3_0 : Ref sig .tc := ⟨.vmem, 30, rfl⟩
abbrev cc4_stg3_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem4_0 : DmaSem sig := 23
abbrev cc3_sem5_0 : DmaSem sig := 24
abbrev cc3_sem5_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem3_0 : DmaSem sig := 30
abbrev cc4_sem3_1 : DmaSem sig := 31

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S256_d0 : S50000x256.ReducesTo [0] S256
  h_S_ : 0 < S_.numel
  bcast_S_S256 : S_.BroadcastsInDim S256 (![] : Fin 0 → Fin S256.rank)
  bcast_S_S1x256 : S_.BroadcastsInDim S1x256 (![] : Fin 0 → Fin S1x256.rank)
  shapeCasts_S256_S1x256 : S256.ShapeCasts S1x256
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  concatenates_S256x128_S256x128_S256x256_d1 : Shape.Concatenates [S256x128, S256x128] S256x256 1
  concatenates_S128_S128_S256_d0 : Shape.Concatenates [S128, S128] S256 0
  shapeCasts_S256x256_S256x256 : S256x256.ShapeCasts S256x256
  slices_S50000x256_S50000x128_0_0 : S50000x256.Slices ![0, 0] S50000x128
  slices_S50000x256_S50000x128_0_128 : S50000x256.Slices ![0, 128] S50000x128
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x256_S256x256_S2000x256_1_0_0_1_n_n_wf : DotDims.WF S2000x256 S256x256 S2000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S50000x256.size a
  hwx1_5 : ∀ i : grid1.Coords, EltTy.bits .f32 = 32 ∨ (Rect.block (s := S50000x256) S2000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S50000x256.size a
  hwx2_2 : ∀ i : grid2.Coords, EltTy.bits .f32 = 32 ∨ (Rect.block (s := S50000x256) S2000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x256.size a ≤ S50000x256.size a
  hwx3_5 : ∀ i : grid3.Coords, EltTy.bits .f32 = 32 ∨ (Rect.block (s := S50000x256) S2000x256.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x256.size a ≤ S256x256.size a
  hwx4_1 : ∀ i : grid4.Coords, EltTy.bits .f32 = 32 ∨ (Rect.block (s := S256x256) S256x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x256.size a ≤ S50000x256.size a
  hwx4_3 : ∀ i : grid4.Coords, EltTy.bits .f32 = 32 ∨ (Rect.block (s := S50000x256) S2000x256.size (cc4_transform_3 i) (hinb4_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v53) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v54) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v55) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v56) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v57) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v57) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v58) S2000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v73) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v78) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v79) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v80) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v81) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v82) S2000x256.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v82) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v83) S256x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v85) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v86) S2000x256.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩
abbrev S50000x128 : Shape := ⟨2, ![50000, 128]⟩
abbrev S1x128 : Shape := ⟨2, ![1, 128]⟩

abbrev nBuf : Space → Nat
  | .hbm => 198
  | .vmem => 0
  | .smem => 0
  | _ => 0

abbrev hbmTy0_0 (i : Nat) : BufTy := match i % 128 with
  | 0 => ⟨S50000x256, .f32⟩
  | 1 => ⟨S2x800000, .i32⟩
  | 2 => ⟨S256x256, .f32⟩
  | 3 => ⟨S256, .f32⟩
  | 4 => ⟨S256, .f32⟩
  | 5 => ⟨S256, .f32⟩
  | 6 => ⟨S256x256, .f32⟩
  | 7 => ⟨S256, .f32⟩
  | 8 => ⟨S256, .f32⟩
  | 9 => ⟨S256, .f32⟩
  | 10 => ⟨S256x128, .f32⟩
  | 11 => ⟨S128, .f32⟩
  | 12 => ⟨S256x128, .f32⟩
  | 13 => ⟨S128, .f32⟩
  | 14 => ⟨S50000, .i32⟩
  | 15 => ⟨S1x800000, .i32⟩
  | 16 => ⟨S800000, .i32⟩
  | 17 => ⟨S850000, .i32⟩
  | 18 => ⟨S1x800000, .i32⟩
  | 19 => ⟨S800000, .i32⟩
  | 20 => ⟨S850000, .i32⟩
  | 21 => ⟨S_, .f32⟩
  | 22 => ⟨S850000, .f32⟩
  | 23 => ⟨S_, .f32⟩
  | 24 => ⟨S50000, .f32⟩
  | 25 => ⟨S850000x1, .i32⟩
  | 26 => ⟨S50000, .f32⟩
  | 27 => ⟨S_, .f32⟩
  | 28 => ⟨S50000, .f32⟩
  | 29 => ⟨S50000, .i1⟩
  | 30 => ⟨S_, .f32⟩
  | 31 => ⟨S50000, .f32⟩
  | 32 => ⟨S50000, .f32⟩
  | 33 => ⟨S50000, .f32⟩
  | 34 => ⟨S_, .f32⟩
  | 35 => ⟨S_, .f32⟩
  | 36 => ⟨S50000, .f32⟩
  | 37 => ⟨S50000, .f32⟩
  | 38 => ⟨S_, .i32⟩
  | 39 => ⟨S850000, .i32⟩
  | 40 => ⟨S850000, .i1⟩
  | 41 => ⟨S_, .i32⟩
  | 42 => ⟨S850000, .i32⟩
  | 43 => ⟨S850000, .i32⟩
  | 44 => ⟨S850000, .i32⟩
  | 45 => ⟨S850000x1, .i32⟩
  | 46 => ⟨S850000, .f32⟩
  | 47 => ⟨S_, .i32⟩
  | 48 => ⟨S850000, .i32⟩
  | 49 => ⟨S850000, .i1⟩
  | 50 => ⟨S_, .i32⟩
  | 51 => ⟨S850000, .i32⟩
  | 52 => ⟨S850000, .i32⟩
  | 53 => ⟨S850000, .i32⟩
  | 54 => ⟨S850000x1, .i32⟩
  | 55 => ⟨S850000, .f32⟩
  | 56 => ⟨S850000, .f32⟩
  | 57 => ⟨S850000x1, .f32⟩
  | 58 => ⟨S50000x256, .f32⟩
  | 59 => ⟨S_, .i32⟩
  | 60 => ⟨S850000, .i32⟩
  | 61 => ⟨S850000, .i1⟩
  | 62 => ⟨S_, .i32⟩
  | 63 => ⟨S850000, .i32⟩
  | 64 => ⟨S850000, .i32⟩
  | 65 => ⟨S850000, .i32⟩
  | 66 => ⟨S850000x1, .i32⟩
  | 67 => ⟨S850000x256, .f32⟩
  | 68 => ⟨S850000x256, .f32⟩
  | 69 => ⟨S850000x256, .f32⟩
  | 70 => ⟨S_, .f32⟩
  | 71 => ⟨S50000x256, .f32⟩
  | 72 => ⟨S850000x1, .i32⟩
  | 73 => ⟨S50000x256, .f32⟩
  | 74 => ⟨S1x256, .f32⟩
  | 75 => ⟨S50000x256, .f32⟩
  | 76 => ⟨S50000x256, .f32⟩
  | 77 => ⟨S_, .f32⟩
  | 78 => ⟨S256, .f32⟩
  | 79 => ⟨S_, .f32⟩
  | 80 => ⟨S256, .f32⟩
  | 81 => ⟨S256, .f32⟩
  | 82 => ⟨S_, .i32⟩
  | 83 => ⟨S_, .f32⟩
  | 84 => ⟨S256, .f32⟩
  | 85 => ⟨S1x256, .f32⟩
  | 86 => ⟨S_, .f32⟩
  | 87 => ⟨S1x256, .f32⟩
  | 88 => ⟨S1x256, .f32⟩
  | 89 => ⟨S50000x256, .f32⟩
  | 90 => ⟨S50000x256, .f32⟩
  | 91 => ⟨S50000x256, .f32⟩
  | 92 => ⟨S_, .f32⟩
  | 93 => ⟨S_, .f32⟩
  | 94 => ⟨S_, .f32⟩
  | 95 => ⟨S_, .f32⟩
  | 96 => ⟨S256, .f32⟩
  | 97 => ⟨S256, .f32⟩
  | 98 => ⟨S256, .f32⟩
  | 99 => ⟨S_, .f32⟩
  | 100 => ⟨S_, .i1⟩
  | 101 => ⟨S_, .f32⟩
  | 102 => ⟨S_, .f32⟩
  | 103 => ⟨S256, .f32⟩
  | 104 => ⟨S256, .f32⟩
  | 105 => ⟨S1x256, .f32⟩
  | 106 => ⟨S50000x256, .f32⟩
  | 107 => ⟨S50000x256, .f32⟩
  | 108 => ⟨S_, .f32⟩
  | 109 => ⟨S256, .f32⟩
  | 110 => ⟨S256, .f32⟩
  | 111 => ⟨S256, .f32⟩
  | 112 => ⟨S1x256, .f32⟩
  | 113 => ⟨S50000x256, .f32⟩
  | 114 => ⟨S50000x256, .f32⟩
  | 115 => ⟨S1x256, .f32⟩
  | 116 => ⟨S50000x256, .f32⟩
  | 117 => ⟨S50000x256, .f32⟩
  | 118 => ⟨S1x256, .f32⟩
  | 119 => ⟨S50000x256, .f32⟩
  | 120 => ⟨S50000x256, .f32⟩
  | 121 => ⟨S_, .f32⟩
  | 122 => ⟨S50000x256, .f32⟩
  | 123 => ⟨S50000x256, .f32⟩
  | 124 => ⟨S50000x256, .f32⟩
  | 125 => ⟨S_, .i32⟩
  | 126 => ⟨S850000, .i32⟩
  | 127 => ⟨S850000, .i1⟩
  | _ => ⟨S50000x256, .f32⟩

abbrev hbmTy0_1 (i : Nat) : BufTy := match i % 128 with
  | 0 => ⟨S_, .i32⟩
  | 1 => ⟨S850000, .i32⟩
  | 2 => ⟨S850000, .i32⟩
  | 3 => ⟨S850000, .i32⟩
  | 4 => ⟨S850000x1, .i32⟩
  | 5 => ⟨S850000x256, .f32⟩
  | 6 => ⟨S850000x256, .f32⟩
  | 7 => ⟨S850000x256, .f32⟩
  | 8 => ⟨S_, .f32⟩
  | 9 => ⟨S50000x256, .f32⟩
  | 10 => ⟨S850000x1, .i32⟩
  | 11 => ⟨S50000x256, .f32⟩
  | 12 => ⟨S1x256, .f32⟩
  | 13 => ⟨S50000x256, .f32⟩
  | 14 => ⟨S50000x256, .f32⟩
  | 15 => ⟨S_, .f32⟩
  | 16 => ⟨S256, .f32⟩
  | 17 => ⟨S_, .f32⟩
  | 18 => ⟨S256, .f32⟩
  | 19 => ⟨S256, .f32⟩
  | 20 => ⟨S_, .i32⟩
  | 21 => ⟨S_, .f32⟩
  | 22 => ⟨S256, .f32⟩
  | 23 => ⟨S1x256, .f32⟩
  | 24 => ⟨S_, .f32⟩
  | 25 => ⟨S1x256, .f32⟩
  | 26 => ⟨S1x256, .f32⟩
  | 27 => ⟨S50000x256, .f32⟩
  | 28 => ⟨S50000x256, .f32⟩
  | 29 => ⟨S50000x256, .f32⟩
  | 30 => ⟨S_, .f32⟩
  | 31 => ⟨S_, .f32⟩
  | 32 => ⟨S_, .f32⟩
  | 33 => ⟨S_, .f32⟩
  | 34 => ⟨S256, .f32⟩
  | 35 => ⟨S256, .f32⟩
  | 36 => ⟨S256, .f32⟩
  | 37 => ⟨S_, .f32⟩
  | 38 => ⟨S_, .i1⟩
  | 39 => ⟨S_, .f32⟩
  | 40 => ⟨S_, .f32⟩
  | 41 => ⟨S256, .f32⟩
  | 42 => ⟨S256, .f32⟩
  | 43 => ⟨S1x256, .f32⟩
  | 44 => ⟨S50000x256, .f32⟩
  | 45 => ⟨S50000x256, .f32⟩
  | 46 => ⟨S_, .f32⟩
  | 47 => ⟨S256, .f32⟩
  | 48 => ⟨S256, .f32⟩
  | 49 => ⟨S256, .f32⟩
  | 50 => ⟨S1x256, .f32⟩
  | 51 => ⟨S50000x256, .f32⟩
  | 52 => ⟨S50000x256, .f32⟩
  | 53 => ⟨S1x256, .f32⟩
  | 54 => ⟨S50000x256, .f32⟩
  | 55 => ⟨S50000x256, .f32⟩
  | 56 => ⟨S1x256, .f32⟩
  | 57 => ⟨S50000x256, .f32⟩
  | 58 => ⟨S50000x256, .f32⟩
  | 59 => ⟨S_, .f32⟩
  | 60 => ⟨S50000x256, .f32⟩
  | 61 => ⟨S50000x256, .f32⟩
  | 62 => ⟨S50000x128, .f32⟩
  | 63 => ⟨S1x128, .f32⟩
  | 64 => ⟨S50000x128, .f32⟩
  | 65 => ⟨S50000x128, .f32⟩
  | 66 => ⟨S50000x128, .f32⟩
  | 67 => ⟨S1x128, .f32⟩
  | 68 => ⟨S50000x128, .f32⟩
  | 69 => ⟨S50000x128, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v16 : Ref sig .tc := ⟨.hbm, 37, rfl⟩
abbrev main_c : Ref sig .tc := ⟨.hbm, 38, rfl⟩
abbrev main_v17 : Ref sig .tc := ⟨.hbm, 39, rfl⟩
abbrev main_v18 : Ref sig .tc := ⟨.hbm, 40, rfl⟩
abbrev main_c_4 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_c_5 : Ref sig .tc := ⟨.hbm, 47, rfl⟩
abbrev main_v24 : Ref sig .tc := ⟨.hbm, 48, rfl⟩
abbrev main_v25 : Ref sig .tc := ⟨.hbm, 49, rfl⟩
abbrev main_c_6 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_c_7 : Ref sig .tc := ⟨.hbm, 59, rfl⟩
abbrev main_v34 : Ref sig .tc := ⟨.hbm, 60, rfl⟩
abbrev main_v35 : Ref sig .tc := ⟨.hbm, 61, rfl⟩
abbrev main_c_8 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_9 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_10 : Ref sig .tc := ⟨.hbm, 77, rfl⟩
abbrev main_v49 : Ref sig .tc := ⟨.hbm, 78, rfl⟩
abbrev main_cst_11 : Ref sig .tc := ⟨.hbm, 79, rfl⟩
abbrev main_v50 : Ref sig .tc := ⟨.hbm, 80, rfl⟩
abbrev main_v51 : Ref sig .tc := ⟨.hbm, 81, rfl⟩
abbrev main_c_12 : Ref sig .tc := ⟨.hbm, 82, rfl⟩
abbrev main_call1_cst : Ref sig .tc := ⟨.hbm, 83, rfl⟩
abbrev main_call1_v0 : Ref sig .tc := ⟨.hbm, 84, rfl⟩
abbrev main_call1_v1 : Ref sig .tc := ⟨.hbm, 85, rfl⟩
abbrev main_call1_cst_0 : Ref sig .tc := ⟨.hbm, 86, rfl⟩
abbrev main_call1_v2 : Ref sig .tc := ⟨.hbm, 87, rfl⟩
abbrev main_call1_v3 : Ref sig .tc := ⟨.hbm, 88, rfl⟩
abbrev main_call1_v4 : Ref sig .tc := ⟨.hbm, 89, rfl⟩
abbrev main_call1_v5 : Ref sig .tc := ⟨.hbm, 90, rfl⟩
abbrev main_call1_v6 : Ref sig .tc := ⟨.hbm, 91, rfl⟩
abbrev main_call1_v7 : Ref sig .tc := ⟨.hbm, 92, rfl⟩
abbrev main_call1_cst_1 : Ref sig .tc := ⟨.hbm, 93, rfl⟩
abbrev main_call1_v8 : Ref sig .tc := ⟨.hbm, 94, rfl⟩
abbrev main_call1_cst_2 : Ref sig .tc := ⟨.hbm, 95, rfl⟩
abbrev main_call1_v9 : Ref sig .tc := ⟨.hbm, 96, rfl⟩
abbrev main_call1_v10 : Ref sig .tc := ⟨.hbm, 97, rfl⟩
abbrev main_call1_v11 : Ref sig .tc := ⟨.hbm, 98, rfl⟩
abbrev main_call1_cst_3 : Ref sig .tc := ⟨.hbm, 99, rfl⟩
abbrev main_call1_v12 : Ref sig .tc := ⟨.hbm, 100, rfl⟩
abbrev main_call1_cst_4 : Ref sig .tc := ⟨.hbm, 101, rfl⟩
abbrev main_call1_call0_v0 : Ref sig .tc := ⟨.hbm, 102, rfl⟩
abbrev main_call1_call0_v1 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_cst_13 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_call2_cst : Ref sig .tc := ⟨.hbm, 121, rfl⟩
abbrev main_call2_v0 : Ref sig .tc := ⟨.hbm, 122, rfl⟩
abbrev main_v68 : Ref sig .tc := ⟨.hbm, 123, rfl⟩
abbrev main_v69 : Ref sig .tc := ⟨.hbm, 124, rfl⟩
abbrev main_c_14 : Ref sig .tc := ⟨.hbm, 125, rfl⟩
abbrev main_v70 : Ref sig .tc := ⟨.hbm, 126, rfl⟩
abbrev main_v71 : Ref sig .tc := ⟨.hbm, 127, rfl⟩
abbrev main_c_15 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_cst_16 : Ref sig .tc := ⟨.hbm, 136, rfl⟩
abbrev main_v79 : Ref sig .tc := ⟨.hbm, 137, rfl⟩
abbrev main_v80 : Ref sig .tc := ⟨.hbm, 138, rfl⟩
abbrev main_v81 : Ref sig .tc := ⟨.hbm, 139, rfl⟩
abbrev main_v82 : Ref sig .tc := ⟨.hbm, 140, rfl⟩
abbrev main_v83 : Ref sig .tc := ⟨.hbm, 141, rfl⟩
abbrev main_v84 : Ref sig .tc := ⟨.hbm, 142, rfl⟩
abbrev main_cst_17 : Ref sig .tc := ⟨.hbm, 143, rfl⟩
abbrev main_v85 : Ref sig .tc := ⟨.hbm, 144, rfl⟩
abbrev main_cst_18 : Ref sig .tc := ⟨.hbm, 145, rfl⟩
abbrev main_v86 : Ref sig .tc := ⟨.hbm, 146, rfl⟩
abbrev main_v87 : Ref sig .tc := ⟨.hbm, 147, rfl⟩
abbrev main_c_19 : Ref sig .tc := ⟨.hbm, 148, rfl⟩
abbrev main_call3_cst : Ref sig .tc := ⟨.hbm, 149, rfl⟩
abbrev main_call3_v0 : Ref sig .tc := ⟨.hbm, 150, rfl⟩
abbrev main_call3_v1 : Ref sig .tc := ⟨.hbm, 151, rfl⟩
abbrev main_call3_cst_0 : Ref sig .tc := ⟨.hbm, 152, rfl⟩
abbrev main_call3_v2 : Ref sig .tc := ⟨.hbm, 153, rfl⟩
abbrev main_call3_v3 : Ref sig .tc := ⟨.hbm, 154, rfl⟩
abbrev main_call3_v4 : Ref sig .tc := ⟨.hbm, 155, rfl⟩
abbrev main_call3_v5 : Ref sig .tc := ⟨.hbm, 156, rfl⟩
abbrev main_call3_v6 : Ref sig .tc := ⟨.hbm, 157, rfl⟩
abbrev main_call3_v7 : Ref sig .tc := ⟨.hbm, 158, rfl⟩
abbrev main_call3_cst_1 : Ref sig .tc := ⟨.hbm, 159, rfl⟩
abbrev main_call3_v8 : Ref sig .tc := ⟨.hbm, 160, rfl⟩
abbrev main_call3_cst_2 : Ref sig .tc := ⟨.hbm, 161, rfl⟩
abbrev main_call3_v9 : Ref sig .tc := ⟨.hbm, 162, rfl⟩
abbrev main_call3_v10 : Ref sig .tc := ⟨.hbm, 163, rfl⟩
abbrev main_call3_v11 : Ref sig .tc := ⟨.hbm, 164, rfl⟩
abbrev main_call3_cst_3 : Ref sig .tc := ⟨.hbm, 165, rfl⟩
abbrev main_call3_v12 : Ref sig .tc := ⟨.hbm, 166, rfl⟩
abbrev main_call3_cst_4 : Ref sig .tc := ⟨.hbm, 167, rfl⟩
abbrev main_call3_call0_v0 : Ref sig .tc := ⟨.hbm, 168, rfl⟩
abbrev main_call3_call0_v1 : Ref sig .tc := ⟨.hbm, 169, rfl⟩
abbrev main_v88 : Ref sig .tc := ⟨.hbm, 170, rfl⟩
abbrev main_v89 : Ref sig .tc := ⟨.hbm, 171, rfl⟩
abbrev main_v90 : Ref sig .tc := ⟨.hbm, 172, rfl⟩
abbrev main_v91 : Ref sig .tc := ⟨.hbm, 173, rfl⟩
abbrev main_cst_20 : Ref sig .tc := ⟨.hbm, 174, rfl⟩
abbrev main_v92 : Ref sig .tc := ⟨.hbm, 175, rfl⟩
abbrev main_v93 : Ref sig .tc := ⟨.hbm, 176, rfl⟩
abbrev main_v94 : Ref sig .tc := ⟨.hbm, 177, rfl⟩
abbrev main_v95 : Ref sig .tc := ⟨.hbm, 178, rfl⟩
abbrev main_v96 : Ref sig .tc := ⟨.hbm, 179, rfl⟩
abbrev main_v97 : Ref sig .tc := ⟨.hbm, 180, rfl⟩
abbrev main_v98 : Ref sig .tc := ⟨.hbm, 181, rfl⟩
abbrev main_v99 : Ref sig .tc := ⟨.hbm, 182, rfl⟩
abbrev main_v100 : Ref sig .tc := ⟨.hbm, 183, rfl⟩
abbrev main_v101 : Ref sig .tc := ⟨.hbm, 184, rfl⟩
abbrev main_v102 : Ref sig .tc := ⟨.hbm, 185, rfl⟩
abbrev main_v103 : Ref sig .tc := ⟨.hbm, 186, rfl⟩
abbrev main_call4_cst : Ref sig .tc := ⟨.hbm, 187, rfl⟩
abbrev main_call4_v0 : Ref sig .tc := ⟨.hbm, 188, rfl⟩
abbrev main_v104 : Ref sig .tc := ⟨.hbm, 189, rfl⟩
abbrev main_v105 : Ref sig .tc := ⟨.hbm, 190, rfl⟩
abbrev main_v106 : Ref sig .tc := ⟨.hbm, 191, rfl⟩
abbrev main_v107 : Ref sig .tc := ⟨.hbm, 192, rfl⟩
abbrev main_v108 : Ref sig .tc := ⟨.hbm, 193, rfl⟩
abbrev main_v109 : Ref sig .tc := ⟨.hbm, 194, rfl⟩
abbrev main_v110 : Ref sig .tc := ⟨.hbm, 195, rfl⟩
abbrev main_v111 : Ref sig .tc := ⟨.hbm, 196, rfl⟩
abbrev main_v112 : Ref sig .tc := ⟨.hbm, 197, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S256_d0 : S50000x256.ReducesTo [0] S256
  h_S_ : 0 < S_.numel
  bcast_S_S256 : S_.BroadcastsInDim S256 (![] : Fin 0 → Fin S256.rank)
  bcast_S_S1x256 : S_.BroadcastsInDim S1x256 (![] : Fin 0 → Fin S1x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x256_S256x256_S50000x256_1_0_0_1_n_n_wf : DotDims.WF S50000x256 S256x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x128_S50000x128_1_0_0_1_n_n_wf : DotDims.WF S50000x256 S256x128 S50000x128 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.KernelRun.lean ====
/-
  The idealized kernel program's run with every buffer named.

  The program is sixteen segments — stretches of host operations and five tiled regions — and the contents of the
  TensorCore's buffers at each segment boundary are a fold from the launch memory (`Gen.W0 … Gen.W16`). Every weakly
  fair execution terminates without a fault, and in its final state each buffer that is not scoped to a region holds
  what the last boundary's contents `Gen.W16` give it. The argument arrays and the two results are among those buffers.
-/
import proofs.«135953_j54030688584374_1_alg».proof.Proof.Gen.KernelIdeal.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and every buffer not scoped to a region
    ends at the last boundary's contents. -/
theorem run_all : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W16 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c b hb => h c _ (mem_uc b hb))

end Cert.KernelIdeal.Hand

end
-- ==== Proof.RefRun.lean ====
/-
  The reference program's run, as one line of operations.

  The reference's entry function is a straight line of tensor operations, five of them calls of local
  functions (a select against a broadcast scalar, a column variance which itself calls such a select, and
  a maximum with zero, the last two called twice). Substituting each call's body over that call's own
  buffers gives one list of operations, `ops`, cut here into nine consecutive pieces. `main_eq` states
  that the entry function is the program that runs `ops` in order; `run_all` that every fair execution
  from a memory with zero counters terminates with every buffer at the fold of the operations' results
  over the launch contents.
-/
import proofs.«135953_j54030688584374_1_alg».proof.Proof.Gen.ReferenceIdeal
import Idealize.ShloMosaic.Lib.StableHlo.Run
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The operations, in nine consecutive pieces -/

/-- The edge list extended by one self-loop per node, and the node degrees: a scatter-add of ones at the targets, compared with zero, and the inverse square root of the larger of the degree and one. (21 operations.) -/
abbrev opsPrepA : List (HloOp τ sig (Elt F)) :=
  [ StableHlo.nullary main_v0 (iotaInDim S50000 32 0),
    StableHlo.unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v1 main_v2 rfl shapeCasts_S1x800000_S800000,
    StableHlo.binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v4 main_v5 rfl shapeCasts_S1x800000_S800000,
    StableHlo.binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst (constant S_ .f32 0x3F800000#32),
    StableHlo.unary main_cst main_v7 (broadcastInDim S850000 ![] bcast_S_S850000 : (⟨S_, .f32⟩ : BufTy).Contents (Elt F) → (⟨S850000, .f32⟩ : BufTy).Contents (Elt F)),
    StableHlo.nullary main_cst_0 (constant S_ .f32 0x00000000#32),
    StableHlo.unary main_cst_0 main_v8 (broadcastInDim S50000 ![] bcast_S_S50000 : (⟨S_, .f32⟩ : BufTy).Contents (Elt F) → (⟨S50000, .f32⟩ : BufTy).Contents (Elt F)),
    StableHlo.unary main_v6 main_v9 (broadcastInDim S850000x1 ![0] bcast_S850000_S850000x1_0 : (⟨S850000, .i32⟩ : BufTy).Contents (Elt F) → (⟨S850000x1, .i32⟩ : BufTy).Contents (Elt F)),
    StableHlo.ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_1 (constant S_ .f32 0x00000000#32),
    StableHlo.unary main_cst_1 main_v11 (broadcastInDim S50000 ![] bcast_S_S50000 : (⟨S_, .f32⟩ : BufTy).Contents (Elt F) → (⟨S50000, .f32⟩ : BufTy).Contents (Elt F)),
    StableHlo.binary main_v10 main_v11 main_v12 (cmpf .ogt : (⟨S50000, .f32⟩ : BufTy).Contents (Elt F) → (⟨S50000, .f32⟩ : BufTy).Contents (Elt F) → (⟨S50000, .i1⟩ : BufTy).Contents (Elt F)),
    StableHlo.nullary main_cst_2 (constant S_ .f32 0x3F800000#32),
    StableHlo.unary main_cst_2 main_v13 (broadcastInDim S50000 ![] bcast_S_S50000 : (⟨S_, .f32⟩ : BufTy).Contents (Elt F) → (⟨S50000, .f32⟩ : BufTy).Contents (Elt F)),
    StableHlo.binary main_v10 main_v13 main_v14 (maximumf : (⟨S50000, .f32⟩ : BufTy).Contents (Elt F) → (⟨S50000, .f32⟩ : BufTy).Contents (Elt F) → (⟨S50000, .f32⟩ : BufTy).Contents (Elt F)),
    StableHlo.unary main_v14 main_v15 (Host.rsqrt : (⟨S50000, .f32⟩ : BufTy).Contents (Elt F) → (⟨S50000, .f32⟩ : BufTy).Contents (Elt F)),
    StableHlo.nullary main_cst_3 (constant S_ .f32 0x00000000#32) ]

/-- The inverse square root kept where the degree is positive and zero elsewhere, gathered at both ends of every edge (a negative index counted from the end) and multiplied: the edge weights. (23 operations.) -/
abbrev opsPrepB : List (HloOp τ sig (Elt F)) :=
  [ StableHlo.TRef.unary (.of main_cst_3 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S50000, .f32⟩) (broadcastInDim S50000 ![] bcast_S_S50000),
    StableHlo.TRef.ternary (.of main_v12 : StableHlo.TRef sig ⟨S50000, .i1⟩) (.of main_v15 : StableHlo.TRef sig ⟨S50000, .f32⟩) (.of main_call0_v1 : StableHlo.TRef sig ⟨S50000, .f32⟩) (.of main_v16 : StableHlo.TRef sig ⟨S50000, .f32⟩) select,
    StableHlo.nullary main_c (constantI S_ 32 0#32),
    StableHlo.unary main_c main_v17 (broadcastInDim S850000 ![] bcast_S_S850000 : (⟨S_, .i32⟩ : BufTy).Contents (Elt F) → (⟨S850000, .i32⟩ : BufTy).Contents (Elt F)),
    StableHlo.binary main_v3 main_v17 main_v18 (cmpi .slt : (⟨S850000, .i32⟩ : BufTy).Contents (Elt F) → (⟨S850000, .i32⟩ : BufTy).Contents (Elt F) → (⟨S850000, .i1⟩ : BufTy).Contents (Elt F)),
    StableHlo.nullary main_c_4 (constantI S_ 32 50000#32),
    StableHlo.unary main_c_4 main_v19 (broadcastInDim S850000 ![] bcast_S_S850000 : (⟨S_, .i32⟩ : BufTy).Contents (Elt F) → (⟨S850000, .i32⟩ : BufTy).Contents (Elt F)),
    StableHlo.binary main_v3 main_v19 main_v20 (addi : (⟨S850000, .i32⟩ : BufTy).Contents (Elt F) → (⟨S850000, .i32⟩ : BufTy).Contents (Elt F) → (⟨S850000, .i32⟩ : BufTy).Contents (Elt F)),
    StableHlo.ternary main_v18 main_v20 main_v3 main_v21 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v21 main_v22 (broadcastInDim S850000x1 ![0] bcast_S850000_S850000x1_0 : (⟨S850000, .i32⟩ : BufTy).Contents (Elt F) → (⟨S850000x1, .i32⟩ : BufTy).Contents (Elt F)),
    StableHlo.binary main_v16 main_v22 main_v23 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_5 (constantI S_ 32 0#32),
    StableHlo.unary main_c_5 main_v24 (broadcastInDim S850000 ![] bcast_S_S850000 : (⟨S_, .i32⟩ : BufTy).Contents (Elt F) → (⟨S850000, .i32⟩ : BufTy).Contents (Elt F)),
    StableHlo.binary main_v6 main_v24 main_v25 (cmpi .slt : (⟨S850000, .i32⟩ : BufTy).Contents (Elt F) → (⟨S850000, .i32⟩ : BufTy).Contents (Elt F) → (⟨S850000, .i1⟩ : BufTy).Contents (Elt F)),
    StableHlo.nullary main_c_6 (constantI S_ 32 50000#32),
    StableHlo.unary main_c_6 main_v26 (broadcastInDim S850000 ![] bcast_S_S850000 : (⟨S_, .i32⟩ : BufTy).Contents (Elt F) → (⟨S850000, .i32⟩ : BufTy).Contents (Elt F)),
    StableHlo.binary main_v6 main_v26 main_v27 (addi : (⟨S850000, .i32⟩ : BufTy).Contents (Elt F) → (⟨S850000, .i32⟩ : BufTy).Contents (Elt F) → (⟨S850000, .i32⟩ : BufTy).Contents (Elt F)),
    StableHlo.ternary main_v25 main_v27 main_v6 main_v28 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v28 main_v29 (broadcastInDim S850000x1 ![0] bcast_S850000_S850000x1_0 : (⟨S850000, .i32⟩ : BufTy).Contents (Elt F) → (⟨S850000x1, .i32⟩ : BufTy).Contents (Elt F)),
    StableHlo.binary main_v16 main_v29 main_v30 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v23 main_v30 main_v31 (mulf : (⟨S850000, .f32⟩ : BufTy).Contents (Elt F) → (⟨S850000, .f32⟩ : BufTy).Contents (Elt F) → (⟨S850000, .f32⟩ : BufTy).Contents (Elt F)),
    StableHlo.unary main_v31 main_v32 (broadcastInDim S850000x1 ![0] bcast_S850000_S850000x1_0 : (⟨S850000, .f32⟩ : BufTy).Contents (Elt F) → (⟨S850000x1, .f32⟩ : BufTy).Contents (Elt F)) ]

/-- The first layer's matrix product. (1 operation.) -/
abbrev opsDot0 : List (HloOp τ sig (Elt F)) :=
  [ StableHlo.binary main_arg0 main_arg2 main_v33 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)) ]

/-- The first layer's propagation: rows gathered along the edges, weighted, scatter-added at the targets, the bias added; then the column means and the column variances. (46 operations.) -/
abbrev opsConv0 : List (HloOp τ sig (Elt F)) :=
  [ StableHlo.nullary main_c_7 (constantI S_ 32 0#32),
    StableHlo.unary main_c_7 main_v34 (broadcastInDim S850000 ![] bcast_S_S850000 : (⟨S_, .i32⟩ : BufTy).Contents (Elt F) → (⟨S850000, .i32⟩ : BufTy).Contents (Elt F)),
    StableHlo.binary main_v3 main_v34 main_v35 (cmpi .slt : (⟨S850000, .i32⟩ : BufTy).Contents (Elt F) → (⟨S850000, .i32⟩ : BufTy).Contents (Elt F) → (⟨S850000, .i1⟩ : BufTy).Contents (Elt F)),
    StableHlo.nullary main_c_8 (constantI S_ 32 50000#32),
    StableHlo.unary main_c_8 main_v36 (broadcastInDim S850000 ![] bcast_S_S850000 : (⟨S_, .i32⟩ : BufTy).Contents (Elt F) → (⟨S850000, .i32⟩ : BufTy).Contents (Elt F)),
    StableHlo.binary main_v3 main_v36 main_v37 (addi : (⟨S850000, .i32⟩ : BufTy).Contents (Elt F) → (⟨S850000, .i32⟩ : BufTy).Contents (Elt F) → (⟨S850000, .i32⟩ : BufTy).Contents (Elt F)),
    StableHlo.ternary main_v35 main_v37 main_v3 main_v38 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v38 main_v39 (broadcastInDim S850000x1 ![0] bcast_S850000_S850000x1_0 : (⟨S850000, .i32⟩ : BufTy).Contents (Elt F) → (⟨S850000x1, .i32⟩ : BufTy).Contents (Elt F)),
    StableHlo.binary main_v33 main_v39 main_v40 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    StableHlo.unary main_v32 main_v41 (broadcastInDim S850000x256 ![0, 1] bcast_S850000x1_S850000x256_0_1 : (⟨S850000x1, .f32⟩ : BufTy).Contents (Elt F) → (⟨S850000x256, .f32⟩ : BufTy).Contents (Elt F)),
    StableHlo.binary main_v40 main_v41 main_v42 (mulf : (⟨S850000x256, .f32⟩ : BufTy).Contents (Elt F) → (⟨S850000x256, .f32⟩ : BufTy).Contents (Elt F) → (⟨S850000x256, .f32⟩ : BufTy).Contents (Elt F)),
    StableHlo.nullary main_cst_9 (constant S_ .f32 0x00000000#32),
    StableHlo.unary main_cst_9 main_v43 (broadcastInDim S50000x256 ![] bcast_S_S50000x256 : (⟨S_, .f32⟩ : BufTy).Contents (Elt F) → (⟨S50000x256, .f32⟩ : BufTy).Contents (Elt F)),
    StableHlo.unary main_v6 main_v44 (broadcastInDim S850000x1 ![0] bcast_S850000_S850000x1_0 : (⟨S850000, .i32⟩ : BufTy).Contents (Elt F) → (⟨S850000x1, .i32⟩ : BufTy).Contents (Elt F)),
    StableHlo.ternary main_v43 main_v44 main_v42 main_v45 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    StableHlo.unary main_arg3 main_v46 (broadcastInDim S1x256 ![1] bcast_S256_S1x256_1 : (⟨S256, .f32⟩ : BufTy).Contents (Elt F) → (⟨S1x256, .f32⟩ : BufTy).Contents (Elt F)),
    StableHlo.unary main_v46 main_v47 (broadcastInDim S50000x256 ![0, 1] bcast_S1x256_S50000x256_0_1 : (⟨S1x256, .f32⟩ : BufTy).Contents (Elt F) → (⟨S50000x256, .f32⟩ : BufTy).Contents (Elt F)),
    StableHlo.binary main_v45 main_v47 main_v48 (addf : (⟨S50000x256, .f32⟩ : BufTy).Contents (Elt F) → (⟨S50000x256, .f32⟩ : BufTy).Contents (Elt F) → (⟨S50000x256, .f32⟩ : BufTy).Contents (Elt F)),
    StableHlo.nullary main_cst_10 (constant S_ .f32 0x00000000#32),
    StableHlo.binary main_v48 main_cst_10 main_v49 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_11 (constant S_ .f32 0x47435000#32),
    StableHlo.unary main_cst_11 main_v50 (broadcastInDim S256 ![] bcast_S_S256 : (⟨S_, .f32⟩ : BufTy).Contents (Elt F) → (⟨S256, .f32⟩ : BufTy).Contents (Elt F)),
    StableHlo.binary main_v49 main_v50 main_v51 (Host.divf : (⟨S256, .f32⟩ : BufTy).Contents (Elt F) → (⟨S256, .f32⟩ : BufTy).Contents (Elt F) → (⟨S256, .f32⟩ : BufTy).Contents (Elt F)),
    StableHlo.nullary main_c_12 (constantI S_ 32 0#32),
    StableHlo.TRef.nullary (.of main_call1_cst : StableHlo.TRef sig ⟨S_, .f32⟩) (constant S_ .f32 0x00000000#32),
    StableHlo.TRef.binary (.of main_v48 : StableHlo.TRef sig ⟨S50000x256, .f32⟩) (.of main_call1_cst : StableHlo.TRef sig ⟨S_, .f32⟩) (.of main_call1_v0 : StableHlo.TRef sig ⟨S256, .f32⟩) (fun x v => Host.reduceAdd x v reducesTo_S50000x256_S256_d0 h_S_),
    StableHlo.TRef.unary (.of main_call1_v0 : StableHlo.TRef sig ⟨S256, .f32⟩) (.of main_call1_v1 : StableHlo.TRef sig ⟨S1x256, .f32⟩) (broadcastInDim S1x256 ![1] bcast_S256_S1x256_1),
    StableHlo.TRef.nullary (.of main_call1_cst_0 : StableHlo.TRef sig ⟨S_, .f32⟩) (constant S_ .f32 0x47435000#32),
    StableHlo.TRef.unary (.of main_call1_cst_0 : StableHlo.TRef sig ⟨S_, .f32⟩) (.of main_call1_v2 : StableHlo.TRef sig ⟨S1x256, .f32⟩) (broadcastInDim S1x256 ![] bcast_S_S1x256),
    StableHlo.TRef.binary (.of main_call1_v1 : StableHlo.TRef sig ⟨S1x256, .f32⟩) (.of main_call1_v2 : StableHlo.TRef sig ⟨S1x256, .f32⟩) (.of main_call1_v3 : StableHlo.TRef sig ⟨S1x256, .f32⟩) Host.divf,
    StableHlo.TRef.unary (.of main_call1_v3 : StableHlo.TRef sig ⟨S1x256, .f32⟩) (.of main_call1_v4 : StableHlo.TRef sig ⟨S50000x256, .f32⟩) (broadcastInDim S50000x256 ![0, 1] bcast_S1x256_S50000x256_0_1),
    StableHlo.TRef.binary (.of main_v48 : StableHlo.TRef sig ⟨S50000x256, .f32⟩) (.of main_call1_v4 : StableHlo.TRef sig ⟨S50000x256, .f32⟩) (.of main_call1_v5 : StableHlo.TRef sig ⟨S50000x256, .f32⟩) subf,
    StableHlo.TRef.binary (.of main_call1_v5 : StableHlo.TRef sig ⟨S50000x256, .f32⟩) (.of main_call1_v5 : StableHlo.TRef sig ⟨S50000x256, .f32⟩) (.of main_call1_v6 : StableHlo.TRef sig ⟨S50000x256, .f32⟩) mulf,
    StableHlo.TRef.unary (.of main_c_12 : StableHlo.TRef sig ⟨S_, .i32⟩) (.of main_call1_v7 : StableHlo.TRef sig ⟨S_, .f32⟩) (sitofp .f32),
    StableHlo.TRef.nullary (.of main_call1_cst_1 : StableHlo.TRef sig ⟨S_, .f32⟩) (constant S_ .f32 0x47435000#32),
    StableHlo.TRef.binary (.of main_call1_cst_1 : StableHlo.TRef sig ⟨S_, .f32⟩) (.of main_call1_v7 : StableHlo.TRef sig ⟨S_, .f32⟩) (.of main_call1_v8 : StableHlo.TRef sig ⟨S_, .f32⟩) subf,
    StableHlo.TRef.nullary (.of main_call1_cst_2 : StableHlo.TRef sig ⟨S_, .f32⟩) (constant S_ .f32 0x00000000#32),
    StableHlo.TRef.binary (.of main_call1_v6 : StableHlo.TRef sig ⟨S50000x256, .f32⟩) (.of main_call1_cst_2 : StableHlo.TRef sig ⟨S_, .f32⟩) (.of main_call1_v9 : StableHlo.TRef sig ⟨S256, .f32⟩) (fun x v => Host.reduceAdd x v reducesTo_S50000x256_S256_d0 h_S_),
    StableHlo.TRef.unary (.of main_call1_v8 : StableHlo.TRef sig ⟨S_, .f32⟩) (.of main_call1_v10 : StableHlo.TRef sig ⟨S256, .f32⟩) (broadcastInDim S256 ![] bcast_S_S256),
    StableHlo.TRef.binary (.of main_call1_v9 : StableHlo.TRef sig ⟨S256, .f32⟩) (.of main_call1_v10 : StableHlo.TRef sig ⟨S256, .f32⟩) (.of main_call1_v11 : StableHlo.TRef sig ⟨S256, .f32⟩) Host.divf,
    StableHlo.TRef.nullary (.of main_call1_cst_3 : StableHlo.TRef sig ⟨S_, .f32⟩) (constant S_ .f32 0x00000000#32),
    StableHlo.TRef.binary (.of main_call1_v8 : StableHlo.TRef sig ⟨S_, .f32⟩) (.of main_call1_cst_3 : StableHlo.TRef sig ⟨S_, .f32⟩) (.of main_call1_v12 : StableHlo.TRef sig ⟨S_, .i1⟩) (cmpf .ogt),
    StableHlo.TRef.nullary (.of main_call1_cst_4 : StableHlo.TRef sig ⟨S_, .f32⟩) (constant S_ .f32 0x7FC00000#32),
    StableHlo.TRef.unary (.of main_call1_cst_4 : StableHlo.TRef sig ⟨S_, .f32⟩) (.of main_call1_call0_v0 : StableHlo.TRef sig ⟨S_, .f32⟩) id,
    StableHlo.TRef.unary (.of main_call1_call0_v0 : StableHlo.TRef sig ⟨S_, .f32⟩) (.of main_call1_call0_v1 : StableHlo.TRef sig ⟨S256, .f32⟩) (broadcastInDim S256 ![] bcast_S_S256),
    StableHlo.TRef.ternary (.of main_call1_v12 : StableHlo.TRef sig ⟨S_, .i1⟩) (.of main_call1_v11 : StableHlo.TRef sig ⟨S256, .f32⟩) (.of main_call1_call0_v1 : StableHlo.TRef sig ⟨S256, .f32⟩) (.of main_v52 : StableHlo.TRef sig ⟨S256, .f32⟩) (fun p a b => select (broadcastInDim S256 ![] bcast_S_S256 p) a b) ]

/-- The first layer's normalisation by the column mean and variance, scale and shift, then the maximum with zero. (19 operations.) -/
abbrev opsNorm0 : List (HloOp τ sig (Elt F)) :=
  [ StableHlo.unary main_v51 main_v53 (broadcastInDim S1x256 ![1] bcast_S256_S1x256_1 : (⟨S256, .f32⟩ : BufTy).Contents (Elt F) → (⟨S1x256, .f32⟩ : BufTy).Contents (Elt F)),
    StableHlo.unary main_v53 main_v54 (broadcastInDim S50000x256 ![0, 1] bcast_S1x256_S50000x256_0_1 : (⟨S1x256, .f32⟩ : BufTy).Contents (Elt F) → (⟨S50000x256, .f32⟩ : BufTy).Contents (Elt F)),
    StableHlo.binary main_v48 main_v54 main_v55 (subf : (⟨S50000x256, .f32⟩ : BufTy).Contents (Elt F) → (⟨S50000x256, .f32⟩ : BufTy).Contents (Elt F) → (⟨S50000x256, .f32⟩ : BufTy).Contents (Elt F)),
    StableHlo.nullary main_cst_13 (constant S_ .f32 0x3727C5AC#32),
    StableHlo.unary main_cst_13 main_v56 (broadcastInDim S256 ![] bcast_S_S256 : (⟨S_, .f32⟩ : BufTy).Contents (Elt F) → (⟨S256, .f32⟩ : BufTy).Contents (Elt F)),
    StableHlo.binary main_v52 main_v56 main_v57 (addf : (⟨S256, .f32⟩ : BufTy).Contents (Elt F) → (⟨S256, .f32⟩ : BufTy).Contents (Elt F) → (⟨S256, .f32⟩ : BufTy).Contents (Elt F)),
    StableHlo.unary main_v57 main_v58 (Host.rsqrt : (⟨S256, .f32⟩ : BufTy).Contents (Elt F) → (⟨S256, .f32⟩ : BufTy).Contents (Elt F)),
    StableHlo.unary main_v58 main_v59 (broadcastInDim S1x256 ![1] bcast_S256_S1x256_1 : (⟨S256, .f32⟩ : BufTy).Contents (Elt F) → (⟨S1x256, .f32⟩ : BufTy).Contents (Elt F)),
    StableHlo.unary main_v59 main_v60 (broadcastInDim S50000x256 ![0, 1] bcast_S1x256_S50000x256_0_1 : (⟨S1x256, .f32⟩ : BufTy).Contents (Elt F) → (⟨S50000x256, .f32⟩ : BufTy).Contents (Elt F)),
    StableHlo.binary main_v55 main_v60 main_v61 (mulf : (⟨S50000x256, .f32⟩ : BufTy).Contents (Elt F) → (⟨S50000x256, .f32⟩ : BufTy).Contents (Elt F) → (⟨S50000x256, .f32⟩ : BufTy).Contents (Elt F)),
    StableHlo.unary main_arg4 main_v62 (broadcastInDim S1x256 ![1] bcast_S256_S1x256_1 : (⟨S256, .f32⟩ : BufTy).Contents (Elt F) → (⟨S1x256, .f32⟩ : BufTy).Contents (Elt F)),
    StableHlo.unary main_v62 main_v63 (broadcastInDim S50000x256 ![0, 1] bcast_S1x256_S50000x256_0_1 : (⟨S1x256, .f32⟩ : BufTy).Contents (Elt F) → (⟨S50000x256, .f32⟩ : BufTy).Contents (Elt F)),
    StableHlo.binary main_v61 main_v63 main_v64 (mulf : (⟨S50000x256, .f32⟩ : BufTy).Contents (Elt F) → (⟨S50000x256, .f32⟩ : BufTy).Contents (Elt F) → (⟨S50000x256, .f32⟩ : BufTy).Contents (Elt F)),
    StableHlo.unary main_arg5 main_v65 (broadcastInDim S1x256 ![1] bcast_S256_S1x256_1 : (⟨S256, .f32⟩ : BufTy).Contents (Elt F) → (⟨S1x256, .f32⟩ : BufTy).Contents (Elt F)),
    StableHlo.unary main_v65 main_v66 (broadcastInDim S50000x256 ![0, 1] bcast_S1x256_S50000x256_0_1 : (⟨S1x256, .f32⟩ : BufTy).Contents (Elt F) → (⟨S50000x256, .f32⟩ : BufTy).Contents (Elt F)),
    StableHlo.binary main_v64 main_v66 main_v67 (addf : (⟨S50000x256, .f32⟩ : BufTy).Contents (Elt F) → (⟨S50000x256, .f32⟩ : BufTy).Contents (Elt F) → (⟨S50000x256, .f32⟩ : BufTy).Contents (Elt F)),
    StableHlo.TRef.nullary (.of main_call2_cst : StableHlo.TRef sig ⟨S_, .f32⟩) (constant S_ .f32 0x00000000#32),
    StableHlo.TRef.unary (.of main_call2_cst : StableHlo.TRef sig ⟨S_, .f32⟩) (.of main_call2_v0 : StableHlo.TRef sig ⟨S50000x256, .f32⟩) (broadcastInDim S50000x256 ![] bcast_S_S50000x256),
    StableHlo.TRef.binary (.of main_v67 : StableHlo.TRef sig ⟨S50000x256, .f32⟩) (.of main_call2_v0 : StableHlo.TRef sig ⟨S50000x256, .f32⟩) (.of main_v68 : StableHlo.TRef sig ⟨S50000x256, .f32⟩) maximumf ]

/-- The second layer's matrix product. (1 operation.) -/
abbrev opsDot1 : List (HloOp τ sig (Elt F)) :=
  [ StableHlo.binary main_v68 main_arg6 main_v69 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)) ]

/-- The second layer's propagation, column means and column variances. (46 operations.) -/
abbrev opsConv1 : List (HloOp τ sig (Elt F)) :=
  [ StableHlo.nullary main_c_14 (constantI S_ 32 0#32),
    StableHlo.unary main_c_14 main_v70 (broadcastInDim S850000 ![] bcast_S_S850000 : (⟨S_, .i32⟩ : BufTy).Contents (Elt F) → (⟨S850000, .i32⟩ : BufTy).Contents (Elt F)),
    StableHlo.binary main_v3 main_v70 main_v71 (cmpi .slt : (⟨S850000, .i32⟩ : BufTy).Contents (Elt F) → (⟨S850000, .i32⟩ : BufTy).Contents (Elt F) → (⟨S850000, .i1⟩ : BufTy).Contents (Elt F)),
    StableHlo.nullary main_c_15 (constantI S_ 32 50000#32),
    StableHlo.unary main_c_15 main_v72 (broadcastInDim S850000 ![] bcast_S_S850000 : (⟨S_, .i32⟩ : BufTy).Contents (Elt F) → (⟨S850000, .i32⟩ : BufTy).Contents (Elt F)),
    StableHlo.binary main_v3 main_v72 main_v73 (addi : (⟨S850000, .i32⟩ : BufTy).Contents (Elt F) → (⟨S850000, .i32⟩ : BufTy).Contents (Elt F) → (⟨S850000, .i32⟩ : BufTy).Contents (Elt F)),
    StableHlo.ternary main_v71 main_v73 main_v3 main_v74 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v74 main_v75 (broadcastInDim S850000x1 ![0] bcast_S850000_S850000x1_0 : (⟨S850000, .i32⟩ : BufTy).Contents (Elt F) → (⟨S850000x1, .i32⟩ : BufTy).Contents (Elt F)),
    StableHlo.binary main_v69 main_v75 main_v76 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    StableHlo.unary main_v32 main_v77 (broadcastInDim S850000x256 ![0, 1] bcast_S850000x1_S850000x256_0_1 : (⟨S850000x1, .f32⟩ : BufTy).Contents (Elt F) → (⟨S850000x256, .f32⟩ : BufTy).Contents (Elt F)),
    StableHlo.binary main_v76 main_v77 main_v78 (mulf : (⟨S850000x256, .f32⟩ : BufTy).Contents (Elt F) → (⟨S850000x256, .f32⟩ : BufTy).Contents (Elt F) → (⟨S850000x256, .f32⟩ : BufTy).Contents (Elt F)),
    StableHlo.nullary main_cst_16 (constant S_ .f32 0x00000000#32),
    StableHlo.unary main_cst_16 main_v79 (broadcastInDim S50000x256 ![] bcast_S_S50000x256 : (⟨S_, .f32⟩ : BufTy).Contents (Elt F) → (⟨S50000x256, .f32⟩ : BufTy).Contents (Elt F)),
    StableHlo.unary main_v6 main_v80 (broadcastInDim S850000x1 ![0] bcast_S850000_S850000x1_0 : (⟨S850000, .i32⟩ : BufTy).Contents (Elt F) → (⟨S850000x1, .i32⟩ : BufTy).Contents (Elt F)),
    StableHlo.ternary main_v79 main_v80 main_v78 main_v81 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    StableHlo.unary main_arg7 main_v82 (broadcastInDim S1x256 ![1] bcast_S256_S1x256_1 : (⟨S256, .f32⟩ : BufTy).Contents (Elt F) → (⟨S1x256, .f32⟩ : BufTy).Contents (Elt F)),
    StableHlo.unary main_v82 main_v83 (broadcastInDim S50000x256 ![0, 1] bcast_S1x256_S50000x256_0_1 : (⟨S1x256, .f32⟩ : BufTy).Contents (Elt F) → (⟨S50000x256, .f32⟩ : BufTy).Contents (Elt F)),
    StableHlo.binary main_v81 main_v83 main_v84 (addf : (⟨S50000x256, .f32⟩ : BufTy).Contents (Elt F) → (⟨S50000x256, .f32⟩ : BufTy).Contents (Elt F) → (⟨S50000x256, .f32⟩ : BufTy).Contents (Elt F)),
    StableHlo.nullary main_cst_17 (constant S_ .f32 0x00000000#32),
    StableHlo.binary main_v84 main_cst_17 main_v85 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_18 (constant S_ .f32 0x47435000#32),
    StableHlo.unary main_cst_18 main_v86 (broadcastInDim S256 ![] bcast_S_S256 : (⟨S_, .f32⟩ : BufTy).Contents (Elt F) → (⟨S256, .f32⟩ : BufTy).Contents (Elt F)),
    StableHlo.binary main_v85 main_v86 main_v87 (Host.divf : (⟨S256, .f32⟩ : BufTy).Contents (Elt F) → (⟨S256, .f32⟩ : BufTy).Contents (Elt F) → (⟨S256, .f32⟩ : BufTy).Contents (Elt F)),
    StableHlo.nullary main_c_19 (constantI S_ 32 0#32),
    StableHlo.TRef.nullary (.of main_call3_cst : StableHlo.TRef sig ⟨S_, .f32⟩) (constant S_ .f32 0x00000000#32),
    StableHlo.TRef.binary (.of main_v84 : StableHlo.TRef sig ⟨S50000x256, .f32⟩) (.of main_call3_cst : StableHlo.TRef sig ⟨S_, .f32⟩) (.of main_call3_v0 : StableHlo.TRef sig ⟨S256, .f32⟩) (fun x v => Host.reduceAdd x v reducesTo_S50000x256_S256_d0 h_S_),
    StableHlo.TRef.unary (.of main_call3_v0 : StableHlo.TRef sig ⟨S256, .f32⟩) (.of main_call3_v1 : StableHlo.TRef sig ⟨S1x256, .f32⟩) (broadcastInDim S1x256 ![1] bcast_S256_S1x256_1),
    StableHlo.TRef.nullary (.of main_call3_cst_0 : StableHlo.TRef sig ⟨S_, .f32⟩) (constant S_ .f32 0x47435000#32),
    StableHlo.TRef.unary (.of main_call3_cst_0 : StableHlo.TRef sig ⟨S_, .f32⟩) (.of main_call3_v2 : StableHlo.TRef sig ⟨S1x256, .f32⟩) (broadcastInDim S1x256 ![] bcast_S_S1x256),
    StableHlo.TRef.binary (.of main_call3_v1 : StableHlo.TRef sig ⟨S1x256, .f32⟩) (.of main_call3_v2 : StableHlo.TRef sig ⟨S1x256, .f32⟩) (.of main_call3_v3 : StableHlo.TRef sig ⟨S1x256, .f32⟩) Host.divf,
    StableHlo.TRef.unary (.of main_call3_v3 : StableHlo.TRef sig ⟨S1x256, .f32⟩) (.of main_call3_v4 : StableHlo.TRef sig ⟨S50000x256, .f32⟩) (broadcastInDim S50000x256 ![0, 1] bcast_S1x256_S50000x256_0_1),
    StableHlo.TRef.binary (.of main_v84 : StableHlo.TRef sig ⟨S50000x256, .f32⟩) (.of main_call3_v4 : StableHlo.TRef sig ⟨S50000x256, .f32⟩) (.of main_call3_v5 : StableHlo.TRef sig ⟨S50000x256, .f32⟩) subf,
    StableHlo.TRef.binary (.of main_call3_v5 : StableHlo.TRef sig ⟨S50000x256, .f32⟩) (.of main_call3_v5 : StableHlo.TRef sig ⟨S50000x256, .f32⟩) (.of main_call3_v6 : StableHlo.TRef sig ⟨S50000x256, .f32⟩) mulf,
    StableHlo.TRef.unary (.of main_c_19 : StableHlo.TRef sig ⟨S_, .i32⟩) (.of main_call3_v7 : StableHlo.TRef sig ⟨S_, .f32⟩) (sitofp .f32),
    StableHlo.TRef.nullary (.of main_call3_cst_1 : StableHlo.TRef sig ⟨S_, .f32⟩) (constant S_ .f32 0x47435000#32),
    StableHlo.TRef.binary (.of main_call3_cst_1 : StableHlo.TRef sig ⟨S_, .f32⟩) (.of main_call3_v7 : StableHlo.TRef sig ⟨S_, .f32⟩) (.of main_call3_v8 : StableHlo.TRef sig ⟨S_, .f32⟩) subf,
    StableHlo.TRef.nullary (.of main_call3_cst_2 : StableHlo.TRef sig ⟨S_, .f32⟩) (constant S_ .f32 0x00000000#32),
    StableHlo.TRef.binary (.of main_call3_v6 : StableHlo.TRef sig ⟨S50000x256, .f32⟩) (.of main_call3_cst_2 : StableHlo.TRef sig ⟨S_, .f32⟩) (.of main_call3_v9 : StableHlo.TRef sig ⟨S256, .f32⟩) (fun x v => Host.reduceAdd x v reducesTo_S50000x256_S256_d0 h_S_),
    StableHlo.TRef.unary (.of main_call3_v8 : StableHlo.TRef sig ⟨S_, .f32⟩) (.of main_call3_v10 : StableHlo.TRef sig ⟨S256, .f32⟩) (broadcastInDim S256 ![] bcast_S_S256),
    StableHlo.TRef.binary (.of main_call3_v9 : StableHlo.TRef sig ⟨S256, .f32⟩) (.of main_call3_v10 : StableHlo.TRef sig ⟨S256, .f32⟩) (.of main_call3_v11 : StableHlo.TRef sig ⟨S256, .f32⟩) Host.divf,
    StableHlo.TRef.nullary (.of main_call3_cst_3 : StableHlo.TRef sig ⟨S_, .f32⟩) (constant S_ .f32 0x00000000#32),
    StableHlo.TRef.binary (.of main_call3_v8 : StableHlo.TRef sig ⟨S_, .f32⟩) (.of main_call3_cst_3 : StableHlo.TRef sig ⟨S_, .f32⟩) (.of main_call3_v12 : StableHlo.TRef sig ⟨S_, .i1⟩) (cmpf .ogt),
    StableHlo.TRef.nullary (.of main_call3_cst_4 : StableHlo.TRef sig ⟨S_, .f32⟩) (constant S_ .f32 0x7FC00000#32),
    StableHlo.TRef.unary (.of main_call3_cst_4 : StableHlo.TRef sig ⟨S_, .f32⟩) (.of main_call3_call0_v0 : StableHlo.TRef sig ⟨S_, .f32⟩) id,
    StableHlo.TRef.unary (.of main_call3_call0_v0 : StableHlo.TRef sig ⟨S_, .f32⟩) (.of main_call3_call0_v1 : StableHlo.TRef sig ⟨S256, .f32⟩) (broadcastInDim S256 ![] bcast_S_S256),
    StableHlo.TRef.ternary (.of main_call3_v12 : StableHlo.TRef sig ⟨S_, .i1⟩) (.of main_call3_v11 : StableHlo.TRef sig ⟨S256, .f32⟩) (.of main_call3_call0_v1 : StableHlo.TRef sig ⟨S256, .f32⟩) (.of main_v88 : StableHlo.TRef sig ⟨S256, .f32⟩) (fun p a b => select (broadcastInDim S256 ![] bcast_S_S256 p) a b) ]

/-- The second layer's normalisation, scale and shift, then the maximum with zero. (19 operations.) -/
abbrev opsNorm1 : List (HloOp τ sig (Elt F)) :=
  [ StableHlo.unary main_v87 main_v89 (broadcastInDim S1x256 ![1] bcast_S256_S1x256_1 : (⟨S256, .f32⟩ : BufTy).Contents (Elt F) → (⟨S1x256, .f32⟩ : BufTy).Contents (Elt F)),
    StableHlo.unary main_v89 main_v90 (broadcastInDim S50000x256 ![0, 1] bcast_S1x256_S50000x256_0_1 : (⟨S1x256, .f32⟩ : BufTy).Contents (Elt F) → (⟨S50000x256, .f32⟩ : BufTy).Contents (Elt F)),
    StableHlo.binary main_v84 main_v90 main_v91 (subf : (⟨S50000x256, .f32⟩ : BufTy).Contents (Elt F) → (⟨S50000x256, .f32⟩ : BufTy).Contents (Elt F) → (⟨S50000x256, .f32⟩ : BufTy).Contents (Elt F)),
    StableHlo.nullary main_cst_20 (constant S_ .f32 0x3727C5AC#32),
    StableHlo.unary main_cst_20 main_v92 (broadcastInDim S256 ![] bcast_S_S256 : (⟨S_, .f32⟩ : BufTy).Contents (Elt F) → (⟨S256, .f32⟩ : BufTy).Contents (Elt F)),
    StableHlo.binary main_v88 main_v92 main_v93 (addf : (⟨S256, .f32⟩ : BufTy).Contents (Elt F) → (⟨S256, .f32⟩ : BufTy).Contents (Elt F) → (⟨S256, .f32⟩ : BufTy).Contents (Elt F)),
    StableHlo.unary main_v93 main_v94 (Host.rsqrt : (⟨S256, .f32⟩ : BufTy).Contents (Elt F) → (⟨S256, .f32⟩ : BufTy).Contents (Elt F)),
    StableHlo.unary main_v94 main_v95 (broadcastInDim S1x256 ![1] bcast_S256_S1x256_1 : (⟨S256, .f32⟩ : BufTy).Contents (Elt F) → (⟨S1x256, .f32⟩ : BufTy).Contents (Elt F)),
    StableHlo.unary main_v95 main_v96 (broadcastInDim S50000x256 ![0, 1] bcast_S1x256_S50000x256_0_1 : (⟨S1x256, .f32⟩ : BufTy).Contents (Elt F) → (⟨S50000x256, .f32⟩ : BufTy).Contents (Elt F)),
    StableHlo.binary main_v91 main_v96 main_v97 (mulf : (⟨S50000x256, .f32⟩ : BufTy).Contents (Elt F) → (⟨S50000x256, .f32⟩ : BufTy).Contents (Elt F) → (⟨S50000x256, .f32⟩ : BufTy).Contents (Elt F)),
    StableHlo.unary main_arg8 main_v98 (broadcastInDim S1x256 ![1] bcast_S256_S1x256_1 : (⟨S256, .f32⟩ : BufTy).Contents (Elt F) → (⟨S1x256, .f32⟩ : BufTy).Contents (Elt F)),
    StableHlo.unary main_v98 main_v99 (broadcastInDim S50000x256 ![0, 1] bcast_S1x256_S50000x256_0_1 : (⟨S1x256, .f32⟩ : BufTy).Contents (Elt F) → (⟨S50000x256, .f32⟩ : BufTy).Contents (Elt F)),
    StableHlo.binary main_v97 main_v99 main_v100 (mulf : (⟨S50000x256, .f32⟩ : BufTy).Contents (Elt F) → (⟨S50000x256, .f32⟩ : BufTy).Contents (Elt F) → (⟨S50000x256, .f32⟩ : BufTy).Contents (Elt F)),
    StableHlo.unary main_arg9 main_v101 (broadcastInDim S1x256 ![1] bcast_S256_S1x256_1 : (⟨S256, .f32⟩ : BufTy).Contents (Elt F) → (⟨S1x256, .f32⟩ : BufTy).Contents (Elt F)),
    StableHlo.unary main_v101 main_v102 (broadcastInDim S50000x256 ![0, 1] bcast_S1x256_S50000x256_0_1 : (⟨S1x256, .f32⟩ : BufTy).Contents (Elt F) → (⟨S50000x256, .f32⟩ : BufTy).Contents (Elt F)),
    StableHlo.binary main_v100 main_v102 main_v103 (addf : (⟨S50000x256, .f32⟩ : BufTy).Contents (Elt F) → (⟨S50000x256, .f32⟩ : BufTy).Contents (Elt F) → (⟨S50000x256, .f32⟩ : BufTy).Contents (Elt F)),
    StableHlo.TRef.nullary (.of main_call4_cst : StableHlo.TRef sig ⟨S_, .f32⟩) (constant S_ .f32 0x00000000#32),
    StableHlo.TRef.unary (.of main_call4_cst : StableHlo.TRef sig ⟨S_, .f32⟩) (.of main_call4_v0 : StableHlo.TRef sig ⟨S50000x256, .f32⟩) (broadcastInDim S50000x256 ![] bcast_S_S50000x256),
    StableHlo.TRef.binary (.of main_v103 : StableHlo.TRef sig ⟨S50000x256, .f32⟩) (.of main_call4_v0 : StableHlo.TRef sig ⟨S50000x256, .f32⟩) (.of main_v104 : StableHlo.TRef sig ⟨S50000x256, .f32⟩) maximumf ]

/-- The two output heads: a matrix product and a bias each. (8 operations.) -/
abbrev opsHead : List (HloOp τ sig (Elt F)) :=
  [ StableHlo.binary main_v104 main_arg10 main_v105 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.unary main_arg11 main_v106 (broadcastInDim S1x128 ![1] bcast_S128_S1x128_1 : (⟨S128, .f32⟩ : BufTy).Contents (Elt F) → (⟨S1x128, .f32⟩ : BufTy).Contents (Elt F)),
    StableHlo.unary main_v106 main_v107 (broadcastInDim S50000x128 ![0, 1] bcast_S1x128_S50000x128_0_1 : (⟨S1x128, .f32⟩ : BufTy).Contents (Elt F) → (⟨S50000x128, .f32⟩ : BufTy).Contents (Elt F)),
    StableHlo.binary main_v105 main_v107 main_v108 (addf : (⟨S50000x128, .f32⟩ : BufTy).Contents (Elt F) → (⟨S50000x128, .f32⟩ : BufTy).Contents (Elt F) → (⟨S50000x128, .f32⟩ : BufTy).Contents (Elt F)),
    StableHlo.binary main_v104 main_arg12 main_v109 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.unary main_arg13 main_v110 (broadcastInDim S1x128 ![1] bcast_S128_S1x128_1 : (⟨S128, .f32⟩ : BufTy).Contents (Elt F) → (⟨S1x128, .f32⟩ : BufTy).Contents (Elt F)),
    StableHlo.unary main_v110 main_v111 (broadcastInDim S50000x128 ![0, 1] bcast_S1x128_S50000x128_0_1 : (⟨S1x128, .f32⟩ : BufTy).Contents (Elt F) → (⟨S50000x128, .f32⟩ : BufTy).Contents (Elt F)),
    StableHlo.binary main_v109 main_v111 main_v112 (addf : (⟨S50000x128, .f32⟩ : BufTy).Contents (Elt F) → (⟨S50000x128, .f32⟩ : BufTy).Contents (Elt F) → (⟨S50000x128, .f32⟩ : BufTy).Contents (Elt F)) ]

/-- All the operations of the entry function, in program order, every call's body in the call's place. -/
abbrev ops : List (HloOp τ sig (Elt F)) :=
  opsPrepA ++ opsPrepB ++ opsDot0 ++ opsConv0 ++ opsNorm0 ++ opsDot1 ++ opsConv1 ++ opsNorm1 ++ opsHead

/-! ## The entry function is that line

The entry function is stated as three consecutive segments; each is the line of its own operations, and
lines run one after the other are the line of the concatenation. -/

/-- The operations of segment 0 (62). -/
abbrev w0 : List (HloOp τ sig (Elt F)) :=
  [ StableHlo.nullary main_v0 (iotaInDim S50000 32 0),
    StableHlo.unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v1 main_v2 rfl shapeCasts_S1x800000_S800000,
    StableHlo.binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v4 main_v5 rfl shapeCasts_S1x800000_S800000,
    StableHlo.binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst (constant S_ .f32 0x3F800000#32),
    StableHlo.unary main_cst main_v7 (broadcastInDim S850000 ![] bcast_S_S850000 : (⟨S_, .f32⟩ : BufTy).Contents (Elt F) → (⟨S850000, .f32⟩ : BufTy).Contents (Elt F)),
    StableHlo.nullary main_cst_0 (constant S_ .f32 0x00000000#32),
    StableHlo.unary main_cst_0 main_v8 (broadcastInDim S50000 ![] bcast_S_S50000 : (⟨S_, .f32⟩ : BufTy).Contents (Elt F) → (⟨S50000, .f32⟩ : BufTy).Contents (Elt F)),
    StableHlo.unary main_v6 main_v9 (broadcastInDim S850000x1 ![0] bcast_S850000_S850000x1_0 : (⟨S850000, .i32⟩ : BufTy).Contents (Elt F) → (⟨S850000x1, .i32⟩ : BufTy).Contents (Elt F)),
    StableHlo.ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_1 (constant S_ .f32 0x00000000#32),
    StableHlo.unary main_cst_1 main_v11 (broadcastInDim S50000 ![] bcast_S_S50000 : (⟨S_, .f32⟩ : BufTy).Contents (Elt F) → (⟨S50000, .f32⟩ : BufTy).Contents (Elt F)),
    StableHlo.binary main_v10 main_v11 main_v12 (cmpf .ogt : (⟨S50000, .f32⟩ : BufTy).Contents (Elt F) → (⟨S50000, .f32⟩ : BufTy).Contents (Elt F) → (⟨S50000, .i1⟩ : BufTy).Contents (Elt F)),
    StableHlo.nullary main_cst_2 (constant S_ .f32 0x3F800000#32),
    StableHlo.unary main_cst_2 main_v13 (broadcastInDim S50000 ![] bcast_S_S50000 : (⟨S_, .f32⟩ : BufTy).Contents (Elt F) → (⟨S50000, .f32⟩ : BufTy).Contents (Elt F)),
    StableHlo.binary main_v10 main_v13 main_v14 (maximumf : (⟨S50000, .f32⟩ : BufTy).Contents (Elt F) → (⟨S50000, .f32⟩ : BufTy).Contents (Elt F) → (⟨S50000, .f32⟩ : BufTy).Contents (Elt F)),
    StableHlo.unary main_v14 main_v15 (Host.rsqrt : (⟨S50000, .f32⟩ : BufTy).Contents (Elt F) → (⟨S50000, .f32⟩ : BufTy).Contents (Elt F)),
    StableHlo.nullary main_cst_3 (constant S_ .f32 0x00000000#32),
    StableHlo.TRef.unary (.of main_cst_3 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S50000, .f32⟩) (broadcastInDim S50000 ![] bcast_S_S50000),
    StableHlo.TRef.ternary (.of main_v12 : StableHlo.TRef sig ⟨S50000, .i1⟩) (.of main_v15 : StableHlo.TRef sig ⟨S50000, .f32⟩) (.of main_call0_v1 : StableHlo.TRef sig ⟨S50000, .f32⟩) (.of main_v16 : StableHlo.TRef sig ⟨S50000, .f32⟩) select,
    StableHlo.nullary main_c (constantI S_ 32 0#32),
    StableHlo.unary main_c main_v17 (broadcastInDim S850000 ![] bcast_S_S850000 : (⟨S_, .i32⟩ : BufTy).Contents (Elt F) → (⟨S850000, .i32⟩ : BufTy).Contents (Elt F)),
    StableHlo.binary main_v3 main_v17 main_v18 (cmpi .slt : (⟨S850000, .i32⟩ : BufTy).Contents (Elt F) → (⟨S850000, .i32⟩ : BufTy).Contents (Elt F) → (⟨S850000, .i1⟩ : BufTy).Contents (Elt F)),
    StableHlo.nullary main_c_4 (constantI S_ 32 50000#32),
    StableHlo.unary main_c_4 main_v19 (broadcastInDim S850000 ![] bcast_S_S850000 : (⟨S_, .i32⟩ : BufTy).Contents (Elt F) → (⟨S850000, .i32⟩ : BufTy).Contents (Elt F)),
    StableHlo.binary main_v3 main_v19 main_v20 (addi : (⟨S850000, .i32⟩ : BufTy).Contents (Elt F) → (⟨S850000, .i32⟩ : BufTy).Contents (Elt F) → (⟨S850000, .i32⟩ : BufTy).Contents (Elt F)),
    StableHlo.ternary main_v18 main_v20 main_v3 main_v21 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v21 main_v22 (broadcastInDim S850000x1 ![0] bcast_S850000_S850000x1_0 : (⟨S850000, .i32⟩ : BufTy).Contents (Elt F) → (⟨S850000x1, .i32⟩ : BufTy).Contents (Elt F)),
    StableHlo.binary main_v16 main_v22 main_v23 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_5 (constantI S_ 32 0#32),
    StableHlo.unary main_c_5 main_v24 (broadcastInDim S850000 ![] bcast_S_S850000 : (⟨S_, .i32⟩ : BufTy).Contents (Elt F) → (⟨S850000, .i32⟩ : BufTy).Contents (Elt F)),
    StableHlo.binary main_v6 main_v24 main_v25 (cmpi .slt : (⟨S850000, .i32⟩ : BufTy).Contents (Elt F) → (⟨S850000, .i32⟩ : BufTy).Contents (Elt F) → (⟨S850000, .i1⟩ : BufTy).Contents (Elt F)),
    StableHlo.nullary main_c_6 (constantI S_ 32 50000#32),
    StableHlo.unary main_c_6 main_v26 (broadcastInDim S850000 ![] bcast_S_S850000 : (⟨S_, .i32⟩ : BufTy).Contents (Elt F) → (⟨S850000, .i32⟩ : BufTy).Contents (Elt F)),
    StableHlo.binary main_v6 main_v26 main_v27 (addi : (⟨S850000, .i32⟩ : BufTy).Contents (Elt F) → (⟨S850000, .i32⟩ : BufTy).Contents (Elt F) → (⟨S850000, .i32⟩ : BufTy).Contents (Elt F)),
    StableHlo.ternary main_v25 main_v27 main_v6 main_v28 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v28 main_v29 (broadcastInDim S850000x1 ![0] bcast_S850000_S850000x1_0 : (⟨S850000, .i32⟩ : BufTy).Contents (Elt F) → (⟨S850000x1, .i32⟩ : BufTy).Contents (Elt F)),
    StableHlo.binary main_v16 main_v29 main_v30 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v23 main_v30 main_v31 (mulf : (⟨S850000, .f32⟩ : BufTy).Contents (Elt F) → (⟨S850000, .f32⟩ : BufTy).Contents (Elt F) → (⟨S850000, .f32⟩ : BufTy).Contents (Elt F)),
    StableHlo.unary main_v31 main_v32 (broadcastInDim S850000x1 ![0] bcast_S850000_S850000x1_0 : (⟨S850000, .f32⟩ : BufTy).Contents (Elt F) → (⟨S850000x1, .f32⟩ : BufTy).Contents (Elt F)),
    StableHlo.binary main_arg0 main_arg2 main_v33 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.nullary main_c_7 (constantI S_ 32 0#32),
    StableHlo.unary main_c_7 main_v34 (broadcastInDim S850000 ![] bcast_S_S850000 : (⟨S_, .i32⟩ : BufTy).Contents (Elt F) → (⟨S850000, .i32⟩ : BufTy).Contents (Elt F)),
    StableHlo.binary main_v3 main_v34 main_v35 (cmpi .slt : (⟨S850000, .i32⟩ : BufTy).Contents (Elt F) → (⟨S850000, .i32⟩ : BufTy).Contents (Elt F) → (⟨S850000, .i1⟩ : BufTy).Contents (Elt F)),
    StableHlo.nullary main_c_8 (constantI S_ 32 50000#32),
    StableHlo.unary main_c_8 main_v36 (broadcastInDim S850000 ![] bcast_S_S850000 : (⟨S_, .i32⟩ : BufTy).Contents (Elt F) → (⟨S850000, .i32⟩ : BufTy).Contents (Elt F)),
    StableHlo.binary main_v3 main_v36 main_v37 (addi : (⟨S850000, .i32⟩ : BufTy).Contents (Elt F) → (⟨S850000, .i32⟩ : BufTy).Contents (Elt F) → (⟨S850000, .i32⟩ : BufTy).Contents (Elt F)),
    StableHlo.ternary main_v35 main_v37 main_v3 main_v38 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v38 main_v39 (broadcastInDim S850000x1 ![0] bcast_S850000_S850000x1_0 : (⟨S850000, .i32⟩ : BufTy).Contents (Elt F) → (⟨S850000x1, .i32⟩ : BufTy).Contents (Elt F)),
    StableHlo.binary main_v33 main_v39 main_v40 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    StableHlo.unary main_v32 main_v41 (broadcastInDim S850000x256 ![0, 1] bcast_S850000x1_S850000x256_0_1 : (⟨S850000x1, .f32⟩ : BufTy).Contents (Elt F) → (⟨S850000x256, .f32⟩ : BufTy).Contents (Elt F)),
    StableHlo.binary main_v40 main_v41 main_v42 (mulf : (⟨S850000x256, .f32⟩ : BufTy).Contents (Elt F) → (⟨S850000x256, .f32⟩ : BufTy).Contents (Elt F) → (⟨S850000x256, .f32⟩ : BufTy).Contents (Elt F)),
    StableHlo.nullary main_cst_9 (constant S_ .f32 0x00000000#32),
    StableHlo.unary main_cst_9 main_v43 (broadcastInDim S50000x256 ![] bcast_S_S50000x256 : (⟨S_, .f32⟩ : BufTy).Contents (Elt F) → (⟨S50000x256, .f32⟩ : BufTy).Contents (Elt F)),
    StableHlo.unary main_v6 main_v44 (broadcastInDim S850000x1 ![0] bcast_S850000_S850000x1_0 : (⟨S850000, .i32⟩ : BufTy).Contents (Elt F) → (⟨S850000x1, .i32⟩ : BufTy).Contents (Elt F)),
    StableHlo.ternary main_v43 main_v44 main_v42 main_v45 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    StableHlo.unary main_arg3 main_v46 (broadcastInDim S1x256 ![1] bcast_S256_S1x256_1 : (⟨S256, .f32⟩ : BufTy).Contents (Elt F) → (⟨S1x256, .f32⟩ : BufTy).Contents (Elt F)),
    StableHlo.unary main_v46 main_v47 (broadcastInDim S50000x256 ![0, 1] bcast_S1x256_S50000x256_0_1 : (⟨S1x256, .f32⟩ : BufTy).Contents (Elt F) → (⟨S50000x256, .f32⟩ : BufTy).Contents (Elt F)) ]

/-- The operations of segment 1 (104). -/
abbrev w1 : List (HloOp τ sig (Elt F)) :=
  [ StableHlo.binary main_v45 main_v47 main_v48 (addf : (⟨S50000x256, .f32⟩ : BufTy).Contents (Elt F) → (⟨S50000x256, .f32⟩ : BufTy).Contents (Elt F) → (⟨S50000x256, .f32⟩ : BufTy).Contents (Elt F)),
    StableHlo.nullary main_cst_10 (constant S_ .f32 0x00000000#32),
    StableHlo.binary main_v48 main_cst_10 main_v49 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_11 (constant S_ .f32 0x47435000#32),
    StableHlo.unary main_cst_11 main_v50 (broadcastInDim S256 ![] bcast_S_S256 : (⟨S_, .f32⟩ : BufTy).Contents (Elt F) → (⟨S256, .f32⟩ : BufTy).Contents (Elt F)),
    StableHlo.binary main_v49 main_v50 main_v51 (Host.divf : (⟨S256, .f32⟩ : BufTy).Contents (Elt F) → (⟨S256, .f32⟩ : BufTy).Contents (Elt F) → (⟨S256, .f32⟩ : BufTy).Contents (Elt F)),
    StableHlo.nullary main_c_12 (constantI S_ 32 0#32),
    StableHlo.TRef.nullary (.of main_call1_cst : StableHlo.TRef sig ⟨S_, .f32⟩) (constant S_ .f32 0x00000000#32),
    StableHlo.TRef.binary (.of main_v48 : StableHlo.TRef sig ⟨S50000x256, .f32⟩) (.of main_call1_cst : StableHlo.TRef sig ⟨S_, .f32⟩) (.of main_call1_v0 : StableHlo.TRef sig ⟨S256, .f32⟩) (fun x v => Host.reduceAdd x v reducesTo_S50000x256_S256_d0 h_S_),
    StableHlo.TRef.unary (.of main_call1_v0 : StableHlo.TRef sig ⟨S256, .f32⟩) (.of main_call1_v1 : StableHlo.TRef sig ⟨S1x256, .f32⟩) (broadcastInDim S1x256 ![1] bcast_S256_S1x256_1),
    StableHlo.TRef.nullary (.of main_call1_cst_0 : StableHlo.TRef sig ⟨S_, .f32⟩) (constant S_ .f32 0x47435000#32),
    StableHlo.TRef.unary (.of main_call1_cst_0 : StableHlo.TRef sig ⟨S_, .f32⟩) (.of main_call1_v2 : StableHlo.TRef sig ⟨S1x256, .f32⟩) (broadcastInDim S1x256 ![] bcast_S_S1x256),
    StableHlo.TRef.binary (.of main_call1_v1 : StableHlo.TRef sig ⟨S1x256, .f32⟩) (.of main_call1_v2 : StableHlo.TRef sig ⟨S1x256, .f32⟩) (.of main_call1_v3 : StableHlo.TRef sig ⟨S1x256, .f32⟩) Host.divf,
    StableHlo.TRef.unary (.of main_call1_v3 : StableHlo.TRef sig ⟨S1x256, .f32⟩) (.of main_call1_v4 : StableHlo.TRef sig ⟨S50000x256, .f32⟩) (broadcastInDim S50000x256 ![0, 1] bcast_S1x256_S50000x256_0_1),
    StableHlo.TRef.binary (.of main_v48 : StableHlo.TRef sig ⟨S50000x256, .f32⟩) (.of main_call1_v4 : StableHlo.TRef sig ⟨S50000x256, .f32⟩) (.of main_call1_v5 : StableHlo.TRef sig ⟨S50000x256, .f32⟩) subf,
    StableHlo.TRef.binary (.of main_call1_v5 : StableHlo.TRef sig ⟨S50000x256, .f32⟩) (.of main_call1_v5 : StableHlo.TRef sig ⟨S50000x256, .f32⟩) (.of main_call1_v6 : StableHlo.TRef sig ⟨S50000x256, .f32⟩) mulf,
    StableHlo.TRef.unary (.of main_c_12 : StableHlo.TRef sig ⟨S_, .i32⟩) (.of main_call1_v7 : StableHlo.TRef sig ⟨S_, .f32⟩) (sitofp .f32),
    StableHlo.TRef.nullary (.of main_call1_cst_1 : StableHlo.TRef sig ⟨S_, .f32⟩) (constant S_ .f32 0x47435000#32),
    StableHlo.TRef.binary (.of main_call1_cst_1 : StableHlo.TRef sig ⟨S_, .f32⟩) (.of main_call1_v7 : StableHlo.TRef sig ⟨S_, .f32⟩) (.of main_call1_v8 : StableHlo.TRef sig ⟨S_, .f32⟩) subf,
    StableHlo.TRef.nullary (.of main_call1_cst_2 : StableHlo.TRef sig ⟨S_, .f32⟩) (constant S_ .f32 0x00000000#32),
    StableHlo.TRef.binary (.of main_call1_v6 : StableHlo.TRef sig ⟨S50000x256, .f32⟩) (.of main_call1_cst_2 : StableHlo.TRef sig ⟨S_, .f32⟩) (.of main_call1_v9 : StableHlo.TRef sig ⟨S256, .f32⟩) (fun x v => Host.reduceAdd x v reducesTo_S50000x256_S256_d0 h_S_),
    StableHlo.TRef.unary (.of main_call1_v8 : StableHlo.TRef sig ⟨S_, .f32⟩) (.of main_call1_v10 : StableHlo.TRef sig ⟨S256, .f32⟩) (broadcastInDim S256 ![] bcast_S_S256),
    StableHlo.TRef.binary (.of main_call1_v9 : StableHlo.TRef sig ⟨S256, .f32⟩) (.of main_call1_v10 : StableHlo.TRef sig ⟨S256, .f32⟩) (.of main_call1_v11 : StableHlo.TRef sig ⟨S256, .f32⟩) Host.divf,
    StableHlo.TRef.nullary (.of main_call1_cst_3 : StableHlo.TRef sig ⟨S_, .f32⟩) (constant S_ .f32 0x00000000#32),
    StableHlo.TRef.binary (.of main_call1_v8 : StableHlo.TRef sig ⟨S_, .f32⟩) (.of main_call1_cst_3 : StableHlo.TRef sig ⟨S_, .f32⟩) (.of main_call1_v12 : StableHlo.TRef sig ⟨S_, .i1⟩) (cmpf .ogt),
    StableHlo.TRef.nullary (.of main_call1_cst_4 : StableHlo.TRef sig ⟨S_, .f32⟩) (constant S_ .f32 0x7FC00000#32),
    StableHlo.TRef.unary (.of main_call1_cst_4 : StableHlo.TRef sig ⟨S_, .f32⟩) (.of main_call1_call0_v0 : StableHlo.TRef sig ⟨S_, .f32⟩) id,
    StableHlo.TRef.unary (.of main_call1_call0_v0 : StableHlo.TRef sig ⟨S_, .f32⟩) (.of main_call1_call0_v1 : StableHlo.TRef sig ⟨S256, .f32⟩) (broadcastInDim S256 ![] bcast_S_S256),
    StableHlo.TRef.ternary (.of main_call1_v12 : StableHlo.TRef sig ⟨S_, .i1⟩) (.of main_call1_v11 : StableHlo.TRef sig ⟨S256, .f32⟩) (.of main_call1_call0_v1 : StableHlo.TRef sig ⟨S256, .f32⟩) (.of main_v52 : StableHlo.TRef sig ⟨S256, .f32⟩) (fun p a b => select (broadcastInDim S256 ![] bcast_S_S256 p) a b),
    StableHlo.unary main_v51 main_v53 (broadcastInDim S1x256 ![1] bcast_S256_S1x256_1 : (⟨S256, .f32⟩ : BufTy).Contents (Elt F) → (⟨S1x256, .f32⟩ : BufTy).Contents (Elt F)),
    StableHlo.unary main_v53 main_v54 (broadcastInDim S50000x256 ![0, 1] bcast_S1x256_S50000x256_0_1 : (⟨S1x256, .f32⟩ : BufTy).Contents (Elt F) → (⟨S50000x256, .f32⟩ : BufTy).Contents (Elt F)),
    StableHlo.binary main_v48 main_v54 main_v55 (subf : (⟨S50000x256, .f32⟩ : BufTy).Contents (Elt F) → (⟨S50000x256, .f32⟩ : BufTy).Contents (Elt F) → (⟨S50000x256, .f32⟩ : BufTy).Contents (Elt F)),
    StableHlo.nullary main_cst_13 (constant S_ .f32 0x3727C5AC#32),
    StableHlo.unary main_cst_13 main_v56 (broadcastInDim S256 ![] bcast_S_S256 : (⟨S_, .f32⟩ : BufTy).Contents (Elt F) → (⟨S256, .f32⟩ : BufTy).Contents (Elt F)),
    StableHlo.binary main_v52 main_v56 main_v57 (addf : (⟨S256, .f32⟩ : BufTy).Contents (Elt F) → (⟨S256, .f32⟩ : BufTy).Contents (Elt F) → (⟨S256, .f32⟩ : BufTy).Contents (Elt F)),
    StableHlo.unary main_v57 main_v58 (Host.rsqrt : (⟨S256, .f32⟩ : BufTy).Contents (Elt F) → (⟨S256, .f32⟩ : BufTy).Contents (Elt F)),
    StableHlo.unary main_v58 main_v59 (broadcastInDim S1x256 ![1] bcast_S256_S1x256_1 : (⟨S256, .f32⟩ : BufTy).Contents (Elt F) → (⟨S1x256, .f32⟩ : BufTy).Contents (Elt F)),
    StableHlo.unary main_v59 main_v60 (broadcastInDim S50000x256 ![0, 1] bcast_S1x256_S50000x256_0_1 : (⟨S1x256, .f32⟩ : BufTy).Contents (Elt F) → (⟨S50000x256, .f32⟩ : BufTy).Contents (Elt F)),
    StableHlo.binary main_v55 main_v60 main_v61 (mulf : (⟨S50000x256, .f32⟩ : BufTy).Contents (Elt F) → (⟨S50000x256, .f32⟩ : BufTy).Contents (Elt F) → (⟨S50000x256, .f32⟩ : BufTy).Contents (Elt F)),
    StableHlo.unary main_arg4 main_v62 (broadcastInDim S1x256 ![1] bcast_S256_S1x256_1 : (⟨S256, .f32⟩ : BufTy).Contents (Elt F) → (⟨S1x256, .f32⟩ : BufTy).Contents (Elt F)),
    StableHlo.unary main_v62 main_v63 (broadcastInDim S50000x256 ![0, 1] bcast_S1x256_S50000x256_0_1 : (⟨S1x256, .f32⟩ : BufTy).Contents (Elt F) → (⟨S50000x256, .f32⟩ : BufTy).Contents (Elt F)),
    StableHlo.binary main_v61 main_v63 main_v64 (mulf : (⟨S50000x256, .f32⟩ : BufTy).Contents (Elt F) → (⟨S50000x256, .f32⟩ : BufTy).Contents (Elt F) → (⟨S50000x256, .f32⟩ : BufTy).Contents (Elt F)),
    StableHlo.unary main_arg5 main_v65 (broadcastInDim S1x256 ![1] bcast_S256_S1x256_1 : (⟨S256, .f32⟩ : BufTy).Contents (Elt F) → (⟨S1x256, .f32⟩ : BufTy).Contents (Elt F)),
    StableHlo.unary main_v65 main_v66 (broadcastInDim S50000x256 ![0, 1] bcast_S1x256_S50000x256_0_1 : (⟨S1x256, .f32⟩ : BufTy).Contents (Elt F) → (⟨S50000x256, .f32⟩ : BufTy).Contents (Elt F)),
    StableHlo.binary main_v64 main_v66 main_v67 (addf : (⟨S50000x256, .f32⟩ : BufTy).Contents (Elt F) → (⟨S50000x256, .f32⟩ : BufTy).Contents (Elt F) → (⟨S50000x256, .f32⟩ : BufTy).Contents (Elt F)),
    StableHlo.TRef.nullary (.of main_call2_cst : StableHlo.TRef sig ⟨S_, .f32⟩) (constant S_ .f32 0x00000000#32),
    StableHlo.TRef.unary (.of main_call2_cst : StableHlo.TRef sig ⟨S_, .f32⟩) (.of main_call2_v0 : StableHlo.TRef sig ⟨S50000x256, .f32⟩) (broadcastInDim S50000x256 ![] bcast_S_S50000x256),
    StableHlo.TRef.binary (.of main_v67 : StableHlo.TRef sig ⟨S50000x256, .f32⟩) (.of main_call2_v0 : StableHlo.TRef sig ⟨S50000x256, .f32⟩) (.of main_v68 : StableHlo.TRef sig ⟨S50000x256, .f32⟩) maximumf,
    StableHlo.binary main_v68 main_arg6 main_v69 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.nullary main_c_14 (constantI S_ 32 0#32),
    StableHlo.unary main_c_14 main_v70 (broadcastInDim S850000 ![] bcast_S_S850000 : (⟨S_, .i32⟩ : BufTy).Contents (Elt F) → (⟨S850000, .i32⟩ : BufTy).Contents (Elt F)),
    StableHlo.binary main_v3 main_v70 main_v71 (cmpi .slt : (⟨S850000, .i32⟩ : BufTy).Contents (Elt F) → (⟨S850000, .i32⟩ : BufTy).Contents (Elt F) → (⟨S850000, .i1⟩ : BufTy).Contents (Elt F)),
    StableHlo.nullary main_c_15 (constantI S_ 32 50000#32),
    StableHlo.unary main_c_15 main_v72 (broadcastInDim S850000 ![] bcast_S_S850000 : (⟨S_, .i32⟩ : BufTy).Contents (Elt F) → (⟨S850000, .i32⟩ : BufTy).Contents (Elt F)),
    StableHlo.binary main_v3 main_v72 main_v73 (addi : (⟨S850000, .i32⟩ : BufTy).Contents (Elt F) → (⟨S850000, .i32⟩ : BufTy).Contents (Elt F) → (⟨S850000, .i32⟩ : BufTy).Contents (Elt F)),
    StableHlo.ternary main_v71 main_v73 main_v3 main_v74 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v74 main_v75 (broadcastInDim S850000x1 ![0] bcast_S850000_S850000x1_0 : (⟨S850000, .i32⟩ : BufTy).Contents (Elt F) → (⟨S850000x1, .i32⟩ : BufTy).Contents (Elt F)),
    StableHlo.binary main_v69 main_v75 main_v76 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    StableHlo.unary main_v32 main_v77 (broadcastInDim S850000x256 ![0, 1] bcast_S850000x1_S850000x256_0_1 : (⟨S850000x1, .f32⟩ : BufTy).Contents (Elt F) → (⟨S850000x256, .f32⟩ : BufTy).Contents (Elt F)),
    StableHlo.binary main_v76 main_v77 main_v78 (mulf : (⟨S850000x256, .f32⟩ : BufTy).Contents (Elt F) → (⟨S850000x256, .f32⟩ : BufTy).Contents (Elt F) → (⟨S850000x256, .f32⟩ : BufTy).Contents (Elt F)),
    StableHlo.nullary main_cst_16 (constant S_ .f32 0x00000000#32),
    StableHlo.unary main_cst_16 main_v79 (broadcastInDim S50000x256 ![] bcast_S_S50000x256 : (⟨S_, .f32⟩ : BufTy).Contents (Elt F) → (⟨S50000x256, .f32⟩ : BufTy).Contents (Elt F)),
    StableHlo.unary main_v6 main_v80 (broadcastInDim S850000x1 ![0] bcast_S850000_S850000x1_0 : (⟨S850000, .i32⟩ : BufTy).Contents (Elt F) → (⟨S850000x1, .i32⟩ : BufTy).Contents (Elt F)),
    StableHlo.ternary main_v79 main_v80 main_v78 main_v81 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    StableHlo.unary main_arg7 main_v82 (broadcastInDim S1x256 ![1] bcast_S256_S1x256_1 : (⟨S256, .f32⟩ : BufTy).Contents (Elt F) → (⟨S1x256, .f32⟩ : BufTy).Contents (Elt F)),
    StableHlo.unary main_v82 main_v83 (broadcastInDim S50000x256 ![0, 1] bcast_S1x256_S50000x256_0_1 : (⟨S1x256, .f32⟩ : BufTy).Contents (Elt F) → (⟨S50000x256, .f32⟩ : BufTy).Contents (Elt F)),
    StableHlo.binary main_v81 main_v83 main_v84 (addf : (⟨S50000x256, .f32⟩ : BufTy).Contents (Elt F) → (⟨S50000x256, .f32⟩ : BufTy).Contents (Elt F) → (⟨S50000x256, .f32⟩ : BufTy).Contents (Elt F)),
    StableHlo.nullary main_cst_17 (constant S_ .f32 0x00000000#32),
    StableHlo.binary main_v84 main_cst_17 main_v85 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_18 (constant S_ .f32 0x47435000#32),
    StableHlo.unary main_cst_18 main_v86 (broadcastInDim S256 ![] bcast_S_S256 : (⟨S_, .f32⟩ : BufTy).Contents (Elt F) → (⟨S256, .f32⟩ : BufTy).Contents (Elt F)),
    StableHlo.binary main_v85 main_v86 main_v87 (Host.divf : (⟨S256, .f32⟩ : BufTy).Contents (Elt F) → (⟨S256, .f32⟩ : BufTy).Contents (Elt F) → (⟨S256, .f32⟩ : BufTy).Contents (Elt F)),
    StableHlo.nullary main_c_19 (constantI S_ 32 0#32),
    StableHlo.TRef.nullary (.of main_call3_cst : StableHlo.TRef sig ⟨S_, .f32⟩) (constant S_ .f32 0x00000000#32),
    StableHlo.TRef.binary (.of main_v84 : StableHlo.TRef sig ⟨S50000x256, .f32⟩) (.of main_call3_cst : StableHlo.TRef sig ⟨S_, .f32⟩) (.of main_call3_v0 : StableHlo.TRef sig ⟨S256, .f32⟩) (fun x v => Host.reduceAdd x v reducesTo_S50000x256_S256_d0 h_S_),
    StableHlo.TRef.unary (.of main_call3_v0 : StableHlo.TRef sig ⟨S256, .f32⟩) (.of main_call3_v1 : StableHlo.TRef sig ⟨S1x256, .f32⟩) (broadcastInDim S1x256 ![1] bcast_S256_S1x256_1),
    StableHlo.TRef.nullary (.of main_call3_cst_0 : StableHlo.TRef sig ⟨S_, .f32⟩) (constant S_ .f32 0x47435000#32),
    StableHlo.TRef.unary (.of main_call3_cst_0 : StableHlo.TRef sig ⟨S_, .f32⟩) (.of main_call3_v2 : StableHlo.TRef sig ⟨S1x256, .f32⟩) (broadcastInDim S1x256 ![] bcast_S_S1x256),
    StableHlo.TRef.binary (.of main_call3_v1 : StableHlo.TRef sig ⟨S1x256, .f32⟩) (.of main_call3_v2 : StableHlo.TRef sig ⟨S1x256, .f32⟩) (.of main_call3_v3 : StableHlo.TRef sig ⟨S1x256, .f32⟩) Host.divf,
    StableHlo.TRef.unary (.of main_call3_v3 : StableHlo.TRef sig ⟨S1x256, .f32⟩) (.of main_call3_v4 : StableHlo.TRef sig ⟨S50000x256, .f32⟩) (broadcastInDim S50000x256 ![0, 1] bcast_S1x256_S50000x256_0_1),
    StableHlo.TRef.binary (.of main_v84 : StableHlo.TRef sig ⟨S50000x256, .f32⟩) (.of main_call3_v4 : StableHlo.TRef sig ⟨S50000x256, .f32⟩) (.of main_call3_v5 : StableHlo.TRef sig ⟨S50000x256, .f32⟩) subf,
    StableHlo.TRef.binary (.of main_call3_v5 : StableHlo.TRef sig ⟨S50000x256, .f32⟩) (.of main_call3_v5 : StableHlo.TRef sig ⟨S50000x256, .f32⟩) (.of main_call3_v6 : StableHlo.TRef sig ⟨S50000x256, .f32⟩) mulf,
    StableHlo.TRef.unary (.of main_c_19 : StableHlo.TRef sig ⟨S_, .i32⟩) (.of main_call3_v7 : StableHlo.TRef sig ⟨S_, .f32⟩) (sitofp .f32),
    StableHlo.TRef.nullary (.of main_call3_cst_1 : StableHlo.TRef sig ⟨S_, .f32⟩) (constant S_ .f32 0x47435000#32),
    StableHlo.TRef.binary (.of main_call3_cst_1 : StableHlo.TRef sig ⟨S_, .f32⟩) (.of main_call3_v7 : StableHlo.TRef sig ⟨S_, .f32⟩) (.of main_call3_v8 : StableHlo.TRef sig ⟨S_, .f32⟩) subf,
    StableHlo.TRef.nullary (.of main_call3_cst_2 : StableHlo.TRef sig ⟨S_, .f32⟩) (constant S_ .f32 0x00000000#32),
    StableHlo.TRef.binary (.of main_call3_v6 : StableHlo.TRef sig ⟨S50000x256, .f32⟩) (.of main_call3_cst_2 : StableHlo.TRef sig ⟨S_, .f32⟩) (.of main_call3_v9 : StableHlo.TRef sig ⟨S256, .f32⟩) (fun x v => Host.reduceAdd x v reducesTo_S50000x256_S256_d0 h_S_),
    StableHlo.TRef.unary (.of main_call3_v8 : StableHlo.TRef sig ⟨S_, .f32⟩) (.of main_call3_v10 : StableHlo.TRef sig ⟨S256, .f32⟩) (broadcastInDim S256 ![] bcast_S_S256),
    StableHlo.TRef.binary (.of main_call3_v9 : StableHlo.TRef sig ⟨S256, .f32⟩) (.of main_call3_v10 : StableHlo.TRef sig ⟨S256, .f32⟩) (.of main_call3_v11 : StableHlo.TRef sig ⟨S256, .f32⟩) Host.divf,
    StableHlo.TRef.nullary (.of main_call3_cst_3 : StableHlo.TRef sig ⟨S_, .f32⟩) (constant S_ .f32 0x00000000#32),
    StableHlo.TRef.binary (.of main_call3_v8 : StableHlo.TRef sig ⟨S_, .f32⟩) (.of main_call3_cst_3 : StableHlo.TRef sig ⟨S_, .f32⟩) (.of main_call3_v12 : StableHlo.TRef sig ⟨S_, .i1⟩) (cmpf .ogt),
    StableHlo.TRef.nullary (.of main_call3_cst_4 : StableHlo.TRef sig ⟨S_, .f32⟩) (constant S_ .f32 0x7FC00000#32),
    StableHlo.TRef.unary (.of main_call3_cst_4 : StableHlo.TRef sig ⟨S_, .f32⟩) (.of main_call3_call0_v0 : StableHlo.TRef sig ⟨S_, .f32⟩) id,
    StableHlo.TRef.unary (.of main_call3_call0_v0 : StableHlo.TRef sig ⟨S_, .f32⟩) (.of main_call3_call0_v1 : StableHlo.TRef sig ⟨S256, .f32⟩) (broadcastInDim S256 ![] bcast_S_S256),
    StableHlo.TRef.ternary (.of main_call3_v12 : StableHlo.TRef sig ⟨S_, .i1⟩) (.of main_call3_v11 : StableHlo.TRef sig ⟨S256, .f32⟩) (.of main_call3_call0_v1 : StableHlo.TRef sig ⟨S256, .f32⟩) (.of main_v88 : StableHlo.TRef sig ⟨S256, .f32⟩) (fun p a b => select (broadcastInDim S256 ![] bcast_S_S256 p) a b),
    StableHlo.unary main_v87 main_v89 (broadcastInDim S1x256 ![1] bcast_S256_S1x256_1 : (⟨S256, .f32⟩ : BufTy).Contents (Elt F) → (⟨S1x256, .f32⟩ : BufTy).Contents (Elt F)),
    StableHlo.unary main_v89 main_v90 (broadcastInDim S50000x256 ![0, 1] bcast_S1x256_S50000x256_0_1 : (⟨S1x256, .f32⟩ : BufTy).Contents (Elt F) → (⟨S50000x256, .f32⟩ : BufTy).Contents (Elt F)),
    StableHlo.binary main_v84 main_v90 main_v91 (subf : (⟨S50000x256, .f32⟩ : BufTy).Contents (Elt F) → (⟨S50000x256, .f32⟩ : BufTy).Contents (Elt F) → (⟨S50000x256, .f32⟩ : BufTy).Contents (Elt F)),
    StableHlo.nullary main_cst_20 (constant S_ .f32 0x3727C5AC#32),
    StableHlo.unary main_cst_20 main_v92 (broadcastInDim S256 ![] bcast_S_S256 : (⟨S_, .f32⟩ : BufTy).Contents (Elt F) → (⟨S256, .f32⟩ : BufTy).Contents (Elt F)),
    StableHlo.binary main_v88 main_v92 main_v93 (addf : (⟨S256, .f32⟩ : BufTy).Contents (Elt F) → (⟨S256, .f32⟩ : BufTy).Contents (Elt F) → (⟨S256, .f32⟩ : BufTy).Contents (Elt F)),
    StableHlo.unary main_v93 main_v94 (Host.rsqrt : (⟨S256, .f32⟩ : BufTy).Contents (Elt F) → (⟨S256, .f32⟩ : BufTy).Contents (Elt F)),
    StableHlo.unary main_v94 main_v95 (broadcastInDim S1x256 ![1] bcast_S256_S1x256_1 : (⟨S256, .f32⟩ : BufTy).Contents (Elt F) → (⟨S1x256, .f32⟩ : BufTy).Contents (Elt F)),
    StableHlo.unary main_v95 main_v96 (broadcastInDim S50000x256 ![0, 1] bcast_S1x256_S50000x256_0_1 : (⟨S1x256, .f32⟩ : BufTy).Contents (Elt F) → (⟨S50000x256, .f32⟩ : BufTy).Contents (Elt F)) ]

/-- The operations of segment 2 (18). -/
abbrev w2 : List (HloOp τ sig (Elt F)) :=
  [ StableHlo.binary main_v91 main_v96 main_v97 (mulf : (⟨S50000x256, .f32⟩ : BufTy).Contents (Elt F) → (⟨S50000x256, .f32⟩ : BufTy).Contents (Elt F) → (⟨S50000x256, .f32⟩ : BufTy).Contents (Elt F)),
    StableHlo.unary main_arg8 main_v98 (broadcastInDim S1x256 ![1] bcast_S256_S1x256_1 : (⟨S256, .f32⟩ : BufTy).Contents (Elt F) → (⟨S1x256, .f32⟩ : BufTy).Contents (Elt F)),
    StableHlo.unary main_v98 main_v99 (broadcastInDim S50000x256 ![0, 1] bcast_S1x256_S50000x256_0_1 : (⟨S1x256, .f32⟩ : BufTy).Contents (Elt F) → (⟨S50000x256, .f32⟩ : BufTy).Contents (Elt F)),
    StableHlo.binary main_v97 main_v99 main_v100 (mulf : (⟨S50000x256, .f32⟩ : BufTy).Contents (Elt F) → (⟨S50000x256, .f32⟩ : BufTy).Contents (Elt F) → (⟨S50000x256, .f32⟩ : BufTy).Contents (Elt F)),
    StableHlo.unary main_arg9 main_v101 (broadcastInDim S1x256 ![1] bcast_S256_S1x256_1 : (⟨S256, .f32⟩ : BufTy).Contents (Elt F) → (⟨S1x256, .f32⟩ : BufTy).Contents (Elt F)),
    StableHlo.unary main_v101 main_v102 (broadcastInDim S50000x256 ![0, 1] bcast_S1x256_S50000x256_0_1 : (⟨S1x256, .f32⟩ : BufTy).Contents (Elt F) → (⟨S50000x256, .f32⟩ : BufTy).Contents (Elt F)),
    StableHlo.binary main_v100 main_v102 main_v103 (addf : (⟨S50000x256, .f32⟩ : BufTy).Contents (Elt F) → (⟨S50000x256, .f32⟩ : BufTy).Contents (Elt F) → (⟨S50000x256, .f32⟩ : BufTy).Contents (Elt F)),
    StableHlo.TRef.nullary (.of main_call4_cst : StableHlo.TRef sig ⟨S_, .f32⟩) (constant S_ .f32 0x00000000#32),
    StableHlo.TRef.unary (.of main_call4_cst : StableHlo.TRef sig ⟨S_, .f32⟩) (.of main_call4_v0 : StableHlo.TRef sig ⟨S50000x256, .f32⟩) (broadcastInDim S50000x256 ![] bcast_S_S50000x256),
    StableHlo.TRef.binary (.of main_v103 : StableHlo.TRef sig ⟨S50000x256, .f32⟩) (.of main_call4_v0 : StableHlo.TRef sig ⟨S50000x256, .f32⟩) (.of main_v104 : StableHlo.TRef sig ⟨S50000x256, .f32⟩) maximumf,
    StableHlo.binary main_v104 main_arg10 main_v105 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.unary main_arg11 main_v106 (broadcastInDim S1x128 ![1] bcast_S128_S1x128_1 : (⟨S128, .f32⟩ : BufTy).Contents (Elt F) → (⟨S1x128, .f32⟩ : BufTy).Contents (Elt F)),
    StableHlo.unary main_v106 main_v107 (broadcastInDim S50000x128 ![0, 1] bcast_S1x128_S50000x128_0_1 : (⟨S1x128, .f32⟩ : BufTy).Contents (Elt F) → (⟨S50000x128, .f32⟩ : BufTy).Contents (Elt F)),
    StableHlo.binary main_v105 main_v107 main_v108 (addf : (⟨S50000x128, .f32⟩ : BufTy).Contents (Elt F) → (⟨S50000x128, .f32⟩ : BufTy).Contents (Elt F) → (⟨S50000x128, .f32⟩ : BufTy).Contents (Elt F)),
    StableHlo.binary main_v104 main_arg12 main_v109 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.unary main_arg13 main_v110 (broadcastInDim S1x128 ![1] bcast_S128_S1x128_1 : (⟨S128, .f32⟩ : BufTy).Contents (Elt F) → (⟨S1x128, .f32⟩ : BufTy).Contents (Elt F)),
    StableHlo.unary main_v110 main_v111 (broadcastInDim S50000x128 ![0, 1] bcast_S1x128_S50000x128_0_1 : (⟨S1x128, .f32⟩ : BufTy).Contents (Elt F) → (⟨S50000x128, .f32⟩ : BufTy).Contents (Elt F)),
    StableHlo.binary main_v109 main_v111 main_v112 (addf : (⟨S50000x128, .f32⟩ : BufTy).Contents (Elt F) → (⟨S50000x128, .f32⟩ : BufTy).Contents (Elt F) → (⟨S50000x128, .f32⟩ : BufTy).Contents (Elt F)) ]

set_option maxRecDepth 8192 in
set_option maxHeartbeats 4000000 in
/-- Segment 0 is the line of its operations: the select's body unfolded at its call, sequencing reassociated. -/
theorem part0_eq (c : Dev nD) : main_part0 (F := F) c = seq w0 := by
  simp only [main_part0, fn_where.body, seq, bind_assoc, pure_bind]
  rfl

set_option maxRecDepth 8192 in
set_option maxHeartbeats 4000000 in
/-- Segment 1 is the line of its operations: the variance's body (and the select's inside it) and the maximum's
    unfolded at their calls. -/
theorem part1_eq (c : Dev nD) : main_part1 (F := F) c = seq w1 := by
  simp only [main_part1, fn_var.body, fn_where_0.body, fn_relu.body, seq, bind_assoc, pure_bind]
  rfl

set_option maxRecDepth 8192 in
set_option maxHeartbeats 4000000 in
/-- Segment 2 is the line of its operations. -/
theorem part2_eq (c : Dev nD) : main_part2 (F := F) c = seq w2 := by
  simp only [main_part2, fn_relu.body, seq, bind_assoc, pure_bind]

/-- The three segments' operations, end to end, are the nine pieces end to end: the same operations in the
    same order, grouped differently. -/
theorem ops_eq_windows : (ops : List (HloOp τ sig (Elt F))) = w0 ++ (w1 ++ w2) := by
  simp only [List.cons_append, List.nil_append, List.append_assoc]

/-- The entry function runs `ops` in order. -/
theorem main_eq (c : Dev nD) : main (F := F) c = seq ops := by
  rw [ops_eq_windows, seq_append, seq_append, ← part0_eq c, ← part1_eq c, ← part2_eq c]
  rfl

/-! ## The run -/

/-- No buffer of the signature is scoped to a region. -/
theorem scopedRefs_eq : (Finset.univ.filter fun b : Ref sig .tc => b.isScoped) = ∅ := by decide
/-- The signature has no semaphore, hence none scoped. -/
theorem scopedSems_eq : (Finset.univ.filter fun sm : SemLoc sig => sm.isScoped .tc) = ∅ := by decide

/-- Each operation of `opsPrepA` touches buffers of the signature only. -/
theorem opsPrepA_sub : (opsPrepA : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub ..⟩
/-- Each operation of `opsPrepA` determines its results. -/
theorem opsPrepA_fresh : (opsPrepA : List (HloOp τ sig (Elt F))).Forall fun op => op.fresh = ∅ := by
  simp only [List.Forall]; repeat' constructor

/-- Each operation of `opsPrepB` touches buffers of the signature only. -/
theorem opsPrepB_sub : (opsPrepB : List (HloOp τ sig (Elt F))).Forall fun op => op.bufs ⊆ tcRefs τ sig :=
  ⟨unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub ..⟩
/-- Each operation of `opsPrepB` determines its results. -/
theorem opsPrepB_fresh : (opsPrepB : List (HloOp τ sig (Elt F))).Forall fun op => op.fresh = ∅ := by
  simp only [List.Forall]; repeat' constructor

/-- Each operation of `opsDot0` touches buffers of the signature only. -/
theorem opsDot0_sub : (opsDot0 : List (HloOp τ sig (Elt F))).Forall fun op => op.bufs ⊆ tcRefs τ sig :=
  binary_bufs_sub ..
/-- Each operation of `opsDot0` determines its results. -/
theorem opsDot0_fresh : (opsDot0 : List (HloOp τ sig (Elt F))).Forall fun op => op.fresh = ∅ := by
  simp only [List.Forall]; rfl

/-- Each operation of `opsConv0` touches buffers of the signature only. -/
theorem opsConv0_sub : (opsConv0 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
/-- Each operation of `opsConv0` determines its results. -/
theorem opsConv0_fresh : (opsConv0 : List (HloOp τ sig (Elt F))).Forall fun op => op.fresh = ∅ := by
  simp only [List.Forall]; repeat' constructor

/-- Each operation of `opsNorm0` touches buffers of the signature only. -/
theorem opsNorm0_sub : (opsNorm0 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
/-- Each operation of `opsNorm0` determines its results. -/
theorem opsNorm0_fresh : (opsNorm0 : List (HloOp τ sig (Elt F))).Forall fun op => op.fresh = ∅ := by
  simp only [List.Forall]; repeat' constructor

/-- Each operation of `opsDot1` touches buffers of the signature only. -/
theorem opsDot1_sub : (opsDot1 : List (HloOp τ sig (Elt F))).Forall fun op => op.bufs ⊆ tcRefs τ sig :=
  binary_bufs_sub ..
/-- Each operation of `opsDot1` determines its results. -/
theorem opsDot1_fresh : (opsDot1 : List (HloOp τ sig (Elt F))).Forall fun op => op.fresh = ∅ := by
  simp only [List.Forall]; rfl

/-- Each operation of `opsConv1` touches buffers of the signature only. -/
theorem opsConv1_sub : (opsConv1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
/-- Each operation of `opsConv1` determines its results. -/
theorem opsConv1_fresh : (opsConv1 : List (HloOp τ sig (Elt F))).Forall fun op => op.fresh = ∅ := by
  simp only [List.Forall]; repeat' constructor

/-- Each operation of `opsNorm1` touches buffers of the signature only. -/
theorem opsNorm1_sub : (opsNorm1 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
/-- Each operation of `opsNorm1` determines its results. -/
theorem opsNorm1_fresh : (opsNorm1 : List (HloOp τ sig (Elt F))).Forall fun op => op.fresh = ∅ := by
  simp only [List.Forall]; repeat' constructor

/-- Each operation of `opsHead` touches buffers of the signature only. -/
theorem opsHead_sub : (opsHead : List (HloOp τ sig (Elt F))).Forall fun op => op.bufs ⊆ tcRefs τ sig :=
  ⟨binary_bufs_sub .., unary_bufs_sub .., unary_bufs_sub .., binary_bufs_sub .., binary_bufs_sub .., unary_bufs_sub .., unary_bufs_sub .., binary_bufs_sub ..⟩
/-- Each operation of `opsHead` determines its results. -/
theorem opsHead_fresh : (opsHead : List (HloOp τ sig (Elt F))).Forall fun op => op.fresh = ∅ := by
  simp only [List.Forall]; repeat' constructor

/-- A property of every operation of each piece is one of every operation of `ops`. -/
theorem ops_sub : (ops : List (HloOp τ sig (Elt F))).Forall fun op => op.bufs ⊆ tcRefs τ sig :=
  List.forall_append.2 ⟨List.forall_append.2 ⟨List.forall_append.2 ⟨List.forall_append.2 ⟨List.forall_append.2 ⟨List.forall_append.2 ⟨List.forall_append.2 ⟨List.forall_append.2 ⟨opsPrepA_sub, opsPrepB_sub⟩, opsDot0_sub⟩, opsConv0_sub⟩, opsNorm0_sub⟩, opsDot1_sub⟩, opsConv1_sub⟩, opsNorm1_sub⟩, opsHead_sub⟩
theorem ops_fresh : (ops : List (HloOp τ sig (Elt F))).Forall fun op => op.fresh = ∅ :=
  List.forall_append.2 ⟨List.forall_append.2 ⟨List.forall_append.2 ⟨List.forall_append.2 ⟨List.forall_append.2 ⟨List.forall_append.2 ⟨List.forall_append.2 ⟨List.forall_append.2 ⟨opsPrepA_fresh, opsPrepB_fresh⟩, opsDot0_fresh⟩, opsConv0_fresh⟩, opsNorm0_fresh⟩, opsDot1_fresh⟩, opsConv1_fresh⟩, opsNorm1_fresh⟩, opsHead_fresh⟩

/-- At the compiled mesh, for any float values, from any memory with zero counters: every weakly fair execution of
    the entry function terminates, and every final state has each buffer at the operations' fold over the launch
    contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (fun _ => List.forall_iff_forall_mem.1 ops_fresh)

end Cert.ReferenceIdeal.Hand

end
-- ==== Proof.RefKeep.lean ====
/-
  Which buffers each of the nine pieces of the reference's line of operations writes, and what that leaves alone:
  a buffer outside a piece's list of written buffers reads the same after the piece as before it.
-/
import proofs.«135953_j54030688584374_1_alg».proof.Proof.RefRun

set_option maxRecDepth 16384

noncomputable section

namespace Cert.ReferenceIdeal.Keep

open Idealize.ShloMosaic Idealize.ShloMosaic.TcCoe Idealize.SL.Sem Idealize.ShloMosaic.StableHlo
open Cert.ReferenceIdeal Cert.ReferenceIdeal.Gen Cert.ReferenceIdeal.Hand

variable {F : FTy → Type} [FloatOps F]

/-- The buffers the operations of `opsPrepA` write. -/
abbrev wPrepA : List (Ref sig .tc) :=
  [main_v0, main_v1, main_v2, main_v3, main_v4, main_v5, main_v6, main_cst, main_v7, main_cst_0, main_v8, main_v9, main_v10, main_cst_1, main_v11, main_v12, main_cst_2, main_v13, main_v14, main_v15, main_cst_3]

theorem wPrepA_sub : (opsPrepA : List (HloOp τ sig (Elt F))).Forall fun op => op.writes ⊆ ((wPrepA).map (Proc.devRef (τ := τ) .tc)).toFinset := by
  simp only [opsPrepA, List.Forall, nullary_writes, unary_writes, binary_writes, ternary_writes, reshape_writes, Finset.singleton_subset_iff]
  repeat' apply And.intro
  all_goals (refine List.mem_toFinset.mpr (List.mem_map.mpr ⟨_, ?_, rfl⟩); decide)

/-- A buffer `opsPrepA` does not write is left as it was. -/
theorem keepPrepA (V : Valuation τ sig (Elt F)) (r : Ref sig .tc) (hr : r ∉ wPrepA) :
    after (opsPrepA : List (HloOp τ sig (Elt F))) V (Proc.devRef .tc r) = V (Proc.devRef .tc r) :=
  after_of_writes_sub _ V wPrepA_sub hr

/-- The buffers the operations of `opsPrepB` write. -/
abbrev wPrepB : List (Ref sig .tc) :=
  [main_call0_v0, main_call0_v1, main_v16, main_c, main_v17, main_v18, main_c_4, main_v19, main_v20, main_v21, main_v22, main_v23, main_c_5, main_v24, main_v25, main_c_6, main_v26, main_v27, main_v28, main_v29, main_v30, main_v31, main_v32]

theorem wPrepB_sub : (opsPrepB : List (HloOp τ sig (Elt F))).Forall fun op => op.writes ⊆ ((wPrepB).map (Proc.devRef (τ := τ) .tc)).toFinset := by
  simp only [opsPrepB, List.Forall, nullary_writes, unary_writes, binary_writes, ternary_writes, reshape_writes, Finset.singleton_subset_iff]
  repeat' apply And.intro
  all_goals (refine List.mem_toFinset.mpr (List.mem_map.mpr ⟨_, ?_, rfl⟩); decide)

/-- A buffer `opsPrepB` does not write is left as it was. -/
theorem keepPrepB (V : Valuation τ sig (Elt F)) (r : Ref sig .tc) (hr : r ∉ wPrepB) :
    after (opsPrepB : List (HloOp τ sig (Elt F))) V (Proc.devRef .tc r) = V (Proc.devRef .tc r) :=
  after_of_writes_sub _ V wPrepB_sub hr

/-- The buffers the operations of `opsDot0` write. -/
abbrev wDot0 : List (Ref sig .tc) :=
  [main_v33]

theorem wDot0_sub : (opsDot0 : List (HloOp τ sig (Elt F))).Forall fun op => op.writes ⊆ ((wDot0).map (Proc.devRef (τ := τ) .tc)).toFinset := by
  simp only [opsDot0, List.Forall, nullary_writes, unary_writes, binary_writes, ternary_writes, reshape_writes, Finset.singleton_subset_iff]
  repeat' apply And.intro
  all_goals (refine List.mem_toFinset.mpr (List.mem_map.mpr ⟨_, ?_, rfl⟩); decide)

/-- A buffer `opsDot0` does not write is left as it was. -/
theorem keepDot0 (V : Valuation τ sig (Elt F)) (r : Ref sig .tc) (hr : r ∉ wDot0) :
    after (opsDot0 : List (HloOp τ sig (Elt F))) V (Proc.devRef .tc r) = V (Proc.devRef .tc r) :=
  after_of_writes_sub _ V wDot0_sub hr

/-- The buffers the operations of `opsConv0` write. -/
abbrev wConv0 : List (Ref sig .tc) :=
  [main_c_7, main_v34, main_v35, main_c_8, main_v36, main_v37, main_v38, main_v39, main_v40, main_v41, main_v42, main_cst_9, main_v43, main_v44, main_v45, main_v46, main_v47, main_v48, main_cst_10, main_v49, main_cst_11, main_v50, main_v51, main_c_12, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v52]

theorem wConv0_sub : (opsConv0 : List (HloOp τ sig (Elt F))).Forall fun op => op.writes ⊆ ((wConv0).map (Proc.devRef (τ := τ) .tc)).toFinset := by
  simp only [opsConv0, List.Forall, nullary_writes, unary_writes, binary_writes, ternary_writes, reshape_writes, Finset.singleton_subset_iff]
  repeat' apply And.intro
  all_goals (refine List.mem_toFinset.mpr (List.mem_map.mpr ⟨_, ?_, rfl⟩); decide)

/-- A buffer `opsConv0` does not write is left as it was. -/
theorem keepConv0 (V : Valuation τ sig (Elt F)) (r : Ref sig .tc) (hr : r ∉ wConv0) :
    after (opsConv0 : List (HloOp τ sig (Elt F))) V (Proc.devRef .tc r) = V (Proc.devRef .tc r) :=
  after_of_writes_sub _ V wConv0_sub hr

/-- The buffers the operations of `opsNorm0` write. -/
abbrev wNorm0 : List (Ref sig .tc) :=
  [main_v53, main_v54, main_v55, main_cst_13, main_v56, main_v57, main_v58, main_v59, main_v60, main_v61, main_v62, main_v63, main_v64, main_v65, main_v66, main_v67, main_call2_cst, main_call2_v0, main_v68]

theorem wNorm0_sub : (opsNorm0 : List (HloOp τ sig (Elt F))).Forall fun op => op.writes ⊆ ((wNorm0).map (Proc.devRef (τ := τ) .tc)).toFinset := by
  simp only [opsNorm0, List.Forall, nullary_writes, unary_writes, binary_writes, ternary_writes, reshape_writes, Finset.singleton_subset_iff]
  repeat' apply And.intro
  all_goals (refine List.mem_toFinset.mpr (List.mem_map.mpr ⟨_, ?_, rfl⟩); decide)

/-- A buffer `opsNorm0` does not write is left as it was. -/
theorem keepNorm0 (V : Valuation τ sig (Elt F)) (r : Ref sig .tc) (hr : r ∉ wNorm0) :
    after (opsNorm0 : List (HloOp τ sig (Elt F))) V (Proc.devRef .tc r) = V (Proc.devRef .tc r) :=
  after_of_writes_sub _ V wNorm0_sub hr

/-- The buffers the operations of `opsDot1` write. -/
abbrev wDot1 : List (Ref sig .tc) :=
  [main_v69]

theorem wDot1_sub : (opsDot1 : List (HloOp τ sig (Elt F))).Forall fun op => op.writes ⊆ ((wDot1).map (Proc.devRef (τ := τ) .tc)).toFinset := by
  simp only [opsDot1, List.Forall, nullary_writes, unary_writes, binary_writes, ternary_writes, reshape_writes, Finset.singleton_subset_iff]
  repeat' apply And.intro
  all_goals (refine List.mem_toFinset.mpr (List.mem_map.mpr ⟨_, ?_, rfl⟩); decide)

/-- A buffer `opsDot1` does not write is left as it was. -/
theorem keepDot1 (V : Valuation τ sig (Elt F)) (r : Ref sig .tc) (hr : r ∉ wDot1) :
    after (opsDot1 : List (HloOp τ sig (Elt F))) V (Proc.devRef .tc r) = V (Proc.devRef .tc r) :=
  after_of_writes_sub _ V wDot1_sub hr

/-- The buffers the operations of `opsConv1` write. -/
abbrev wConv1 : List (Ref sig .tc) :=
  [main_c_14, main_v70, main_v71, main_c_15, main_v72, main_v73, main_v74, main_v75, main_v76, main_v77, main_v78, main_cst_16, main_v79, main_v80, main_v81, main_v82, main_v83, main_v84, main_cst_17, main_v85, main_cst_18, main_v86, main_v87, main_c_19, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v88]

theorem wConv1_sub : (opsConv1 : List (HloOp τ sig (Elt F))).Forall fun op => op.writes ⊆ ((wConv1).map (Proc.devRef (τ := τ) .tc)).toFinset := by
  simp only [opsConv1, List.Forall, nullary_writes, unary_writes, binary_writes, ternary_writes, reshape_writes, Finset.singleton_subset_iff]
  repeat' apply And.intro
  all_goals (refine List.mem_toFinset.mpr (List.mem_map.mpr ⟨_, ?_, rfl⟩); decide)

/-- A buffer `opsConv1` does not write is left as it was. -/
theorem keepConv1 (V : Valuation τ sig (Elt F)) (r : Ref sig .tc) (hr : r ∉ wConv1) :
    after (opsConv1 : List (HloOp τ sig (Elt F))) V (Proc.devRef .tc r) = V (Proc.devRef .tc r) :=
  after_of_writes_sub _ V wConv1_sub hr

/-- The buffers the operations of `opsNorm1` write. -/
abbrev wNorm1 : List (Ref sig .tc) :=
  [main_v89, main_v90, main_v91, main_cst_20, main_v92, main_v93, main_v94, main_v95, main_v96, main_v97, main_v98, main_v99, main_v100, main_v101, main_v102, main_v103, main_call4_cst, main_call4_v0, main_v104]

theorem wNorm1_sub : (opsNorm1 : List (HloOp τ sig (Elt F))).Forall fun op => op.writes ⊆ ((wNorm1).map (Proc.devRef (τ := τ) .tc)).toFinset := by
  simp only [opsNorm1, List.Forall, nullary_writes, unary_writes, binary_writes, ternary_writes, reshape_writes, Finset.singleton_subset_iff]
  repeat' apply And.intro
  all_goals (refine List.mem_toFinset.mpr (List.mem_map.mpr ⟨_, ?_, rfl⟩); decide)

/-- A buffer `opsNorm1` does not write is left as it was. -/
theorem keepNorm1 (V : Valuation τ sig (Elt F)) (r : Ref sig .tc) (hr : r ∉ wNorm1) :
    after (opsNorm1 : List (HloOp τ sig (Elt F))) V (Proc.devRef .tc r) = V (Proc.devRef .tc r) :=
  after_of_writes_sub _ V wNorm1_sub hr

/-- The buffers the operations of `opsHead` write. -/
abbrev wHead : List (Ref sig .tc) :=
  [main_v105, main_v106, main_v107, main_v108, main_v109, main_v110, main_v111, main_v112]

theorem wHead_sub : (opsHead : List (HloOp τ sig (Elt F))).Forall fun op => op.writes ⊆ ((wHead).map (Proc.devRef (τ := τ) .tc)).toFinset := by
  simp only [opsHead, List.Forall, nullary_writes, unary_writes, binary_writes, ternary_writes, reshape_writes, Finset.singleton_subset_iff]
  repeat' apply And.intro
  all_goals (refine List.mem_toFinset.mpr (List.mem_map.mpr ⟨_, ?_, rfl⟩); decide)

/-- A buffer `opsHead` does not write is left as it was. -/
theorem keepHead (V : Valuation τ sig (Elt F)) (r : Ref sig .tc) (hr : r ∉ wHead) :
    after (opsHead : List (HloOp τ sig (Elt F))) V (Proc.devRef .tc r) = V (Proc.devRef .tc r) :=
  after_of_writes_sub _ V wHead_sub hr

end Cert.ReferenceIdeal.Keep

end
-- ==== Proof.Stage.lean ====
/-
  The three whole-array functions that the tiled stages of the encoder compute, entry by entry, on the extended reals.

  * `project x w`: the product of a 50000×256 array of node features with a 256×256 weight matrix; entry `(n, j)` is the
    sum over `k` of `x (n, k) · w (k, j)`.
  * `normRelu a μ σ² γ β`: batch normalisation of each column with given column statistics, followed by the positive
    part; entry `(n, j)` is `max (((a (n, j) − μ j) · (σ² j + ε)^(−1/2)) · γ j + β j) 0`, the four column vectors given as
    one-row arrays and `ε` the single-precision word of `1e-5`.
  * `affine h w b`: a product as above plus a one-row bias; entry `(n, j)` is `(∑ k, h (n, k) · w (k, j)) + b (0, j)`.

  Each row block of such an array depends only on the same row block of the first argument, which is why a stage may
  compute it 2000 rows at a time.
-/
import Idealize.ShloMosaic.PureOps.Ideal
import Idealize.ShloMosaic.Lib.ValueIdx

noncomputable section

open scoped BigOperators

namespace Cert.Stage

open Idealize.ShloMosaic Idealize.ShloMosaic.ValueIdx

/-- Features times weights: entry `(n, j)` is `∑ k, x (n, k) · w (k, j)`. -/
def project (x : FVec Ideal ⟨2, ![50000, 256]⟩ .f32) (w : FVec Ideal ⟨2, ![256, 256]⟩ .f32) :
    FVec Ideal ⟨2, ![50000, 256]⟩ .f32 :=
  fun i => ∑ k : Fin 256, x (ix2 (i 0 : Fin 50000) k) * w (ix2 k (i 1 : Fin 256))

/-- Column-wise normalisation with given statistics, scale and shift, then the positive part. -/
def normRelu (a : FVec Ideal ⟨2, ![50000, 256]⟩ .f32) (mean var gamma beta : FVec Ideal ⟨2, ![1, 256]⟩ .f32) :
    FVec Ideal ⟨2, ![50000, 256]⟩ .f32 :=
  fun i => max
    (((a i - mean (ix2 (0 : Fin 1) (i 1 : Fin 256)))
        * Ideal.rsqrt (var (ix2 (0 : Fin 1) (i 1 : Fin 256)) + Ideal.ofBits .f32 0x3727C5AC#32))
      * gamma (ix2 (0 : Fin 1) (i 1 : Fin 256)) + beta (ix2 (0 : Fin 1) (i 1 : Fin 256)))
    (Ideal.ofBits .f32 0x00000000#32)

/-- Features times weights plus a one-row bias. -/
def affine (h : FVec Ideal ⟨2, ![50000, 256]⟩ .f32) (w : FVec Ideal ⟨2, ![256, 256]⟩ .f32)
    (b : FVec Ideal ⟨2, ![1, 256]⟩ .f32) : FVec Ideal ⟨2, ![50000, 256]⟩ .f32 :=
  fun i => (∑ k : Fin 256, h (ix2 (i 0 : Fin 50000) k) * w (ix2 k (i 1 : Fin 256))) + b (ix2 (0 : Fin 1) (i 1 : Fin 256))

end Cert.Stage

end
-- ==== Proof.LibMatmulNN.lean ====
/-
  A matrix product read at an entry, at the ideal instance.

  For a `tpu.matmul` whose dimension numbers are the plain ones — the left operand M×K contracted on its second axis,
  the right operand K×N contracted on its first, no batch axis — into the zero accumulator, the entry at row `a` and
  column `b` is the textbook sum over `k : Fin K` of `lhs (a, k) · rhs (k, b)` on the extended reals: the
  contraction's one-axis index set is identified with `Fin K` and each operand index is named by its coordinates.
  The lemma is stated for any dimension-number record with those five lists, so it applies to every printed record
  of this form whatever the extents.
-/
import Idealize.ShloMosaic.PureOps.Ideal.Laws
import Idealize.ShloMosaic.Lib.ValueIdx

noncomputable section

open scoped BigOperators

namespace Cert.LibMatmulNN

open Idealize.ShloMosaic Idealize.ShloMosaic.ValueIdx

variable {M K N : Nat} {φ₁ φ₂ : FTy}

/-- The contraction shape of a record with one left contracting axis has rank one. -/
theorem contr_rank (d : DotDims ⟨2, ![M, K]⟩ ⟨2, ![K, N]⟩ ⟨2, ![M, N]⟩) (hlc : d.lhsContracting = [1]) :
    d.contr.rank = 1 := by
  rw [d.rank_contr, hlc]; rfl

/-- Its one extent is the left operand's second. -/
theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  have h := d.size_contr 0 (by rw [hlc]; exact Nat.one_pos)
  rw [h]
  simp only [hlc, List.getElem_cons_zero]
  rfl

/-- A rank-2 index read at a position known to be the first is its first coordinate. -/
theorem ix2_val_zero {n0 n1 : Nat} (a : Fin n0) (b : Fin n1) (p : Nat) (hp : p < 2) (h : p = 0) :
    (ix2 a b ⟨p, hp⟩).val = a.val := by subst h; rfl

/-- At a position known to be the second, its second coordinate. -/
theorem ix2_val_one {n0 n1 : Nat} (a : Fin n0) (b : Fin n1) (p : Nat) (hp : p < 2) (h : p = 1) :
    (ix2 a b ⟨p, hp⟩).val = b.val := by subst h; rfl

/-- The left operand's index at output `(a, b)` and contraction position `k` is `(a, k)`. -/
theorem lhsIdx_eq (d : DotDims ⟨2, ![M, K]⟩ ⟨2, ![K, N]⟩ ⟨2, ![M, N]⟩)
    (hlc : d.lhsContracting = [1]) (hln : d.lhsNonContracting = [0]) (hlb : d.lhsBatch = [])
    (a : Fin M) (b : Fin N) (k : Fin K) :
    d.lhsIdx (ix2 a b) ((contrEquiv1 d K (contr_rank d hlc) (contr_size d hlc)).symm k) = ix2 a k := by
  funext c
  apply Fin.ext
  match c with
  | ⟨0, _⟩ =>
    show (d.lhsIdx (ix2 a b) _ (0 : Fin 2)).val = a.val
    have hnb : (0 : Fin 2) ∉ d.lhsBatch := by rw [hlb]; exact List.not_mem_nil
    have hn : (0 : Fin 2) ∈ d.lhsNonContracting := by rw [hln]; exact List.mem_singleton.mpr rfl
    unfold DotDims.lhsIdx
    rw [dif_neg hnb, dif_pos hn]
    simp only [Fin.val_cast]
    exact ix2_val_zero a b _ _ (by simp [hlb, hln])
  | ⟨1, _⟩ =>
    show (d.lhsIdx (ix2 a b) _ (1 : Fin 2)).val = k.val
    rw [DotDims.lhsIdx_val_of_single d hlc]
    exact contrEquiv1_symm_val d K (contr_rank d hlc) (contr_size d hlc) k

/-- The right operand's index there is `(k, b)`. -/
theorem rhsIdx_eq (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (a : Fin M) (b : Fin N) (k : Fin K) :
    d.rhsIdx (ix2 a b) ((contrEquiv1 d K (contr_rank d hlc) (contr_size d hlc)).symm k) = ix2 k b := by
  funext c
  apply Fin.ext
  match c with
  | ⟨0, _⟩ =>
    show (d.rhsIdx (ix2 a b) _ (0 : Fin 2)).val = k.val
    rw [DotDims.rhsIdx_val_of_single d hrc]
    exact contrEquiv1_symm_val d K (contr_rank d hlc) (contr_size d hlc) k
  | ⟨1, _⟩ =>
    show (d.rhsIdx (ix2 a b) _ (1 : Fin 2)).val = b.val
    have hnb : (1 : Fin 2) ∉ d.rhsBatch := by rw [hrb]; exact List.not_mem_nil
    have hn : (1 : Fin 2) ∈ d.rhsNonContracting := by rw [hrn]; exact List.mem_singleton.mpr rfl
    unfold DotDims.rhsIdx
    rw [dif_neg hnb, dif_pos hn]
    simp only [Fin.val_cast]
    exact ix2_val_one a b _ _ (by simp [hlb, hln, hrn])

/-- A plain matrix product into the zero accumulator, read at the entry `(a, b)`: the sum over `k` of the left
    operand's `(a, k)` times the right operand's `(k, b)`. -/
theorem matmul_zero_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    FloatOps.matmul d prec lhs rhs (constant (F := Ideal) ⟨2, ![M, N]⟩ .f32 0x00000000#32) (ix2 a b)
      = ∑ k : Fin K, lhs (ix2 a k) * rhs (ix2 k b) := by
  rw [Ideal.matmul_constant_zero_apply]
  rw [← Equiv.sum_comp (contrEquiv1 d K (contr_rank d hlc) (contr_size d hlc)).symm]
  refine Finset.sum_congr rfl fun k _ => ?_
  rw [lhsIdx_eq d hlc hln hlb a b k, rhsIdx_eq d hlc hrc hln hrn hlb hrb a b k]

/-- The same for the product written with the vector operation `matmul`, as a printed kernel body applies it. -/
theorem matmul_zero_apply' (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    matmul d prec lhs rhs (constant (F := Ideal) ⟨2, ![M, N]⟩ .f32 0x00000000#32) (ix2 a b)
      = ∑ k : Fin K, lhs (ix2 a k) * rhs (ix2 k b) :=
  matmul_zero_apply d hlc hrc hln hrn hlb hrb prec lhs rhs a b

end Cert.LibMatmulNN

end
-- ==== Proof.LibDotGeneralNN.lean ====
/-
  A host matrix product read at an entry, at the ideal instance.

  For a `dot_general` on the host whose dimension numbers are the plain ones — the left operand M×K contracted on its
  second axis, the right operand K×N contracted on its first, no batch axis — the entry at row `a` and column `b` is
  the textbook sum over `k : Fin K` of `lhs (a, k) · rhs (k, b)` on the extended reals, whatever the precision and the
  schedule key: the same sum a matrix product into the zero accumulator has. Stated for any dimension-number record
  with those lists.
-/
import proofs.«135953_j54030688584374_1_alg».proof.Proof.LibMatmulNN

noncomputable section

open scoped BigOperators

namespace Cert.LibDotGeneralNN

open Idealize.ShloMosaic Idealize.ShloMosaic.ValueIdx Cert.LibMatmulNN

variable {M K N : Nat} {φ₁ φ₂ : FTy}

/-- A plain host matrix product, read at the entry `(a, b)`: the sum over `k` of the left operand's `(a, k)` times the
    right operand's `(k, b)`. -/
theorem dotGeneral_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (lhs : FVec Ideal ⟨2, ![M, K]⟩ φ₁) (rhs : FVec Ideal ⟨2, ![K, N]⟩ φ₂) (a : Fin M) (b : Fin N) :
    FloatOps.dotGeneral d prec sched lhs rhs (ix2 a b) = ∑ k : Fin K, lhs (ix2 a k) * rhs (ix2 k b) := by
  rw [Ideal.dotGeneral_apply]
  rw [← Equiv.sum_comp (contrEquiv1 d K (contr_rank d hlc) (contr_size d hlc)).symm]
  refine Finset.sum_congr rfl fun k _ => ?_
  rw [lhsIdx_eq d hlc hln hlb a b k, rhsIdx_eq d hlc hrc hln hrn hlb hrb a b k]

end Cert.LibDotGeneralNN

end
-- ==== Proof.LibHostAffine.lean ====
/-
  Two host-side shapes read at an entry, at the ideal instance.

  (1) A plain `dot_general` of an M×K array with a K×N matrix, plus a bias VECTOR of length N broadcast first to one
  row and then over the M rows, has at row `r` and column `j` the value `(∑ k, x (r, k) · W (k, j)) + b j`.
  (2) The maximum of an array with the broadcast of the scalar constant whose word is all zeros is, entry by entry, the
  maximum with the real number zero (the positive part).
-/
import proofs.«135953_j54030688584374_1_alg».proof.Proof.LibDotGeneralNN
import Idealize.ShloMosaic.Lib.Pipeline.Value

noncomputable section

open scoped BigOperators

namespace Cert.LibHostAffine

open Idealize.ShloMosaic Idealize.ShloMosaic.ValueIdx

variable {M K N : Nat} {φ₁ φ₂ : FTy} {α : Type}

/-- A vector broadcast to one row and then over `M` rows reads, at `(r, j)`, its entry `j`. -/
theorem bias_apply (b : (⟨1, ![N]⟩ : Shape).Idx → α)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) (r : Fin M) (j : Fin N) :
    broadcastInDim ⟨2, ![M, N]⟩ (![0, 1] : Fin 2 → Fin 2) h2 (broadcastInDim ⟨2, ![1, N]⟩ (![1] : Fin 1 → Fin 2) h1 b) (ix2 r j)
      = b (ix1 j) := by
  rw [broadcastInDim_apply (![0, 1] : Fin 2 → Fin 2) h2 _ (ix2 r j) (ix2 (0 : Fin 1) j) (fun a => by
    match a with
    | ⟨0, _⟩ => rfl
    | ⟨1, _⟩ =>
      show j.val = if N = 1 then 0 else j.val
      split
      · have := j.isLt; omega
      · rfl)]
  exact broadcastInDim_apply (![1] : Fin 1 → Fin 2) h1 b (ix2 (0 : Fin 1) j) (ix1 j) (fun a => by
    match a with
    | ⟨0, _⟩ =>
      show j.val = if N = 1 then 0 else j.val
      split
      · have := j.isLt; omega
      · rfl)

/-- The host product plus the broadcast bias vector at the entry `(r, j)`. -/
theorem affine_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (x : FVec Ideal ⟨2, ![M, K]⟩ φ₁) (W : FVec Ideal ⟨2, ![K, N]⟩ φ₂) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) (r : Fin M) (j : Fin N) :
    addf (Host.dotGeneral d prec x W)
        (broadcastInDim ⟨2, ![M, N]⟩ (![0, 1] : Fin 2 → Fin 2) h2 (broadcastInDim ⟨2, ![1, N]⟩ (![1] : Fin 1 → Fin 2) h1 b)) (ix2 r j)
      = (∑ k : Fin K, x (ix2 r k) * W (ix2 k j)) + b (ix1 j) := by
  rw [addf_apply, bias_apply b h1 h2 r j]
  simp only [Host.dotGeneral]
  rw [Cert.LibDotGeneralNN.dotGeneral_apply d hlc hrc hln hrn hlb hrb]

/-- The maximum with a broadcast zero constant is the positive part. -/
theorem relu_apply {s : Shape} (x : FVec Ideal s .f32) (h : (⟨0, ![]⟩ : Shape).BroadcastsInDim s (![] : Fin 0 → Fin s.rank))
    (i : s.Idx) :
    maximumf x (broadcastInDim s (![] : Fin 0 → Fin s.rank) h (constant (F := Ideal) ⟨0, ![]⟩ .f32 0x00000000#32)) i
      = max (x i) 0 := by
  show max (x i) (Ideal.ofBits .f32 0x00000000#32) = max (x i) 0
  rw [Ideal.ofBits_zero_f32]

end Cert.LibHostAffine

end
-- ==== Proof.Bridges.lean ====
/-
  The whole-array functions of the tiled stages against the host operations of the reference.

  * A plain host matrix product of the 50000×256 features with a 256×256 matrix is `Stage.project`: both are the sum
    over `k` of `x (n, k) · w (k, j)`.
  * The reference normalises with the column statistics as VECTORS, each broadcast to one row and then over all rows,
    and takes the maximum with a broadcast zero; the tiled stage is given the same vectors reshaped to one-row arrays.
    Entry by entry both are `max (((a − μ) · (σ² + ε)^(−1/2)) · γ + β) 0`, the same operations in the same order, so no
    law of arithmetic is needed — only that a reshaped or twice-broadcast vector reads its entry `j` in column `j`.
  * The reference's two heads are two products with 256×128 matrices plus bias vectors; the tiled stage multiplies
    once by the two matrices side by side, adds the two biases end to end, and the halves are sliced apart. Column
    `j < 128` of the joined product only meets the first matrix and the first bias, column `128 + j` only the second.
-/
import proofs.«135953_j54030688584374_1_alg».proof.Proof.Stage
import proofs.«135953_j54030688584374_1_alg».proof.Proof.LibHostAffine
import Idealize.ShloMosaic.Lib.ValueLayout
import Idealize.ShloMosaic.Lib.Pipeline.Value

noncomputable section

open scoped BigOperators

namespace Cert.Bridge

open Idealize.ShloMosaic Idealize.ShloMosaic.ValueIdx

/-- A plain host product of the features with a square weight matrix is the projection, entry by entry. -/
theorem project_eq_dot (d : DotDims ⟨2, ![50000, 256]⟩ ⟨2, ![256, 256]⟩ ⟨2, ![50000, 256]⟩)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![50000, 256]⟩ .f32) (w : FVec Ideal ⟨2, ![256, 256]⟩ .f32) :
    Cert.Stage.project x w = Host.dotGeneral d none x w := by
  funext i
  obtain ⟨p, q, rfl⟩ : ∃ (p : Fin 50000) (q : Fin 256), i = ix2 p q := ⟨i 0, i 1, eq_ix2 i⟩
  show (∑ k : Fin 256, x (ix2 p k) * w (ix2 k q)) = Host.dotGeneral d none x w (ix2 p q)
  simp only [Host.dotGeneral]
  exact (Cert.LibDotGeneralNN.dotGeneral_apply d hlc hrc hln hrn hlb hrb _ _ x w p q).symm

/-- The reference's normalisation and positive part, on the host: the statistics, scale and shift as vectors. -/
def hostNorm (h1 : (⟨1, ![256]⟩ : Shape).BroadcastsInDim ⟨2, ![1, 256]⟩ (![1] : Fin 1 → Fin 2))
    (h2 : (⟨2, ![1, 256]⟩ : Shape).BroadcastsInDim ⟨2, ![50000, 256]⟩ (![0, 1] : Fin 2 → Fin 2))
    (h0 : (⟨0, ![]⟩ : Shape).BroadcastsInDim ⟨1, ![256]⟩ (![] : Fin 0 → Fin 1))
    (h00 : (⟨0, ![]⟩ : Shape).BroadcastsInDim ⟨2, ![50000, 256]⟩ (![] : Fin 0 → Fin 2))
    (a : FVec Ideal ⟨2, ![50000, 256]⟩ .f32) (mean var gamma beta : FVec Ideal ⟨1, ![256]⟩ .f32) :
    FVec Ideal ⟨2, ![50000, 256]⟩ .f32 :=
  maximumf
    (addf
      (mulf
        (mulf (subf a (broadcastInDim ⟨2, ![50000, 256]⟩ ![0, 1] h2 (broadcastInDim ⟨2, ![1, 256]⟩ ![1] h1 mean)))
          (broadcastInDim ⟨2, ![50000, 256]⟩ ![0, 1] h2 (broadcastInDim ⟨2, ![1, 256]⟩ ![1] h1
            (Host.rsqrt (addf var (broadcastInDim ⟨1, ![256]⟩ ![] h0 (constant (F := Ideal) ⟨0, ![]⟩ .f32 0x3727C5AC#32)))))))
        (broadcastInDim ⟨2, ![50000, 256]⟩ ![0, 1] h2 (broadcastInDim ⟨2, ![1, 256]⟩ ![1] h1 gamma)))
      (broadcastInDim ⟨2, ![50000, 256]⟩ ![0, 1] h2 (broadcastInDim ⟨2, ![1, 256]⟩ ![1] h1 beta)))
    (broadcastInDim ⟨2, ![50000, 256]⟩ ![] h00 (constant (F := Ideal) ⟨0, ![]⟩ .f32 0x00000000#32))

/-- With the four vectors reshaped to one-row arrays, the tiled stage's function is the reference's chain. -/
theorem normRelu_eq_host (h1 : (⟨1, ![256]⟩ : Shape).BroadcastsInDim ⟨2, ![1, 256]⟩ (![1] : Fin 1 → Fin 2))
    (h2 : (⟨2, ![1, 256]⟩ : Shape).BroadcastsInDim ⟨2, ![50000, 256]⟩ (![0, 1] : Fin 2 → Fin 2))
    (h0 : (⟨0, ![]⟩ : Shape).BroadcastsInDim ⟨1, ![256]⟩ (![] : Fin 0 → Fin 1))
    (h00 : (⟨0, ![]⟩ : Shape).BroadcastsInDim ⟨2, ![50000, 256]⟩ (![] : Fin 0 → Fin 2))
    (hsc : (⟨1, ![256]⟩ : Shape).ShapeCasts ⟨2, ![1, 256]⟩)
    (a : FVec Ideal ⟨2, ![50000, 256]⟩ .f32) (mean var gamma beta : FVec Ideal ⟨1, ![256]⟩ .f32) :
    Cert.Stage.normRelu a (shapeCast ⟨2, ![1, 256]⟩ mean hsc) (shapeCast ⟨2, ![1, 256]⟩ var hsc)
        (shapeCast ⟨2, ![1, 256]⟩ gamma hsc) (shapeCast ⟨2, ![1, 256]⟩ beta hsc)
      = hostNorm h1 h2 h0 h00 a mean var gamma beta := by
  funext i
  obtain ⟨p, q, rfl⟩ : ∃ (p : Fin 50000) (q : Fin 256), i = ix2 p q := ⟨i 0, i 1, eq_ix2 i⟩
  show max (((a (ix2 p q) - shapeCast ⟨2, ![1, 256]⟩ mean hsc (ix2 (0 : Fin 1) q))
        * Ideal.rsqrt (shapeCast ⟨2, ![1, 256]⟩ var hsc (ix2 (0 : Fin 1) q) + Ideal.ofBits .f32 0x3727C5AC#32))
      * shapeCast ⟨2, ![1, 256]⟩ gamma hsc (ix2 (0 : Fin 1) q) + shapeCast ⟨2, ![1, 256]⟩ beta hsc (ix2 (0 : Fin 1) q))
      (Ideal.ofBits .f32 0x00000000#32) = _
  rw [shapeCast_a_1a_apply mean hsc 0 q, shapeCast_a_1a_apply var hsc 0 q, shapeCast_a_1a_apply gamma hsc 0 q,
    shapeCast_a_1a_apply beta hsc 0 q]
  unfold hostNorm
  rw [maximumf_apply, addf_apply, mulf_apply, mulf_apply, subf_apply,
    Cert.LibHostAffine.bias_apply mean h1 h2 p q, Cert.LibHostAffine.bias_apply gamma h1 h2 p q,
    Cert.LibHostAffine.bias_apply beta h1 h2 p q, Cert.LibHostAffine.bias_apply _ h1 h2 p q]
  rfl

/-- The LEFT half of the joined heads: columns `j < 128` of the product with the two matrices side by side plus the two
    biases end to end are the first head — the product with the first matrix plus the first bias vector. -/
theorem head_left (d : DotDims ⟨2, ![50000, 256]⟩ ⟨2, ![256, 128]⟩ ⟨2, ![50000, 128]⟩)
    (hlc : d.lhsContracting = [1]) (hrc : d.rhsContracting = [0]) (hln : d.lhsNonContracting = [0])
    (hrn : d.rhsNonContracting = [1]) (hlb : d.lhsBatch = []) (hrb : d.rhsBatch = [])
    (hc1 : Shape.Concatenates [(⟨2, ![256, 128]⟩ : Shape), ⟨2, ![256, 128]⟩] ⟨2, ![256, 256]⟩ (1 : Fin 2))
    (hc0 : Shape.Concatenates [(⟨1, ![128]⟩ : Shape), ⟨1, ![128]⟩] ⟨1, ![256]⟩ (0 : Fin 1))
    (hsc : (⟨1, ![256]⟩ : Shape).ShapeCasts ⟨2, ![1, 256]⟩)
    (hs : (⟨2, ![50000, 256]⟩ : Shape).Slices ![0, 0] ⟨2, ![50000, 128]⟩)
    (h1 : (⟨1, ![128]⟩ : Shape).BroadcastsInDim ⟨2, ![1, 128]⟩ (![1] : Fin 1 → Fin 2))
    (h2 : (⟨2, ![1, 128]⟩ : Shape).BroadcastsInDim ⟨2, ![50000, 128]⟩ (![0, 1] : Fin 2 → Fin 2))
    (h : FVec Ideal ⟨2, ![50000, 256]⟩ .f32) (wl wr : FVec Ideal ⟨2, ![256, 128]⟩ .f32)
    (bl br : FVec Ideal ⟨1, ![128]⟩ .f32) :
    extractStridedSlice ⟨2, ![50000, 128]⟩ ![0, 0]
        (Cert.Stage.affine h
          (concatenate ⟨2, ![256, 256]⟩ (1 : Fin 2) [⟨⟨2, ![256, 128]⟩, wl⟩, ⟨⟨2, ![256, 128]⟩, wr⟩] hc1)
          (shapeCast ⟨2, ![1, 256]⟩ (concatenate ⟨1, ![256]⟩ (0 : Fin 1) [⟨⟨1, ![128]⟩, bl⟩, ⟨⟨1, ![128]⟩, br⟩] hc0) hsc)) hs
      = addf (Host.dotGeneral d none h wl)
          (broadcastInDim ⟨2, ![50000, 128]⟩ ![0, 1] h2 (broadcastInDim ⟨2, ![1, 128]⟩ ![1] h1 bl)) := by
  funext i
  obtain ⟨n, j, rfl⟩ : ∃ (n : Fin 50000) (j : Fin 128), i = ix2 n j := ⟨i 0, i 1, eq_ix2 i⟩
  have hj : j.val < 256 := by have := j.isLt; omega
  rw [extractStridedSlice_apply ![0, 0] _ hs (ix2 n j) (ix2 n (⟨j.val, hj⟩ : Fin 256)) (fun a => by
    match a with
    | ⟨0, _⟩ => show n.val = 0 + n.val; omega
    | ⟨1, _⟩ => show j.val = 0 + j.val; omega)]
  rw [Cert.LibHostAffine.affine_apply d hlc hrc hln hrn hlb hrb none h wl bl h1 h2 n j]
  show (∑ k : Fin 256, h (ix2 n k)
      * concatenate ⟨2, ![256, 256]⟩ (1 : Fin 2) [⟨⟨2, ![256, 128]⟩, wl⟩, ⟨⟨2, ![256, 128]⟩, wr⟩] hc1 (ix2 k (⟨j.val, hj⟩ : Fin 256)))
    + shapeCast ⟨2, ![1, 256]⟩ (concatenate ⟨1, ![256]⟩ (0 : Fin 1) [⟨⟨1, ![128]⟩, bl⟩, ⟨⟨1, ![128]⟩, br⟩] hc0) hsc
        (ix2 (0 : Fin 1) (⟨j.val, hj⟩ : Fin 256)) = _
  rw [shapeCast_a_1a_apply _ hsc 0 (⟨j.val, hj⟩ : Fin 256),
    concatenate_pair_apply_left (0 : Fin 1) bl br hc0 (ix1 (⟨j.val, hj⟩ : Fin 256)) rfl (ix1 j) (fun b => by
      match b with
      | ⟨0, _⟩ => rfl)]
  refine congrArg (· + bl (ix1 j)) (Finset.sum_congr rfl fun k _ => ?_)
  rw [concatenate_pair_apply_left (1 : Fin 2) wl wr hc1 (ix2 k (⟨j.val, hj⟩ : Fin 256)) rfl (ix2 k j) (fun b => by
    match b with
    | ⟨0, _⟩ => rfl
    | ⟨1, _⟩ => rfl)]

/-- The RIGHT half: columns `128 + j` are the second head. -/
theorem head_right (d : DotDims ⟨2, ![50000, 256]⟩ ⟨2, ![256, 128]⟩ ⟨2, ![50000, 128]⟩)
    (hlc : d.lhsContracting = [1]) (hrc : d.rhsContracting = [0]) (hln : d.lhsNonContracting = [0])
    (hrn : d.rhsNonContracting = [1]) (hlb : d.lhsBatch = []) (hrb : d.rhsBatch = [])
    (hc1 : Shape.Concatenates [(⟨2, ![256, 128]⟩ : Shape), ⟨2, ![256, 128]⟩] ⟨2, ![256, 256]⟩ (1 : Fin 2))
    (hc0 : Shape.Concatenates [(⟨1, ![128]⟩ : Shape), ⟨1, ![128]⟩] ⟨1, ![256]⟩ (0 : Fin 1))
    (hsc : (⟨1, ![256]⟩ : Shape).ShapeCasts ⟨2, ![1, 256]⟩)
    (hs : (⟨2, ![50000, 256]⟩ : Shape).Slices ![0, 128] ⟨2, ![50000, 128]⟩)
    (h1 : (⟨1, ![128]⟩ : Shape).BroadcastsInDim ⟨2, ![1, 128]⟩ (![1] : Fin 1 → Fin 2))
    (h2 : (⟨2, ![1, 128]⟩ : Shape).BroadcastsInDim ⟨2, ![50000, 128]⟩ (![0, 1] : Fin 2 → Fin 2))
    (h : FVec Ideal ⟨2, ![50000, 256]⟩ .f32) (wl wr : FVec Ideal ⟨2, ![256, 128]⟩ .f32)
    (bl br : FVec Ideal ⟨1, ![128]⟩ .f32) :
    extractStridedSlice ⟨2, ![50000, 128]⟩ ![0, 128]
        (Cert.Stage.affine h
          (concatenate ⟨2, ![256, 256]⟩ (1 : Fin 2) [⟨⟨2, ![256, 128]⟩, wl⟩, ⟨⟨2, ![256, 128]⟩, wr⟩] hc1)
          (shapeCast ⟨2, ![1, 256]⟩ (concatenate ⟨1, ![256]⟩ (0 : Fin 1) [⟨⟨1, ![128]⟩, bl⟩, ⟨⟨1, ![128]⟩, br⟩] hc0) hsc)) hs
      = addf (Host.dotGeneral d none h wr)
          (broadcastInDim ⟨2, ![50000, 128]⟩ ![0, 1] h2 (broadcastInDim ⟨2, ![1, 128]⟩ ![1] h1 br)) := by
  funext i
  obtain ⟨n, j, rfl⟩ : ∃ (n : Fin 50000) (j : Fin 128), i = ix2 n j := ⟨i 0, i 1, eq_ix2 i⟩
  have hj : 128 + j.val < 256 := by have := j.isLt; omega
  rw [extractStridedSlice_apply ![0, 128] _ hs (ix2 n j) (ix2 n (⟨128 + j.val, hj⟩ : Fin 256)) (fun a => by
    match a with
    | ⟨0, _⟩ => show n.val = 0 + n.val; omega
    | ⟨1, _⟩ => show 128 + j.val = 128 + j.val; rfl)]
  rw [Cert.LibHostAffine.affine_apply d hlc hrc hln hrn hlb hrb none h wr br h1 h2 n j]
  show (∑ k : Fin 256, h (ix2 n k)
      * concatenate ⟨2, ![256, 256]⟩ (1 : Fin 2) [⟨⟨2, ![256, 128]⟩, wl⟩, ⟨⟨2, ![256, 128]⟩, wr⟩] hc1
          (ix2 k (⟨128 + j.val, hj⟩ : Fin 256)))
    + shapeCast ⟨2, ![1, 256]⟩ (concatenate ⟨1, ![256]⟩ (0 : Fin 1) [⟨⟨1, ![128]⟩, bl⟩, ⟨⟨1, ![128]⟩, br⟩] hc0) hsc
        (ix2 (0 : Fin 1) (⟨128 + j.val, hj⟩ : Fin 256)) = _
  rw [shapeCast_a_1a_apply _ hsc 0 (⟨128 + j.val, hj⟩ : Fin 256),
    concatenate_pair_apply_right (0 : Fin 1) bl br hc0 (ix1 (⟨128 + j.val, hj⟩ : Fin 256)) rfl rfl (ix1 j)
      (fun b hb => by
        match b with
        | ⟨0, _⟩ => exact absurd rfl hb)
      (by show j.val + 128 = 128 + j.val; omega)]
  refine congrArg (· + br (ix1 j)) (Finset.sum_congr rfl fun k _ => ?_)
  rw [concatenate_pair_apply_right (1 : Fin 2) wl wr hc1 (ix2 k (⟨128 + j.val, hj⟩ : Fin 256)) rfl rfl (ix2 k j)
    (fun b hb => by
      match b with
      | ⟨0, _⟩ => rfl
      | ⟨1, _⟩ => exact absurd rfl hb)
    (by show j.val + 128 = 128 + j.val; omega)]

end Cert.Bridge

end
-- ==== Proof.RefSide.lean ====
/-
  The reference's line of operations read piece by piece.

  The valuations after each of the nine pieces, from launch contents `L`; that the whole line ends at the
  last of them; that a buffer no piece writes holds its launch contents at every one of them; and what
  the two matrix products, the two normalisations and the two output heads leave in their result buffers,
  as functions of the buffers they read.
-/
import proofs.«135953_j54030688584374_1_alg».proof.Proof.RefRun
import proofs.«135953_j54030688584374_1_alg».proof.Proof.RefKeep
import proofs.«135953_j54030688584374_1_alg».proof.Proof.Bridges
import Idealize.ShloMosaic.PureOps.Ideal

noncomputable section

namespace Cert.ReferenceIdeal.Side

open Cert.ReferenceIdeal Cert.ReferenceIdeal.Gen Cert.ReferenceIdeal.Hand Cert.ReferenceIdeal.Keep Idealize.ShloMosaic Idealize.ShloMosaic.TcCoe Idealize.SL.Sem Idealize.ShloMosaic.StableHlo

section Pieces

variable (L : Valuation τ sig (Elt Ideal))

/-- The buffers after the first piece, from contents `L`; and so on, each piece from where the one before ends. -/
abbrev R1 : Valuation τ sig (Elt Ideal) := after (opsPrepA (F := Ideal)) L
abbrev R2 : Valuation τ sig (Elt Ideal) := after (opsPrepB (F := Ideal)) (R1 L)
abbrev R3 : Valuation τ sig (Elt Ideal) := after (opsDot0 (F := Ideal)) (R2 L)
abbrev R4 : Valuation τ sig (Elt Ideal) := after (opsConv0 (F := Ideal)) (R3 L)
abbrev R5 : Valuation τ sig (Elt Ideal) := after (opsNorm0 (F := Ideal)) (R4 L)
abbrev R6 : Valuation τ sig (Elt Ideal) := after (opsDot1 (F := Ideal)) (R5 L)
abbrev R7 : Valuation τ sig (Elt Ideal) := after (opsConv1 (F := Ideal)) (R6 L)
abbrev R8 : Valuation τ sig (Elt Ideal) := after (opsNorm1 (F := Ideal)) (R7 L)
abbrev R9 : Valuation τ sig (Elt Ideal) := after (opsHead (F := Ideal)) (R8 L)

/-- The whole line ends where the ninth piece ends: the fold over a concatenation is the folds in turn. -/
theorem ops_eq : after (ops (F := Ideal)) L = R9 L := by
  show after (opsPrepA (F := Ideal) ++ opsPrepB ++ opsDot0 ++ opsConv0 ++ opsNorm0 ++ opsDot1 ++ opsConv1 ++ opsNorm1
    ++ opsHead) L = _
  simp only [after_append]

/-- A buffer none of the nine pieces writes holds its launch contents after every piece. -/
theorem arg_keep (r : Ref sig .tc)
    (h : r ∉ wPrepA ++ wPrepB ++ wDot0 ++ wConv0 ++ wNorm0 ++ wDot1 ++ wConv1 ++ wNorm1 ++ wHead) :
    R1 L (Proc.devRef .tc r) = L (Proc.devRef .tc r) ∧ R2 L (Proc.devRef .tc r) = L (Proc.devRef .tc r) ∧ R3 L (Proc.devRef .tc r) = L (Proc.devRef .tc r)
      ∧ R4 L (Proc.devRef .tc r) = L (Proc.devRef .tc r) ∧ R5 L (Proc.devRef .tc r) = L (Proc.devRef .tc r) ∧ R6 L (Proc.devRef .tc r) = L (Proc.devRef .tc r)
      ∧ R7 L (Proc.devRef .tc r) = L (Proc.devRef .tc r) ∧ R8 L (Proc.devRef .tc r) = L (Proc.devRef .tc r) ∧ R9 L (Proc.devRef .tc r) = L (Proc.devRef .tc r) := by
  simp only [List.mem_append, not_or] at h
  obtain ⟨⟨⟨⟨⟨⟨⟨⟨hA, hB⟩, hD0⟩, hC0⟩, hN0⟩, hD1⟩, hC1⟩, hN1⟩, hH⟩ := h
  have e1 : R1 L (Proc.devRef .tc r) = L (Proc.devRef .tc r) := keepPrepA L r hA
  have e2 : R2 L (Proc.devRef .tc r) = L (Proc.devRef .tc r) := (keepPrepB (R1 L) r hB).trans e1
  have e3 : R3 L (Proc.devRef .tc r) = L (Proc.devRef .tc r) := (keepDot0 (R2 L) r hD0).trans e2
  have e4 : R4 L (Proc.devRef .tc r) = L (Proc.devRef .tc r) := (keepConv0 (R3 L) r hC0).trans e3
  have e5 : R5 L (Proc.devRef .tc r) = L (Proc.devRef .tc r) := (keepNorm0 (R4 L) r hN0).trans e4
  have e6 : R6 L (Proc.devRef .tc r) = L (Proc.devRef .tc r) := (keepDot1 (R5 L) r hD1).trans e5
  have e7 : R7 L (Proc.devRef .tc r) = L (Proc.devRef .tc r) := (keepConv1 (R6 L) r hC1).trans e6
  have e8 : R8 L (Proc.devRef .tc r) = L (Proc.devRef .tc r) := (keepNorm1 (R7 L) r hN1).trans e7
  have e9 : R9 L (Proc.devRef .tc r) = L (Proc.devRef .tc r) := (keepHead (R8 L) r hH).trans e8
  exact ⟨e1, e2, e3, e4, e5, e6, e7, e8, e9⟩

end Pieces

/-! ## What six of the pieces leave in their result buffers -/

section Reads

variable (V : Valuation τ sig (Elt Ideal))

/-- The first matrix product: the features by the first weight matrix. -/
theorem dot0_read : after (opsDot0 (F := Ideal)) V (Proc.devRef .tc main_v33)
    = (Host.dotGeneral (F := Ideal) (φ₁ := .f32) (φ₂ := .f32) dot_S50000x256_S256x256_S50000x256_1_0_0_1_n_n none (V (Proc.devRef .tc main_arg0)) (V (Proc.devRef .tc main_arg2)) : FVec Ideal S50000x256 .f32) := by
  dsimp only [opsDot0]; after_results_simp

/-- The second matrix product: the first layer's output by the second weight matrix. -/
theorem dot1_read : after (opsDot1 (F := Ideal)) V (Proc.devRef .tc main_v69)
    = (Host.dotGeneral (F := Ideal) (φ₁ := .f32) (φ₂ := .f32) dot_S50000x256_S256x256_S50000x256_1_0_0_1_n_n none (V (Proc.devRef .tc main_v68)) (V (Proc.devRef .tc main_arg6)) : FVec Ideal S50000x256 .f32) := by
  dsimp only [opsDot1]; after_results_simp

/-- The first normalisation: of the propagated rows by their column mean and variance, scaled, shifted, the
    maximum with zero. -/
theorem norm0_read : after (opsNorm0 (F := Ideal)) V (Proc.devRef .tc main_v68)
    = Cert.Bridge.hostNorm Facts₀.bcast_S256_S1x256_1 Facts₀.bcast_S1x256_S50000x256_0_1 Facts₀.bcast_S_S256
        Facts₀.bcast_S_S50000x256 (V (Proc.devRef .tc main_v48)) (V (Proc.devRef .tc main_v51)) (V (Proc.devRef .tc main_v52))
        (V (Proc.devRef .tc main_arg4)) (V (Proc.devRef .tc main_arg5)) := by
  dsimp only [opsNorm0]; after_results_simp; rfl

/-- The second normalisation. -/
theorem norm1_read : after (opsNorm1 (F := Ideal)) V (Proc.devRef .tc main_v104)
    = Cert.Bridge.hostNorm Facts₀.bcast_S256_S1x256_1 Facts₀.bcast_S1x256_S50000x256_0_1 Facts₀.bcast_S_S256
        Facts₀.bcast_S_S50000x256 (V (Proc.devRef .tc main_v84)) (V (Proc.devRef .tc main_v87)) (V (Proc.devRef .tc main_v88))
        (V (Proc.devRef .tc main_arg8)) (V (Proc.devRef .tc main_arg9)) := by
  dsimp only [opsNorm1]; after_results_simp; rfl

/-- The first head: the second layer's output by the first head's matrix, plus its bias on every row. -/
theorem head_mu_read : after (opsHead (F := Ideal)) V (Proc.devRef .tc main_v108)
    = (addf (Host.dotGeneral (F := Ideal) (φ₁ := .f32) (φ₂ := .f32) dot_S50000x256_S256x128_S50000x128_1_0_0_1_n_n none (V (Proc.devRef .tc main_v104)) (V (Proc.devRef .tc main_arg10)))
        (broadcastInDim S50000x128 ![0, 1] Facts₀.bcast_S1x128_S50000x128_0_1
          (broadcastInDim S1x128 ![1] Facts₀.bcast_S128_S1x128_1 (V (Proc.devRef .tc main_arg11)))) : FVec Ideal S50000x128 .f32) := by
  dsimp only [opsHead]; after_results_simp

/-- The second head. -/
theorem head_lv_read : after (opsHead (F := Ideal)) V (Proc.devRef .tc main_v112)
    = (addf (Host.dotGeneral (F := Ideal) (φ₁ := .f32) (φ₂ := .f32) dot_S50000x256_S256x128_S50000x128_1_0_0_1_n_n none (V (Proc.devRef .tc main_v104)) (V (Proc.devRef .tc main_arg12)))
        (broadcastInDim S50000x128 ![0, 1] Facts₀.bcast_S1x128_S50000x128_0_1
          (broadcastInDim S1x128 ![1] Facts₀.bcast_S128_S1x128_1 (V (Proc.devRef .tc main_arg13)))) : FVec Ideal S50000x128 .f32) := by
  dsimp only [opsHead]; after_results_simp

end Reads

end Cert.ReferenceIdeal.Side

end
-- ==== Proof.LibAffineBlock.lean ====
/-
  An affine map applied to a block, read at an entry, at the ideal instance.

  A matrix product of an M×K block with a K×N matrix into the zero accumulator, plus a one-row bias broadcast over
  the M rows, has at row `r` and column `j` the value `(∑ k, x (r, k) · W (k, j)) + b (0, j)`: the product is the
  textbook sum, and a row broadcast reads the operand's one row. Stated for any plain dimension-number record.
-/
import proofs.«135953_j54030688584374_1_alg».proof.Proof.LibMatmulNN
import Idealize.ShloMosaic.Lib.ValueLayout

noncomputable section

open scoped BigOperators

namespace Cert.LibAffineBlock

open Idealize.ShloMosaic Idealize.ShloMosaic.ValueIdx

variable {M K N : Nat} {φ₁ φ₂ : FTy}

/-- The product plus the broadcast bias at the entry `(r, j)`. -/
theorem affine_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (x : FVec Ideal ⟨2, ![M, K]⟩ φ₁) (W : FVec Ideal ⟨2, ![K, N]⟩ φ₂) (b : FVec Ideal ⟨2, ![1, N]⟩ .f32)
    (hb : (⟨2, ![1, N]⟩ : Shape).Broadcasts ⟨2, ![M, N]⟩) (r : Fin M) (j : Fin N) :
    addf (matmul d prec x W (constant (F := Ideal) ⟨2, ![M, N]⟩ .f32 0x00000000#32)) (broadcastTo ⟨2, ![M, N]⟩ b hb) (ix2 r j)
      = (∑ k : Fin K, x (ix2 r k) * W (ix2 k j)) + b (ix2 (0 : Fin 1) j) := by
  rw [addf_apply, Cert.LibMatmulNN.matmul_zero_apply' d hlc hrc hln hrn hlb hrb prec x W r j,
    broadcastTo_1b_ab_apply b hb r j]

end Cert.LibAffineBlock

end
-- ==== Proof.RegionProject.lean ====
/-
  The three tiled matrix products, each read as one whole-array function.

  Each of these tiled regions runs over 25 row blocks of 2000 rows. At block `t` it reads rows `2000 t … 2000 t + 1999` of
  its 50000×256 input, the whole 256×256 weight matrix (and, in the last region, the whole one-row bias), and writes
  the same rows of its output. Entry `(p, q)` of what it writes is the sum over `k` of the input block's `(p, k)`
  times the weight's `(k, q)` (plus the bias's `(0, q)`): conversion to the narrower float type is the identity on the
  extended reals, and a reshape to the same shape changes nothing. That is entry `(2000 t + p, q)` of the whole-array
  product, and the 25 blocks cover every row, so the output array ends holding the whole-array product.
-/
import proofs.«135953_j54030688584374_1_alg».proof.Proof.Gen.KernelIdeal.Frame
import proofs.«135953_j54030688584374_1_alg».proof.Proof.Stage
import proofs.«135953_j54030688584374_1_alg».proof.Proof.LibMatmulNN
import proofs.«135953_j54030688584374_1_alg».proof.Proof.LibAffineBlock
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Regions

open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b))

/-- The zero offset of a whole-buffer access. -/
theorem zero_off024 : (![0, 0] : Fin 2 → Nat) = fun _ => 0 := funext fun a => by fin_cases a <;> rfl

/-! ## Region 0: a 50000×256 array times a 256×256 matrix -/

/-- The region's payload at an entry: the sum over `k` of the input block's `(p, k)` times the weight's `(k, q)`. -/
theorem pay0_apply (x0 : Vec Ideal S2000x256 .f32) (x1 : Vec Ideal S256x256 .f32) (p : Fin 2000) (q : Fin 256) :
    k0_pay1 x0 x1 (ix2 p q) = ∑ k : Fin 256, x0 (ix2 p k) * x1 (ix2 k q) := by
  unfold k0_pay1
  exact Cert.LibMatmulNN.matmul_zero_apply' dot_S2000x256_S256x256_S2000x256_1_0_0_1_n_n rfl rfl rfl rfl rfl rfl none _ _ p q

/-- The block indices over the grid: the input and output windows are at row block `t`, the weight window at its one
    block. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The input window's block at point `t` is rows `2000 t …` of the input array. -/
theorem blk0_0_apply (c : Dev nD) (t : Fin cfg0.N) (p : Fin 2000) (k : Fin 256) (i : S50000x256.Idx)
    (hi0 : (i 0).val = t.val * 2000 + p.val) (hi1 : (i 1).val = k.val) :
    iblk0 V c 0 t (ix2 p k) = V c main_arg0 i := by
  obtain ⟨e0, e1, -⟩ := idx_facts0 t
  unfold iblk0
  rw [View.read_apply]
  show V c main_arg0 _ = V c main_arg0 _
  congr 1
  funext a; apply Fin.ext
  match a with
  | ⟨0, _⟩ => show win0_0.index t (0 : Fin 2) * 2000 + 1 * p.val = (i 0).val; rw [e0, hi0]; omega
  | ⟨1, _⟩ => show win0_0.index t (1 : Fin 2) * 256 + 1 * k.val = (i 1).val; rw [e1, hi1]; omega

/-- The weight window's one block is the weight matrix. -/
theorem blk0_1_apply (c : Dev nD) (t : Fin cfg0.N) (k : Fin 256) (q : Fin 256) :
    iblk0 V c 1 t (ix2 k q) = V c main_arg2 (ix2 k q) := by
  obtain ⟨-, -, e2, e3, -⟩ := idx_facts0 t
  unfold iblk0
  rw [View.read_apply]
  show V c main_arg2 _ = V c main_arg2 _
  congr 1
  funext a; apply Fin.ext
  match a with
  | ⟨0, _⟩ => show win0_1.index t (0 : Fin 2) * 256 + 1 * k.val = k.val; rw [e2]; omega
  | ⟨1, _⟩ => show win0_1.index t (1 : Fin 2) * 256 + 1 * q.val = q.val; rw [e3]; omega

/-- An entry of the region's payload is the whole-array product's entry, when the input block's row is the array's row
    and the weight block's column is the matrix's column. -/
theorem pay0_project (x0 : Vec Ideal S2000x256 .f32) (x1 : Vec Ideal S256x256 .f32)
    (A : FVec Ideal S50000x256 .f32) (W : FVec Ideal S256x256 .f32) (j : S2000x256.Idx) (i : S50000x256.Idx)
    (h0 : ∀ k : Fin 256, x0 (ix2 (j 0 : Fin 2000) k) = A (ix2 (i 0 : Fin 50000) k))
    (h1 : ∀ k : Fin 256, x1 (ix2 k (j 1 : Fin 256)) = W (ix2 k (i 1 : Fin 256))) :
    k0_pay1 x0 x1 j = Cert.Stage.project A W i := by
  refine ((congrArg (k0_pay1 x0 x1) (eq_ix2 j)).trans (pay0_apply x0 x1 (j 0) (j 1))).trans ?_
  unfold Cert.Stage.project
  exact Finset.sum_congr rfl fun k _ => by rw [h0 k, h1 k]

/-- What point `t` writes back is block `t` of the whole-array product. -/
theorem flushed0_eq (c : Dev nD) (t : Fin cfg0.N) :
    (dat0 (F := Ideal) V c).flushed 2 t
      = ((cfg0.win 2).blk t).view.read (Elt Ideal) (Cert.Stage.project (V c main_arg0) (V c main_arg2)) := by
  show (cfg0.win 2).cut (grid0.coords t) ((dat0 (F := Ideal) V c).after 2 t) = _
  rw [after0_2]
  unfold out0_2
  rw [View.canon_unit_zero zero_off024]
  simp only [View.ld_unit_zero (S := S2000x256) zero_off024, View.ld_unit_zero (S := S256x256) zero_off024]
  obtain ⟨-, -, -, -, e4, e5⟩ := idx_facts0 t
  funext j
  show k0_pay1 (iblk0 V c 0 t) (iblk0 V c 1 t) j
    = Cert.Stage.project (V c main_arg0) (V c main_arg2) (((cfg0.win 2).blk t).view.emb j)
  refine pay0_project (iblk0 V c 0 t) (iblk0 V c 1 t) (V c main_arg0) (V c main_arg2) j _ (fun k => ?_) (fun k => ?_)
  · refine blk0_0_apply V c t (j 0) k _ ?_ rfl
    show win0_2.index t (0 : Fin 2) * 2000 + 1 * (j 0).val = t.val * 2000 + (j 0).val
    rw [e4]; omega
  · refine (blk0_1_apply V c t k (j 1)).trans ?_
    congr 1
    funext a; apply Fin.ext
    match a with
    | ⟨0, _⟩ => rfl
    | ⟨1, _⟩ => show (j 1).val = win0_2.index t (1 : Fin 2) * 256 + 1 * (j 1).val; rw [e5]; omega

/-- An index of the output array is in point `t`'s block iff each coordinate is in the block's range on its axis. -/
theorem mem_blk0 (t : Fin cfg0.N) (i : S50000x256.Idx) :
    i ∈ ((cfg0.win 2).blk t).view.set ↔ ∀ a : Fin 2, win0_2.index t a * S2000x256.size a ≤ (i a).val
      ∧ (i a).val < win0_2.index t a * S2000x256.size a + S2000x256.size a := by
  show i ∈ ((View.whole main_v33).slice (win0_2.rect t)).set ↔ _
  rw [View.set_slice_whole, Rect.mem_set_unit]
  exact Iff.rfl

/-- Every index of the output array is in some point's block: row `r` is in block `r / 2000`. -/
theorem cover0 (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  have hN : cfg0.N = 25 := N_0
  obtain ⟨t, ht⟩ : ∃ t : Fin cfg0.N, t.val = (i 0).val / 2000 := ⟨⟨(i 0).val / 2000, by rw [hN]; omega⟩, rfl⟩
  obtain ⟨-, -, -, -, e4, e5⟩ := idx_facts0 t
  refine ⟨t, flush0_2 t, ?_⟩
  rw [mem_blk0]
  intro a
  match a with
  | ⟨0, _⟩ =>
    show win0_2.index t (0 : Fin 2) * 2000 ≤ (i 0).val ∧ (i 0).val < win0_2.index t (0 : Fin 2) * 2000 + 2000
    rw [e4, ht]; omega
  | ⟨1, _⟩ =>
    show win0_2.index t (1 : Fin 2) * 256 ≤ (i 1).val ∧ (i 1).val < win0_2.index t (1 : Fin 2) * 256 + 256
    rw [e5]; omega

/-- The region's output array ends holding the whole-array product of the input array and the weight matrix. -/
theorem final0 (c : Dev nD) :
    (dat0 (F := Ideal) V c).arrAt 2 cfg0.N = Cert.Stage.project (V c main_arg0) (V c main_arg2) :=
  (dat0 (F := Ideal) V c).arrAt_eq_of_cover 2 (Cert.Stage.project (V c main_arg0) (V c main_arg2))
    (fun t _ => flushed0_eq V c t) cover0

/-! ## Region 2: a 50000×256 array times a 256×256 matrix -/

/-- The region's payload at an entry: the sum over `k` of the input block's `(p, k)` times the weight's `(k, q)`. -/
theorem pay2_apply (x0 : Vec Ideal S2000x256 .f32) (x1 : Vec Ideal S256x256 .f32) (p : Fin 2000) (q : Fin 256) :
    k2_pay1 x0 x1 (ix2 p q) = ∑ k : Fin 256, x0 (ix2 p k) * x1 (ix2 k q) := by
  unfold k2_pay1
  refine (Cert.LibMatmulNN.matmul_zero_apply' dot_S2000x256_S256x256_S2000x256_1_0_0_1_n_n rfl rfl rfl rfl rfl rfl none _ _ p q).trans ?_
  refine Finset.sum_congr rfl fun k _ => ?_
  show shapeCast S2000x256 x0 shapeCasts_S2000x256_S2000x256 (ix2 p k) * x1 (ix2 k q) = _
  rw [shapeCast_self]

/-- The block indices over the grid: the input and output windows are at row block `t`, the weight window at its one
    block. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The input window's block at point `t` is rows `2000 t …` of the input array. -/
theorem blk2_0_apply (c : Dev nD) (t : Fin cfg2.N) (p : Fin 2000) (k : Fin 256) (i : S50000x256.Idx)
    (hi0 : (i 0).val = t.val * 2000 + p.val) (hi1 : (i 1).val = k.val) :
    iblk2 V c 0 t (ix2 p k) = V c main_v57 i := by
  obtain ⟨e0, e1, -⟩ := idx_facts2 t
  unfold iblk2
  rw [View.read_apply]
  show V c main_v57 _ = V c main_v57 _
  congr 1
  funext a; apply Fin.ext
  match a with
  | ⟨0, _⟩ => show win2_0.index t (0 : Fin 2) * 2000 + 1 * p.val = (i 0).val; rw [e0, hi0]; omega
  | ⟨1, _⟩ => show win2_0.index t (1 : Fin 2) * 256 + 1 * k.val = (i 1).val; rw [e1, hi1]; omega

/-- The weight window's one block is the weight matrix. -/
theorem blk2_1_apply (c : Dev nD) (t : Fin cfg2.N) (k : Fin 256) (q : Fin 256) :
    iblk2 V c 1 t (ix2 k q) = V c main_arg6 (ix2 k q) := by
  obtain ⟨-, -, e2, e3, -⟩ := idx_facts2 t
  unfold iblk2
  rw [View.read_apply]
  show V c main_arg6 _ = V c main_arg6 _
  congr 1
  funext a; apply Fin.ext
  match a with
  | ⟨0, _⟩ => show win2_1.index t (0 : Fin 2) * 256 + 1 * k.val = k.val; rw [e2]; omega
  | ⟨1, _⟩ => show win2_1.index t (1 : Fin 2) * 256 + 1 * q.val = q.val; rw [e3]; omega

/-- An entry of the region's payload is the whole-array product's entry, when the input block's row is the array's row
    and the weight block's column is the matrix's column. -/
theorem pay2_project (x0 : Vec Ideal S2000x256 .f32) (x1 : Vec Ideal S256x256 .f32)
    (A : FVec Ideal S50000x256 .f32) (W : FVec Ideal S256x256 .f32) (j : S2000x256.Idx) (i : S50000x256.Idx)
    (h0 : ∀ k : Fin 256, x0 (ix2 (j 0 : Fin 2000) k) = A (ix2 (i 0 : Fin 50000) k))
    (h1 : ∀ k : Fin 256, x1 (ix2 k (j 1 : Fin 256)) = W (ix2 k (i 1 : Fin 256))) :
    k2_pay1 x0 x1 j = Cert.Stage.project A W i := by
  refine ((congrArg (k2_pay1 x0 x1) (eq_ix2 j)).trans (pay2_apply x0 x1 (j 0) (j 1))).trans ?_
  unfold Cert.Stage.project
  exact Finset.sum_congr rfl fun k _ => by rw [h0 k, h1 k]

/-- What point `t` writes back is block `t` of the whole-array product. -/
theorem flushed2_eq (c : Dev nD) (t : Fin cfg2.N) :
    (dat2 (F := Ideal) V c).flushed 2 t
      = ((cfg2.win 2).blk t).view.read (Elt Ideal) (Cert.Stage.project (V c main_v57) (V c main_arg6)) := by
  show (cfg2.win 2).cut (grid2.coords t) ((dat2 (F := Ideal) V c).after 2 t) = _
  rw [after2_2]
  unfold out2_2
  rw [View.canon_unit_zero zero_off024]
  simp only [View.ld_unit_zero (S := S2000x256) zero_off024, View.ld_unit_zero (S := S256x256) zero_off024]
  obtain ⟨-, -, -, -, e4, e5⟩ := idx_facts2 t
  funext j
  show k2_pay1 (iblk2 V c 0 t) (iblk2 V c 1 t) j
    = Cert.Stage.project (V c main_v57) (V c main_arg6) (((cfg2.win 2).blk t).view.emb j)
  refine pay2_project (iblk2 V c 0 t) (iblk2 V c 1 t) (V c main_v57) (V c main_arg6) j _ (fun k => ?_) (fun k => ?_)
  · refine blk2_0_apply V c t (j 0) k _ ?_ rfl
    show win2_2.index t (0 : Fin 2) * 2000 + 1 * (j 0).val = t.val * 2000 + (j 0).val
    rw [e4]; omega
  · refine (blk2_1_apply V c t k (j 1)).trans ?_
    congr 1
    funext a; apply Fin.ext
    match a with
    | ⟨0, _⟩ => rfl
    | ⟨1, _⟩ => show (j 1).val = win2_2.index t (1 : Fin 2) * 256 + 1 * (j 1).val; rw [e5]; omega

/-- An index of the output array is in point `t`'s block iff each coordinate is in the block's range on its axis. -/
theorem mem_blk2 (t : Fin cfg2.N) (i : S50000x256.Idx) :
    i ∈ ((cfg2.win 2).blk t).view.set ↔ ∀ a : Fin 2, win2_2.index t a * S2000x256.size a ≤ (i a).val
      ∧ (i a).val < win2_2.index t a * S2000x256.size a + S2000x256.size a := by
  show i ∈ ((View.whole main_v58).slice (win2_2.rect t)).set ↔ _
  rw [View.set_slice_whole, Rect.mem_set_unit]
  exact Iff.rfl

/-- Every index of the output array is in some point's block: row `r` is in block `r / 2000`. -/
theorem cover2 (i : S50000x256.Idx) :
    ∃ t : Fin cfg2.N, (cfg2.win 2).flush t = true ∧ i ∈ ((cfg2.win 2).blk t).view.set := by
  have hi0 : (i 0).val < 50000 := (i 0).isLt
  have hi1 : (i 1).val < 256 := (i 1).isLt
  have hN : cfg2.N = 25 := N_2
  obtain ⟨t, ht⟩ : ∃ t : Fin cfg2.N, t.val = (i 0).val / 2000 := ⟨⟨(i 0).val / 2000, by rw [hN]; omega⟩, rfl⟩
  obtain ⟨-, -, -, -, e4, e5⟩ := idx_facts2 t
  refine ⟨t, flush2_2 t, ?_⟩
  rw [mem_blk2]
  intro a
  match a with
  | ⟨0, _⟩ =>
    show win2_2.index t (0 : Fin 2) * 2000 ≤ (i 0).val ∧ (i 0).val < win2_2.index t (0 : Fin 2) * 2000 + 2000
    rw [e4, ht]; omega
  | ⟨1, _⟩ =>
    show win2_2.index t (1 : Fin 2) * 256 ≤ (i 1).val ∧ (i 1).val < win2_2.index t (1 : Fin 2) * 256 + 256
    rw [e5]; omega

/-- The region's output array ends holding the whole-array product of the input array and the weight matrix. -/
theorem final2 (c : Dev nD) :
    (dat2 (F := Ideal) V c).arrAt 2 cfg2.N = Cert.Stage.project (V c main_v57) (V c main_arg6) :=
  (dat2 (F := Ideal) V c).arrAt_eq_of_cover 2 (Cert.Stage.project (V c main_v57) (V c main_arg6))
    (fun t _ => flushed2_eq V c t) cover2

/-! ## Region 4: a 50000×256 array times a 256×256 matrix, plus a one-row bias -/

/-- The region's payload at an entry: the sum over `k` of the input block's `(p, k)` times the weight's `(k, q)`, plus
    the bias's `(0, q)`. -/
theorem pay4_apply (x0 : Vec Ideal S2000x256 .f32) (x1 : Vec Ideal S256x256 .f32) (x2 : Vec Ideal S1x256 .f32)
    (p : Fin 2000) (q : Fin 256) :
    k4_pay1 x0 x1 x2 (ix2 p q) = (∑ k : Fin 256, x0 (ix2 p k) * x1 (ix2 k q)) + x2 (ix2 (0 : Fin 1) q) := by
  unfold k4_pay1
  refine (Cert.LibAffineBlock.affine_apply dot_S2000x256_S256x256_S2000x256_1_0_0_1_n_n rfl rfl rfl rfl rfl rfl none _ _ _
    broadcasts_S1x256_S2000x256 p q).trans ?_
  show (∑ k : Fin 256, shapeCast S2000x256 x0 shapeCasts_S2000x256_S2000x256 (ix2 p k)
      * shapeCast S256x256 x1 shapeCasts_S256x256_S256x256 (ix2 k q))
    + shapeCast S1x256 x2 shapeCasts_S1x256_S1x256 (ix2 (0 : Fin 1) q) = _
  rw [shapeCast_self, shapeCast_self, shapeCast_self]

/-- The block indices over the grid: the input and output windows are at row block `t`, the weight and bias windows
    at their one block. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- The input window's block at point `t` is rows `2000 t …` of the input array. -/
theorem blk4_0_apply (c : Dev nD) (t : Fin cfg4.N) (p : Fin 2000) (k : Fin 256) (i : S50000x256.Idx)
    (hi0 : (i 0).val = t.val * 2000 + p.val) (hi1 : (i 1).val = k.val) :
    iblk4 V c 0 t (ix2 p k) = V c main_v82 i := by
  obtain ⟨e0, e1, -⟩ := idx_facts4 t
  unfold iblk4
  rw [View.read_apply]
  show V c main_v82 _ = V c main_v82 _
  congr 1
  funext a; apply Fin.ext
  match a with
  | ⟨0, _⟩ => show win4_0.index t (0 : Fin 2) * 2000 + 1 * p.val = (i 0).val; rw [e0, hi0]; omega
  | ⟨1, _⟩ => show win4_0.index t (1 : Fin 2) * 256 + 1 * k.val = (i 1).val; rw [e1, hi1]; omega

/-- The weight window's one block is the weight matrix. -/
theorem blk4_1_apply (c : Dev nD) (t : Fin cfg4.N) (k : Fin 256) (q : Fin 256) :
    iblk4 V c 1 t (ix2 k q) = V c main_v83 (ix2 k q) := by
  obtain ⟨-, -, e2, e3, -⟩ := idx_facts4 t
  unfold iblk4
  rw [View.read_apply]
  show V c main_v83 _ = V c main_v83 _
  congr 1
  funext a; apply Fin.ext
  match a with
  | ⟨0, _⟩ => show win4_1.index t (0 : Fin 2) * 256 + 1 * k.val = k.val; rw [e2]; omega
  | ⟨1, _⟩ => show win4_1.index t (1 : Fin 2) * 256 + 1 * q.val = q.val; rw [e3]; omega

/-- The bias window's one block is the bias row. -/
theorem blk4_2_apply (c : Dev nD) (t : Fin cfg4.N) (q : Fin 256) :
    iblk4 V c 2 t (ix2 (0 : Fin 1) q) = V c main_v85 (ix2 (0 : Fin 1) q) := by
  obtain ⟨-, -, -, -, e4, e5, -⟩ := idx_facts4 t
  unfold iblk4
  rw [View.read_apply]
  show V c main_v85 _ = V c main_v85 _
  congr 1
  funext a; apply Fin.ext
  match a with
  | ⟨0, _⟩ => show win4_2.index t (0 : Fin 2) * 1 + 1 * 0 = 0; rw [e4]
  | ⟨1, _⟩ => show win4_2.index t (1 : Fin 2) * 256 + 1 * q.val = q.val; rw [e5]; omega

/-- An entry of the region's payload is the whole-array affine map's entry, when the input block's row is the array's
    row, the weight block's column is the matrix's column and the bias block's entry is the bias row's. -/
theorem pay4_affine (x0 : Vec Ideal S2000x256 .f32) (x1 : Vec Ideal S256x256 .f32) (x2 : Vec Ideal S1x256 .f32)
    (A : FVec Ideal S50000x256 .f32) (W : FVec Ideal S256x256 .f32) (B : FVec Ideal S1x256 .f32)
    (j : S2000x256.Idx) (i : S50000x256.Idx)
    (h0 : ∀ k : Fin 256, x0 (ix2 (j 0 : Fin 2000) k) = A (ix2 (i 0 : Fin 50000) k))
    (h1 : ∀ k : Fin 256, x1 (ix2 k (j 1 : Fin 256)) = W (ix2 k (i 1 : Fin 256)))
    (h2 : x2 (ix2 (0 : Fin 1) (j 1 : Fin 256)) = B (ix2 (0 : Fin 1) (i 1 : Fin 256))) :
    k4_pay1 x0 x1 x2 j = Cert.Stage.affine A W B i := by
  refine ((congrArg (k4_pay1 x0 x1 x2) (eq_ix2 j)).trans (pay4_apply x0 x1 x2 (j 0) (j 1))).trans ?_
  unfold Cert.Stage.affine
  exact congrArg₂ (· + ·) (Finset.sum_congr rfl fun k _ => by rw [h0 k, h1 k]) h2

/-- What point `t` writes back is block `t` of the whole-array affine map. -/
theorem flushed4_eq (c : Dev nD) (t : Fin cfg4.N) :
    (dat4 (F := Ideal) V c).flushed 3 t
      = ((cfg4.win 3).blk t).view.read (Elt Ideal)
          (Cert.Stage.affine (V c main_v82) (V c main_v83) (V c main_v85)) := by
  show (cfg4.win 3).cut (grid4.coords t) ((dat4 (F := Ideal) V c).after 3 t) = _
  rw [after4_3]
  unfold out4_3
  rw [View.canon_unit_zero zero_off024]
  simp only [View.ld_unit_zero (S := S2000x256) zero_off024, View.ld_unit_zero (S := S256x256) zero_off024,
    View.ld_unit_zero (S := S1x256) zero_off024]
  obtain ⟨-, -, -, -, -, -, e6, e7⟩ := idx_facts4 t
  funext j
  show k4_pay1 (iblk4 V c 0 t) (iblk4 V c 1 t) (iblk4 V c 2 t) j
    = Cert.Stage.affine (V c main_v82) (V c main_v83) (V c main_v85) (((cfg4.win 3).blk t).view.emb j)
  have hcol : (ix2 (0 : Fin 1) (j 1 : Fin 256) : S1x256.Idx)
      = ix2 (0 : Fin 1) ((((cfg4.win 3).blk t).view.emb j) 1 : Fin 256) := by
    funext a; apply Fin.ext
    match a with
    | ⟨0, _⟩ => rfl
    | ⟨1, _⟩ => show (j 1).val = win4_3.index t (1 : Fin 2) * 256 + 1 * (j 1).val; rw [e7]; omega
  refine pay4_affine (iblk4 V c 0 t) (iblk4 V c 1 t) (iblk4 V c 2 t) (V c main_v82) (V c main_v83) (V c main_v85) j _
    (fun k => ?_) (fun k => ?_) ?_
  · refine blk4_0_apply V c t (j 0) k _ ?_ rfl
    show win4_3.index t (0 : Fin 2) * 2000 + 1 * (j 0).val = t.val * 2000 + (j 0).val
    rw [e6]; omega
  · refine (blk4_1_apply V c t k (j 1)).trans ?_
    congr 1
    funext a; apply Fin.ext
    match a with
    | ⟨0, _⟩ => rfl
    | ⟨1, _⟩ => show (j 1).val = win4_3.index t (1 : Fin 2) * 256 + 1 * (j 1).val; rw [e7]; omega
  · exact (blk4_2_apply V c t (j 1)).trans (congrArg (V c main_v85) hcol)

/-- An index of the output array is in point `t`'s block iff each coordinate is in the block's range on its axis. -/
theorem mem_blk4 (t : Fin cfg4.N) (i : S50000x256.Idx) :
    i ∈ ((cfg4.win 3).blk t).view.set ↔ ∀ a : Fin 2, win4_3.index t a * S2000x256.size a ≤ (i a).val
      ∧ (i a).val < win4_3.index t a * S2000x256.size a + S2000x256.size a := by
  show i ∈ ((View.whole main_v86).slice (win4_3.rect t)).set ↔ _
  rw [View.set_slice_whole, Rect.mem_set_unit]
  exact Iff.rfl

/-- Every index of the output array is in some point's block: row `r` is in block `r / 2000`. -/
theorem cover4 (i : S50000x256.Idx) :
    ∃ t : Fin cfg4.N, (cfg4.win 3).flush t = true ∧ i ∈ ((cfg4.win 3).blk t).view.set := by
  have hi0 : (i 0).val < 50000 := (i 0).isLt
  have hi1 : (i 1).val < 256 := (i 1).isLt
  have hN : cfg4.N = 25 := N_4
  obtain ⟨t, ht⟩ : ∃ t : Fin cfg4.N, t.val = (i 0).val / 2000 := ⟨⟨(i 0).val / 2000, by rw [hN]; omega⟩, rfl⟩
  obtain ⟨-, -, -, -, -, -, e6, e7⟩ := idx_facts4 t
  refine ⟨t, flush4_3 t, ?_⟩
  rw [mem_blk4]
  intro a
  match a with
  | ⟨0, _⟩ =>
    show win4_3.index t (0 : Fin 2) * 2000 ≤ (i 0).val ∧ (i 0).val < win4_3.index t (0 : Fin 2) * 2000 + 2000
    rw [e6, ht]; omega
  | ⟨1, _⟩ =>
    show win4_3.index t (1 : Fin 2) * 256 ≤ (i 1).val ∧ (i 1).val < win4_3.index t (1 : Fin 2) * 256 + 256
    rw [e7]; omega

/-- The region's output array ends holding the whole-array affine map of the input array, the weight matrix and the
    bias row. -/
theorem final4 (c : Dev nD) :
    (dat4 (F := Ideal) V c).arrAt 3 cfg4.N = Cert.Stage.affine (V c main_v82) (V c main_v83) (V c main_v85) :=
  (dat4 (F := Ideal) V c).arrAt_eq_of_cover 3 (Cert.Stage.affine (V c main_v82) (V c main_v83) (V c main_v85))
    (fun t _ => flushed4_eq V c t) cover4

end Cert.KernelIdeal.Regions

end
-- ==== Proof.RegionNorm.lean ====
/-
  The two normalising stages of the encoder, each read as ONE whole-array function of its input arrays.

  A normalising stage sweeps its 50000×256 input in 25 blocks of 2000 rows. At each block it reads the block's rows
  together with four one-row arrays (the columns' means, variances, scales and shifts), and writes back, entry by entry,
  `max (((a − μ) · (σ² + ε)^(−1/2)) · γ + β) 0`. The value at row `p`, column `q` of block `t` depends only on the input's
  entry at row `2000 t + p`, column `q` and on column `q` of the four rows, so every block written back is the matching
  block of `Cert.Stage.normRelu` of the whole arrays; the 25 blocks cover all 50000 rows (row `r` lies in block
  `r / 2000`), hence the output array after the stage is that function of the input arrays (`final1`, `final3`).
-/
import proofs.«135953_j54030688584374_1_alg».proof.Proof.Gen.KernelIdeal.Frame
import proofs.«135953_j54030688584374_1_alg».proof.Proof.Stage
import Idealize.ShloMosaic.Lib.Pipeline.Value
import Idealize.ShloMosaic.Lib.ValueIdx
import Idealize.ShloMosaic.Lib.ValueLayout
import Idealize.ShloMosaic.PureOps.Ideal

noncomputable section

namespace Cert.KernelIdeal.Regions

open Idealize.ShloMosaic Idealize.ShloMosaic.TcCoe Idealize.ShloMosaic.ValueIdx Idealize.SL.Sem Cert.KernelIdeal Cert.KernelIdeal.Gen

variable (V : (c : Dev nD) → (b : Ref sig .tc) → Buf (Elt Ideal) ((c : Thread nD τ).loc b))

/-- The zero offsets of a block read or written whole. -/
theorem norm13_hz : (![0, 0] : Fin 2 → Nat) = fun _ => 0 := funext fun a => by fin_cases a <;> rfl

/-! ## The first normalising stage -/

/-- The body's value at row `p`, column `q` of its block: the entry minus the column's mean, times the reciprocal
    square root of the column's variance plus `ε`, times the column's scale, plus the column's shift, then the positive
    part. -/
theorem norm1_pay_apply (x0 : Vec Ideal S2000x256 .f32) (var mean gamma beta : Vec Ideal S1x256 .f32) (p : Fin 2000) (q : Fin 256) :
    k1_pay1 x0 var mean gamma beta (ix2 p q)
      = max (((x0 (ix2 p q) - mean (ix2 (0 : Fin 1) q)) * Ideal.rsqrt (var (ix2 (0 : Fin 1) q) + Ideal.ofBits .f32 0x3727C5AC#32))
          * gamma (ix2 (0 : Fin 1) q) + beta (ix2 (0 : Fin 1) q)) (Ideal.ofBits .f32 0x00000000#32) := by
  unfold k1_pay1
  simp only [shapeCast_self, maximumf_apply, addf_apply, mulf_apply, subf_apply, broadcast_apply, broadcastTo_1b_ab_apply]
  rfl

/-- What the output's staging buffer holds after the body, entry by entry, from the five input blocks. -/
theorem norm1_out_apply (x0 : Vec Ideal S2000x256 .f32) (mean var gamma beta : Vec Ideal S1x256 .f32) (p : Fin 2000) (q : Fin 256) :
    out1_5 x0 mean var gamma beta (ix2 p q)
      = max (((x0 (ix2 p q) - mean (ix2 (0 : Fin 1) q)) * Ideal.rsqrt (var (ix2 (0 : Fin 1) q) + Ideal.ofBits .f32 0x3727C5AC#32))
          * gamma (ix2 (0 : Fin 1) q) + beta (ix2 (0 : Fin 1) q)) (Ideal.ofBits .f32 0x00000000#32) := by
  unfold out1_5
  rw [View.canon_unit_zero norm13_hz]
  simp only [View.ld_unit_zero (S := S2000x256) norm13_hz, View.ld_unit_zero (S := S1x256) norm13_hz]
  exact norm1_pay_apply x0 var mean gamma beta p q

/-- The printed index maps over the 25 points: the two full-height windows are at row block `t`, column block 0; each
    one-row window is at its only block. -/
theorem norm1_idx : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- A point of the grid is one of 25. -/
theorem norm1_lt (t : Fin cfg1.N) (p : Fin 2000) : t.val * 2000 + p.val < 50000 := by
  have hN : cfg1.N = 25 := N_1
  have := t.isLt
  have := p.isLt
  omega

/-- Row `p`, column `q` of the block the output window writes back at point `t` is row `2000 t + p`, column `q` of
    its array. -/
theorem norm1_emb_out (t : Fin cfg1.N) (p : Fin 2000) (q : Fin 256) :
    ((cfg1.win 5).blk t).view.emb (ix2 p q) = ix2 (⟨t.val * 2000 + p.val, norm1_lt t p⟩ : Fin 50000) q := by
  obtain ⟨-, -, -, -, -, -, -, -, -, -, e0, e1⟩ := norm1_idx t
  funext a
  apply Fin.ext
  match a with
  | ⟨0, _⟩ => show win1_5.index t (0 : Fin 2) * 2000 + 1 * p.val = t.val * 2000 + p.val; omega
  | ⟨1, _⟩ => show win1_5.index t (1 : Fin 2) * 256 + 1 * q.val = q.val; omega

/-- The block of the stage's input that point `t` stages is the same rows of its array. -/
theorem norm1_read0 (c : Dev nD) (t : Fin cfg1.N) (p : Fin 2000) (q : Fin 256) :
    iblk1 V c 0 t (ix2 p q) = V c main_v48 (ix2 (⟨t.val * 2000 + p.val, norm1_lt t p⟩ : Fin 50000) q) := by
  obtain ⟨e0, e1, -⟩ := norm1_idx t
  show V c main_v48 (((cfg1.win 0).blk t).view.emb (ix2 p q)) = _
  congr 1
  funext a
  apply Fin.ext
  match a with
  | ⟨0, _⟩ => show win1_0.index t (0 : Fin 2) * 2000 + 1 * p.val = t.val * 2000 + p.val; omega
  | ⟨1, _⟩ => show win1_0.index t (1 : Fin 2) * 256 + 1 * q.val = q.val; omega

/-- Each one-row window stages its whole array at every point. -/
theorem norm1_read1 (c : Dev nD) (t : Fin cfg1.N) (q : Fin 256) :
    iblk1 V c 1 t (ix2 (0 : Fin 1) q) = V c main_v53 (ix2 (0 : Fin 1) q) := by
  obtain ⟨-, -, e0, e1, -⟩ := norm1_idx t
  show V c main_v53 (((cfg1.win 1).blk t).view.emb (ix2 (0 : Fin 1) q)) = _
  congr 1
  funext a
  apply Fin.ext
  match a with
  | ⟨0, _⟩ => show win1_1.index t (0 : Fin 2) * 1 + 1 * 0 = 0; omega
  | ⟨1, _⟩ => show win1_1.index t (1 : Fin 2) * 256 + 1 * q.val = q.val; omega

theorem norm1_read2 (c : Dev nD) (t : Fin cfg1.N) (q : Fin 256) :
    iblk1 V c 2 t (ix2 (0 : Fin 1) q) = V c main_v54 (ix2 (0 : Fin 1) q) := by
  obtain ⟨-, -, -, -, e0, e1, -⟩ := norm1_idx t
  show V c main_v54 (((cfg1.win 2).blk t).view.emb (ix2 (0 : Fin 1) q)) = _
  congr 1
  funext a
  apply Fin.ext
  match a with
  | ⟨0, _⟩ => show win1_2.index t (0 : Fin 2) * 1 + 1 * 0 = 0; omega
  | ⟨1, _⟩ => show win1_2.index t (1 : Fin 2) * 256 + 1 * q.val = q.val; omega

theorem norm1_read3 (c : Dev nD) (t : Fin cfg1.N) (q : Fin 256) :
    iblk1 V c 3 t (ix2 (0 : Fin 1) q) = V c main_v55 (ix2 (0 : Fin 1) q) := by
  obtain ⟨-, -, -, -, -, -, e0, e1, -⟩ := norm1_idx t
  show V c main_v55 (((cfg1.win 3).blk t).view.emb (ix2 (0 : Fin 1) q)) = _
  congr 1
  funext a
  apply Fin.ext
  match a with
  | ⟨0, _⟩ => show win1_3.index t (0 : Fin 2) * 1 + 1 * 0 = 0; omega
  | ⟨1, _⟩ => show win1_3.index t (1 : Fin 2) * 256 + 1 * q.val = q.val; omega

theorem norm1_read4 (c : Dev nD) (t : Fin cfg1.N) (q : Fin 256) :
    iblk1 V c 4 t (ix2 (0 : Fin 1) q) = V c main_v56 (ix2 (0 : Fin 1) q) := by
  obtain ⟨-, -, -, -, -, -, -, -, e0, e1, -⟩ := norm1_idx t
  show V c main_v56 (((cfg1.win 4).blk t).view.emb (ix2 (0 : Fin 1) q)) = _
  congr 1
  funext a
  apply Fin.ext
  match a with
  | ⟨0, _⟩ => show win1_4.index t (0 : Fin 2) * 1 + 1 * 0 = 0; omega
  | ⟨1, _⟩ => show win1_4.index t (1 : Fin 2) * 256 + 1 * q.val = q.val; omega

/-- What point `t` writes back is block `t` of the normalised array. -/
theorem norm1_flushed (c : Dev nD) (t : Fin cfg1.N) :
    (dat1 (F := Ideal) V c).flushed 5 t = ((cfg1.win 5).blk t).view.read (Elt Ideal)
      (Cert.Stage.normRelu (V c main_v48) (V c main_v53) (V c main_v54) (V c main_v55) (V c main_v56)) := by
  show (cfg1.win 5).cut (grid1.coords t) ((dat1 V c).after 5 t) = _
  rw [after1_5]
  funext j
  obtain ⟨p, q, rfl⟩ : ∃ (p : Fin 2000) (q : Fin 256), j = ix2 p q := ⟨j 0, j 1, eq_ix2 j⟩
  refine (norm1_out_apply _ _ _ _ _ p q).trans ?_
  rw [View.read_apply, norm1_emb_out t p q, norm1_read0 V c t p q, norm1_read1 V c t q, norm1_read2 V c t q,
    norm1_read3 V c t q, norm1_read4 V c t q]
  rfl

/-- An entry of the output array is in point `t`'s block iff each coordinate is in the block's range on its axis. -/
theorem norm1_mem_blk (t : Fin cfg1.N) (i : S50000x256.Idx) :
    i ∈ ((cfg1.win 5).blk t).view.set ↔ ∀ a : Fin 2, win1_5.index t a * S2000x256.size a ≤ (i a).val
      ∧ (i a).val < win1_5.index t a * S2000x256.size a + S2000x256.size a := by
  show i ∈ ((View.whole main_v57).slice (win1_5.rect t)).set ↔ _
  rw [View.set_slice_whole, Rect.mem_set_unit]
  exact Iff.rfl

/-- Every entry of the output array is written back by some point: row `r` by point `r / 2000`. -/
theorem norm1_cover (i : S50000x256.Idx) :
    ∃ t : Fin cfg1.N, (cfg1.win 5).flush t = true ∧ i ∈ ((cfg1.win 5).blk t).view.set := by
  have hN : cfg1.N = 25 := N_1
  have hi0 : (i 0).val < 50000 := (i 0).isLt
  have hi1 : (i 1).val < 256 := (i 1).isLt
  obtain ⟨t, ht⟩ : ∃ t : Fin cfg1.N, t.val = (i 0).val / 2000 := ⟨⟨(i 0).val / 2000, by omega⟩, rfl⟩
  obtain ⟨-, -, -, -, -, -, -, -, -, -, e0, e1⟩ := norm1_idx t
  refine ⟨t, flush1_5 t, ?_⟩
  rw [norm1_mem_blk]
  intro a
  match a with
  | ⟨0, _⟩ =>
    show win1_5.index t (0 : Fin 2) * 2000 ≤ (i 0).val ∧ (i 0).val < win1_5.index t (0 : Fin 2) * 2000 + 2000
    omega
  | ⟨1, _⟩ =>
    show win1_5.index t (1 : Fin 2) * 256 ≤ (i 1).val ∧ (i 1).val < win1_5.index t (1 : Fin 2) * 256 + 256
    omega

/-- After the first normalising stage its output array is the normalised input, whole. -/
theorem final1 (c : Dev nD) : (dat1 (F := Ideal) V c).arrAt 5 cfg1.N
    = Cert.Stage.normRelu (V c main_v48) (V c main_v53) (V c main_v54) (V c main_v55) (V c main_v56) :=
  (dat1 (F := Ideal) V c).arrAt_eq_of_cover 5 _ (fun t _ => norm1_flushed V c t) norm1_cover

/-! ## The second normalising stage -/

/-- The body's value at row `p`, column `q` of its block: the entry minus the column's mean, times the reciprocal
    square root of the column's variance plus `ε`, times the column's scale, plus the column's shift, then the positive
    part. -/
theorem norm3_pay_apply (x0 : Vec Ideal S2000x256 .f32) (var mean gamma beta : Vec Ideal S1x256 .f32) (p : Fin 2000) (q : Fin 256) :
    k3_pay1 x0 var mean gamma beta (ix2 p q)
      = max (((x0 (ix2 p q) - mean (ix2 (0 : Fin 1) q)) * Ideal.rsqrt (var (ix2 (0 : Fin 1) q) + Ideal.ofBits .f32 0x3727C5AC#32))
          * gamma (ix2 (0 : Fin 1) q) + beta (ix2 (0 : Fin 1) q)) (Ideal.ofBits .f32 0x00000000#32) := by
  unfold k3_pay1
  simp only [shapeCast_self, maximumf_apply, addf_apply, mulf_apply, subf_apply, broadcast_apply, broadcastTo_1b_ab_apply]
  rfl

/-- What the output's staging buffer holds after the body, entry by entry, from the five input blocks. -/
theorem norm3_out_apply (x0 : Vec Ideal S2000x256 .f32) (mean var gamma beta : Vec Ideal S1x256 .f32) (p : Fin 2000) (q : Fin 256) :
    out3_5 x0 mean var gamma beta (ix2 p q)
      = max (((x0 (ix2 p q) - mean (ix2 (0 : Fin 1) q)) * Ideal.rsqrt (var (ix2 (0 : Fin 1) q) + Ideal.ofBits .f32 0x3727C5AC#32))
          * gamma (ix2 (0 : Fin 1) q) + beta (ix2 (0 : Fin 1) q)) (Ideal.ofBits .f32 0x00000000#32) := by
  unfold out3_5
  rw [View.canon_unit_zero norm13_hz]
  simp only [View.ld_unit_zero (S := S2000x256) norm13_hz, View.ld_unit_zero (S := S1x256) norm13_hz]
  exact norm3_pay_apply x0 var mean gamma beta p q

/-- The printed index maps over the 25 points: the two full-height windows are at row block `t`, column block 0; each
    one-row window is at its only block. -/
theorem norm3_idx : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- A point of the grid is one of 25. -/
theorem norm3_lt (t : Fin cfg3.N) (p : Fin 2000) : t.val * 2000 + p.val < 50000 := by
  have hN : cfg3.N = 25 := N_3
  have := t.isLt
  have := p.isLt
  omega

/-- Row `p`, column `q` of the block the output window writes back at point `t` is row `2000 t + p`, column `q` of
    its array. -/
theorem norm3_emb_out (t : Fin cfg3.N) (p : Fin 2000) (q : Fin 256) :
    ((cfg3.win 5).blk t).view.emb (ix2 p q) = ix2 (⟨t.val * 2000 + p.val, norm3_lt t p⟩ : Fin 50000) q := by
  obtain ⟨-, -, -, -, -, -, -, -, -, -, e0, e1⟩ := norm3_idx t
  funext a
  apply Fin.ext
  match a with
  | ⟨0, _⟩ => show win3_5.index t (0 : Fin 2) * 2000 + 1 * p.val = t.val * 2000 + p.val; omega
  | ⟨1, _⟩ => show win3_5.index t (1 : Fin 2) * 256 + 1 * q.val = q.val; omega

/-- The block of the stage's input that point `t` stages is the same rows of its array. -/
theorem norm3_read0 (c : Dev nD) (t : Fin cfg3.N) (p : Fin 2000) (q : Fin 256) :
    iblk3 V c 0 t (ix2 p q) = V c main_v73 (ix2 (⟨t.val * 2000 + p.val, norm3_lt t p⟩ : Fin 50000) q) := by
  obtain ⟨e0, e1, -⟩ := norm3_idx t
  show V c main_v73 (((cfg3.win 0).blk t).view.emb (ix2 p q)) = _
  congr 1
  funext a
  apply Fin.ext
  match a with
  | ⟨0, _⟩ => show win3_0.index t (0 : Fin 2) * 2000 + 1 * p.val = t.val * 2000 + p.val; omega
  | ⟨1, _⟩ => show win3_0.index t (1 : Fin 2) * 256 + 1 * q.val = q.val; omega

/-- Each one-row window stages its whole array at every point. -/
theorem norm3_read1 (c : Dev nD) (t : Fin cfg3.N) (q : Fin 256) :
    iblk3 V c 1 t (ix2 (0 : Fin 1) q) = V c main_v78 (ix2 (0 : Fin 1) q) := by
  obtain ⟨-, -, e0, e1, -⟩ := norm3_idx t
  show V c main_v78 (((cfg3.win 1).blk t).view.emb (ix2 (0 : Fin 1) q)) = _
  congr 1
  funext a
  apply Fin.ext
  match a with
  | ⟨0, _⟩ => show win3_1.index t (0 : Fin 2) * 1 + 1 * 0 = 0; omega
  | ⟨1, _⟩ => show win3_1.index t (1 : Fin 2) * 256 + 1 * q.val = q.val; omega

theorem norm3_read2 (c : Dev nD) (t : Fin cfg3.N) (q : Fin 256) :
    iblk3 V c 2 t (ix2 (0 : Fin 1) q) = V c main_v79 (ix2 (0 : Fin 1) q) := by
  obtain ⟨-, -, -, -, e0, e1, -⟩ := norm3_idx t
  show V c main_v79 (((cfg3.win 2).blk t).view.emb (ix2 (0 : Fin 1) q)) = _
  congr 1
  funext a
  apply Fin.ext
  match a with
  | ⟨0, _⟩ => show win3_2.index t (0 : Fin 2) * 1 + 1 * 0 = 0; omega
  | ⟨1, _⟩ => show win3_2.index t (1 : Fin 2) * 256 + 1 * q.val = q.val; omega

theorem norm3_read3 (c : Dev nD) (t : Fin cfg3.N) (q : Fin 256) :
    iblk3 V c 3 t (ix2 (0 : Fin 1) q) = V c main_v80 (ix2 (0 : Fin 1) q) := by
  obtain ⟨-, -, -, -, -, -, e0, e1, -⟩ := norm3_idx t
  show V c main_v80 (((cfg3.win 3).blk t).view.emb (ix2 (0 : Fin 1) q)) = _
  congr 1
  funext a
  apply Fin.ext
  match a with
  | ⟨0, _⟩ => show win3_3.index t (0 : Fin 2) * 1 + 1 * 0 = 0; omega
  | ⟨1, _⟩ => show win3_3.index t (1 : Fin 2) * 256 + 1 * q.val = q.val; omega

theorem norm3_read4 (c : Dev nD) (t : Fin cfg3.N) (q : Fin 256) :
    iblk3 V c 4 t (ix2 (0 : Fin 1) q) = V c main_v81 (ix2 (0 : Fin 1) q) := by
  obtain ⟨-, -, -, -, -, -, -, -, e0, e1, -⟩ := norm3_idx t
  show V c main_v81 (((cfg3.win 4).blk t).view.emb (ix2 (0 : Fin 1) q)) = _
  congr 1
  funext a
  apply Fin.ext
  match a with
  | ⟨0, _⟩ => show win3_4.index t (0 : Fin 2) * 1 + 1 * 0 = 0; omega
  | ⟨1, _⟩ => show win3_4.index t (1 : Fin 2) * 256 + 1 * q.val = q.val; omega

/-- What point `t` writes back is block `t` of the normalised array. -/
theorem norm3_flushed (c : Dev nD) (t : Fin cfg3.N) :
    (dat3 (F := Ideal) V c).flushed 5 t = ((cfg3.win 5).blk t).view.read (Elt Ideal)
      (Cert.Stage.normRelu (V c main_v73) (V c main_v78) (V c main_v79) (V c main_v80) (V c main_v81)) := by
  show (cfg3.win 5).cut (grid3.coords t) ((dat3 V c).after 5 t) = _
  rw [after3_5]
  funext j
  obtain ⟨p, q, rfl⟩ : ∃ (p : Fin 2000) (q : Fin 256), j = ix2 p q := ⟨j 0, j 1, eq_ix2 j⟩
  refine (norm3_out_apply _ _ _ _ _ p q).trans ?_
  rw [View.read_apply, norm3_emb_out t p q, norm3_read0 V c t p q, norm3_read1 V c t q, norm3_read2 V c t q,
    norm3_read3 V c t q, norm3_read4 V c t q]
  rfl

/-- An entry of the output array is in point `t`'s block iff each coordinate is in the block's range on its axis. -/
theorem norm3_mem_blk (t : Fin cfg3.N) (i : S50000x256.Idx) :
    i ∈ ((cfg3.win 5).blk t).view.set ↔ ∀ a : Fin 2, win3_5.index t a * S2000x256.size a ≤ (i a).val
      ∧ (i a).val < win3_5.index t a * S2000x256.size a + S2000x256.size a := by
  show i ∈ ((View.whole main_v82).slice (win3_5.rect t)).set ↔ _
  rw [View.set_slice_whole, Rect.mem_set_unit]
  exact Iff.rfl

/-- Every entry of the output array is written back by some point: row `r` by point `r / 2000`. -/
theorem norm3_cover (i : S50000x256.Idx) :
    ∃ t : Fin cfg3.N, (cfg3.win 5).flush t = true ∧ i ∈ ((cfg3.win 5).blk t).view.set := by
  have hN : cfg3.N = 25 := N_3
  have hi0 : (i 0).val < 50000 := (i 0).isLt
  have hi1 : (i 1).val < 256 := (i 1).isLt
  obtain ⟨t, ht⟩ : ∃ t : Fin cfg3.N, t.val = (i 0).val / 2000 := ⟨⟨(i 0).val / 2000, by omega⟩, rfl⟩
  obtain ⟨-, -, -, -, -, -, -, -, -, -, e0, e1⟩ := norm3_idx t
  refine ⟨t, flush3_5 t, ?_⟩
  rw [norm3_mem_blk]
  intro a
  match a with
  | ⟨0, _⟩ =>
    show win3_5.index t (0 : Fin 2) * 2000 ≤ (i 0).val ∧ (i 0).val < win3_5.index t (0 : Fin 2) * 2000 + 2000
    omega
  | ⟨1, _⟩ =>
    show win3_5.index t (1 : Fin 2) * 256 ≤ (i 1).val ∧ (i 1).val < win3_5.index t (1 : Fin 2) * 256 + 256
    omega

/-- After the second normalising stage its output array is the normalised input, whole. -/
theorem final3 (c : Dev nD) : (dat3 (F := Ideal) V c).arrAt 5 cfg3.N
    = Cert.Stage.normRelu (V c main_v73) (V c main_v78) (V c main_v79) (V c main_v80) (V c main_v81) :=
  (dat3 (F := Ideal) V c).arrAt_eq_of_cover 5 _ (fun t _ => norm3_flushed V c t) norm3_cover

end Cert.KernelIdeal.Regions

end
-- ==== Proof.KernelKeep.lean ====
/-
  Which buffers each stretch of host operations of the idealized kernel program writes, and what that leaves alone.

  Every host operation writes one buffer. For each of the eleven stretches the list of the buffers its operations write
  is recorded, and a buffer outside that list reads the same after the stretch as before it.
-/
import proofs.«135953_j54030688584374_1_alg».proof.Proof.Gen.KernelIdeal.Frame

set_option maxRecDepth 16384

noncomputable section

namespace Cert.KernelIdeal.Keep

open Idealize.ShloMosaic Idealize.ShloMosaic.TcCoe Idealize.SL.Sem Idealize.ShloMosaic.StableHlo
open Cert.KernelIdeal Cert.KernelIdeal.Gen

variable {F : FTy → Type} [FloatOps F]

/-- The buffers the operations of `hostOps0` write. -/
abbrev w0 : List (Ref sig .tc) :=
  [main_v0, main_v1, main_v2, main_v3, main_v4, main_v5, main_v6, main_cst, main_v7, main_cst_0, main_v8, main_v9, main_v10, main_cst_1, main_v11, main_v12, main_cst_2, main_v13, main_v14, main_v15, main_cst_3]

theorem w0_sub : (hostOps0 : List (HloOp τ sig (Elt F))).Forall fun op => op.writes ⊆ ((w0).map (Proc.devRef (τ := τ) .tc)).toFinset := by
  simp only [hostOps0, List.Forall, nullary_writes, unary_writes, binary_writes, ternary_writes, reshape_writes, Finset.singleton_subset_iff]
  repeat' apply And.intro
  all_goals (refine List.mem_toFinset.mpr (List.mem_map.mpr ⟨_, ?_, rfl⟩); decide)

/-- A buffer `hostOps0` does not write is left as it was. -/
theorem keep0 (V : Valuation τ sig (Elt F)) (r : Ref sig .tc) (hr : r ∉ w0) :
    after (hostOps0 : List (HloOp τ sig (Elt F))) V (Proc.devRef .tc r) = V (Proc.devRef .tc r) :=
  after_of_writes_sub _ V w0_sub hr

/-- The buffers the operations of `hostOps0_1` write. -/
abbrev w0_1 : List (Ref sig .tc) :=
  [main_call0_v0, main_call0_v1, main_v16]

theorem w0_1_sub : (hostOps0_1 : List (HloOp τ sig (Elt F))).Forall fun op => op.writes ⊆ ((w0_1).map (Proc.devRef (τ := τ) .tc)).toFinset := by
  simp only [hostOps0_1, List.Forall, nullary_writes, unary_writes, binary_writes, ternary_writes, reshape_writes, Finset.singleton_subset_iff]
  repeat' apply And.intro
  all_goals (refine List.mem_toFinset.mpr (List.mem_map.mpr ⟨_, ?_, rfl⟩); decide)

/-- A buffer `hostOps0_1` does not write is left as it was. -/
theorem keep0_1 (V : Valuation τ sig (Elt F)) (r : Ref sig .tc) (hr : r ∉ w0_1) :
    after (hostOps0_1 : List (HloOp τ sig (Elt F))) V (Proc.devRef .tc r) = V (Proc.devRef .tc r) :=
  after_of_writes_sub _ V w0_1_sub hr

/-- The buffers the operations of `hostOps0_2` write. -/
abbrev w0_2 : List (Ref sig .tc) :=
  [main_c, main_v17, main_v18, main_c_4, main_v19, main_v20, main_v21, main_v22, main_v23, main_c_5, main_v24, main_v25, main_c_6, main_v26, main_v27, main_v28, main_v29, main_v30, main_v31, main_v32]

theorem w0_2_sub : (hostOps0_2 : List (HloOp τ sig (Elt F))).Forall fun op => op.writes ⊆ ((w0_2).map (Proc.devRef (τ := τ) .tc)).toFinset := by
  simp only [hostOps0_2, List.Forall, nullary_writes, unary_writes, binary_writes, ternary_writes, reshape_writes, Finset.singleton_subset_iff]
  repeat' apply And.intro
  all_goals (refine List.mem_toFinset.mpr (List.mem_map.mpr ⟨_, ?_, rfl⟩); decide)

/-- A buffer `hostOps0_2` does not write is left as it was. -/
theorem keep0_2 (V : Valuation τ sig (Elt F)) (r : Ref sig .tc) (hr : r ∉ w0_2) :
    after (hostOps0_2 : List (HloOp τ sig (Elt F))) V (Proc.devRef .tc r) = V (Proc.devRef .tc r) :=
  after_of_writes_sub _ V w0_2_sub hr

/-- The buffers the operations of `hostOps1` write. -/
abbrev w1 : List (Ref sig .tc) :=
  [main_c_7, main_v34, main_v35, main_c_8, main_v36, main_v37, main_v38, main_v39, main_v40, main_v41, main_v42, main_cst_9, main_v43, main_v44, main_v45, main_v46, main_v47, main_v48, main_cst_10, main_v49, main_cst_11, main_v50, main_v51, main_c_12]

theorem w1_sub : (hostOps1 : List (HloOp τ sig (Elt F))).Forall fun op => op.writes ⊆ ((w1).map (Proc.devRef (τ := τ) .tc)).toFinset := by
  simp only [hostOps1, List.Forall, nullary_writes, unary_writes, binary_writes, ternary_writes, reshape_writes, Finset.singleton_subset_iff]
  repeat' apply And.intro
  all_goals (refine List.mem_toFinset.mpr (List.mem_map.mpr ⟨_, ?_, rfl⟩); decide)

/-- A buffer `hostOps1` does not write is left as it was. -/
theorem keep1 (V : Valuation τ sig (Elt F)) (r : Ref sig .tc) (hr : r ∉ w1) :
    after (hostOps1 : List (HloOp τ sig (Elt F))) V (Proc.devRef .tc r) = V (Proc.devRef .tc r) :=
  after_of_writes_sub _ V w1_sub hr

/-- The buffers the operations of `hostOps1_1` write. -/
abbrev w1_1 : List (Ref sig .tc) :=
  [main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v52]

theorem w1_1_sub : (hostOps1_1 : List (HloOp τ sig (Elt F))).Forall fun op => op.writes ⊆ ((w1_1).map (Proc.devRef (τ := τ) .tc)).toFinset := by
  simp only [hostOps1_1, List.Forall, nullary_writes, unary_writes, binary_writes, ternary_writes, reshape_writes, Finset.singleton_subset_iff]
  repeat' apply And.intro
  all_goals (refine List.mem_toFinset.mpr (List.mem_map.mpr ⟨_, ?_, rfl⟩); decide)

/-- A buffer `hostOps1_1` does not write is left as it was. -/
theorem keep1_1 (V : Valuation τ sig (Elt F)) (r : Ref sig .tc) (hr : r ∉ w1_1) :
    after (hostOps1_1 : List (HloOp τ sig (Elt F))) V (Proc.devRef .tc r) = V (Proc.devRef .tc r) :=
  after_of_writes_sub _ V w1_1_sub hr

/-- The buffers the operations of `hostOps1_2` write. -/
abbrev w1_2 : List (Ref sig .tc) :=
  [main_v53, main_v54, main_v55, main_v56]

theorem w1_2_sub : (hostOps1_2 : List (HloOp τ sig (Elt F))).Forall fun op => op.writes ⊆ ((w1_2).map (Proc.devRef (τ := τ) .tc)).toFinset := by
  simp only [hostOps1_2, List.Forall, nullary_writes, unary_writes, binary_writes, ternary_writes, reshape_writes, Finset.singleton_subset_iff]
  repeat' apply And.intro
  all_goals (refine List.mem_toFinset.mpr (List.mem_map.mpr ⟨_, ?_, rfl⟩); decide)

/-- A buffer `hostOps1_2` does not write is left as it was. -/
theorem keep1_2 (V : Valuation τ sig (Elt F)) (r : Ref sig .tc) (hr : r ∉ w1_2) :
    after (hostOps1_2 : List (HloOp τ sig (Elt F))) V (Proc.devRef .tc r) = V (Proc.devRef .tc r) :=
  after_of_writes_sub _ V w1_2_sub hr

/-- The buffers the operations of `hostOps3` write. -/
abbrev w3 : List (Ref sig .tc) :=
  [main_c_13, main_v59, main_v60, main_c_14, main_v61, main_v62, main_v63, main_v64, main_v65, main_v66, main_v67, main_cst_15, main_v68, main_v69, main_v70, main_v71, main_v72, main_v73, main_cst_16, main_v74, main_cst_17, main_v75, main_v76, main_c_18]

theorem w3_sub : (hostOps3 : List (HloOp τ sig (Elt F))).Forall fun op => op.writes ⊆ ((w3).map (Proc.devRef (τ := τ) .tc)).toFinset := by
  simp only [hostOps3, List.Forall, nullary_writes, unary_writes, binary_writes, ternary_writes, reshape_writes, Finset.singleton_subset_iff]
  repeat' apply And.intro
  all_goals (refine List.mem_toFinset.mpr (List.mem_map.mpr ⟨_, ?_, rfl⟩); decide)

/-- A buffer `hostOps3` does not write is left as it was. -/
theorem keep3 (V : Valuation τ sig (Elt F)) (r : Ref sig .tc) (hr : r ∉ w3) :
    after (hostOps3 : List (HloOp τ sig (Elt F))) V (Proc.devRef .tc r) = V (Proc.devRef .tc r) :=
  after_of_writes_sub _ V w3_sub hr

/-- The buffers the operations of `hostOps3_1` write. -/
abbrev w3_1 : List (Ref sig .tc) :=
  [main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v77]

theorem w3_1_sub : (hostOps3_1 : List (HloOp τ sig (Elt F))).Forall fun op => op.writes ⊆ ((w3_1).map (Proc.devRef (τ := τ) .tc)).toFinset := by
  simp only [hostOps3_1, List.Forall, nullary_writes, unary_writes, binary_writes, ternary_writes, reshape_writes, Finset.singleton_subset_iff]
  repeat' apply And.intro
  all_goals (refine List.mem_toFinset.mpr (List.mem_map.mpr ⟨_, ?_, rfl⟩); decide)

/-- A buffer `hostOps3_1` does not write is left as it was. -/
theorem keep3_1 (V : Valuation τ sig (Elt F)) (r : Ref sig .tc) (hr : r ∉ w3_1) :
    after (hostOps3_1 : List (HloOp τ sig (Elt F))) V (Proc.devRef .tc r) = V (Proc.devRef .tc r) :=
  after_of_writes_sub _ V w3_1_sub hr

/-- The buffers the operations of `hostOps3_2` write. -/
abbrev w3_2 : List (Ref sig .tc) :=
  [main_v78, main_v79, main_v80, main_v81]

theorem w3_2_sub : (hostOps3_2 : List (HloOp τ sig (Elt F))).Forall fun op => op.writes ⊆ ((w3_2).map (Proc.devRef (τ := τ) .tc)).toFinset := by
  simp only [hostOps3_2, List.Forall, nullary_writes, unary_writes, binary_writes, ternary_writes, reshape_writes, Finset.singleton_subset_iff]
  repeat' apply And.intro
  all_goals (refine List.mem_toFinset.mpr (List.mem_map.mpr ⟨_, ?_, rfl⟩); decide)

/-- A buffer `hostOps3_2` does not write is left as it was. -/
theorem keep3_2 (V : Valuation τ sig (Elt F)) (r : Ref sig .tc) (hr : r ∉ w3_2) :
    after (hostOps3_2 : List (HloOp τ sig (Elt F))) V (Proc.devRef .tc r) = V (Proc.devRef .tc r) :=
  after_of_writes_sub _ V w3_2_sub hr

/-- The buffers the operations of `hostOps4` write. -/
abbrev w4 : List (Ref sig .tc) :=
  [main_v83, main_v84, main_v85]

theorem w4_sub : (hostOps4 : List (HloOp τ sig (Elt F))).Forall fun op => op.writes ⊆ ((w4).map (Proc.devRef (τ := τ) .tc)).toFinset := by
  simp only [hostOps4, List.Forall, nullary_writes, unary_writes, binary_writes, ternary_writes, reshape_writes, Finset.singleton_subset_iff]
  repeat' apply And.intro
  all_goals (refine List.mem_toFinset.mpr (List.mem_map.mpr ⟨_, ?_, rfl⟩); decide)

/-- A buffer `hostOps4` does not write is left as it was. -/
theorem keep4 (V : Valuation τ sig (Elt F)) (r : Ref sig .tc) (hr : r ∉ w4) :
    after (hostOps4 : List (HloOp τ sig (Elt F))) V (Proc.devRef .tc r) = V (Proc.devRef .tc r) :=
  after_of_writes_sub _ V w4_sub hr

/-- The buffers the operations of `hostOps5` write. -/
abbrev w5 : List (Ref sig .tc) :=
  [main_v87, main_v88]

theorem w5_sub : (hostOps5 : List (HloOp τ sig (Elt F))).Forall fun op => op.writes ⊆ ((w5).map (Proc.devRef (τ := τ) .tc)).toFinset := by
  simp only [hostOps5, List.Forall, nullary_writes, unary_writes, binary_writes, ternary_writes, reshape_writes, Finset.singleton_subset_iff]
  repeat' apply And.intro
  all_goals (refine List.mem_toFinset.mpr (List.mem_map.mpr ⟨_, ?_, rfl⟩); decide)

/-- A buffer `hostOps5` does not write is left as it was. -/
theorem keep5 (V : Valuation τ sig (Elt F)) (r : Ref sig .tc) (hr : r ∉ w5) :
    after (hostOps5 : List (HloOp τ sig (Elt F))) V (Proc.devRef .tc r) = V (Proc.devRef .tc r) :=
  after_of_writes_sub _ V w5_sub hr

end Cert.KernelIdeal.Keep

end
-- ==== Proof.KernelSide.lean ====
/-
  The idealized kernel program, boundary by boundary: what each buffer that matters holds.

  The contents of the buffers at the sixteen segment boundaries are the fold `Gen.W0 … Gen.W16`. This module reads that
  fold where the value argument needs it:
  * a span of host operations, or a tiled region, leaves alone every buffer it does not write (`k…`), so each argument
    array holds its launch contents at the boundary where it is consumed (`arg…`);
  * after each tiled region its output array is the stage's whole-array function of the arrays the region was entered
    with (`reg0 … reg4`: the product, the normalisation with positive part, the product, the same, the affine map);
  * the four one-row arrays a normalisation region is given are the column means, the column variances, the scale and
    the shift reshaped (`norm0`, `norm1`), and the last region is given the two head matrices side by side and the two
    bias vectors end to end, its output sliced in two afterwards (`head_mu`, `head_lv`).
-/
import proofs.«135953_j54030688584374_1_alg».proof.Proof.Gen.KernelIdeal.Frame
import proofs.«135953_j54030688584374_1_alg».proof.Proof.RegionProject
import proofs.«135953_j54030688584374_1_alg».proof.Proof.RegionNorm
import proofs.«135953_j54030688584374_1_alg».proof.Proof.KernelKeep

set_option maxRecDepth 16384

noncomputable section

namespace Cert.KernelIdeal.Side

open Idealize.ShloMosaic Idealize.ShloMosaic.TcCoe Idealize.SL.Sem Idealize.ShloMosaic.StableHlo
open Cert.KernelIdeal Cert.KernelIdeal.Gen Cert.KernelIdeal.Keep Cert.KernelIdeal.Regions Cert.KernelIdeal.Facts₀

variable (m : (ℓ : Loc nD τ sig) → Buf (Elt Ideal) ℓ) (ρ : Dev nD → PrngReg) (c : Dev nD)

/-! ## Spans that leave a buffer alone -/

theorem k01 (r : Ref sig .tc) (h : r ∉ w0) : W1 m ρ c (Proc.devRef .tc r) = W0 m ρ c (Proc.devRef .tc r) := keep0 _ r h
theorem k13 (r : Ref sig .tc) (h1 : r ∉ w0_1) (h2 : r ∉ w0_2) : W3 m ρ c (Proc.devRef .tc r) = W1 m ρ c (Proc.devRef .tc r) :=
  (keep0_2 _ r h2).trans (keep0_1 _ r h1)
theorem k34 (r : Ref sig .tc) (h : ∀ w, Pipeline.arrRef spec0 w ≠ r) : W4 m ρ c (Proc.devRef .tc r) = W3 m ρ c (Proc.devRef .tc r) :=
  W4_of_ne m ρ c r h
theorem k46 (r : Ref sig .tc) (h1 : r ∉ w1) (h2 : r ∉ w1_1) : W6 m ρ c (Proc.devRef .tc r) = W4 m ρ c (Proc.devRef .tc r) :=
  (keep1_1 _ r h2).trans (keep1 _ r h1)
theorem k67 (r : Ref sig .tc) (h : r ∉ w1_2) : W7 m ρ c (Proc.devRef .tc r) = W6 m ρ c (Proc.devRef .tc r) := keep1_2 _ r h
theorem k78 (r : Ref sig .tc) (h : ∀ w, Pipeline.arrRef spec1 w ≠ r) : W8 m ρ c (Proc.devRef .tc r) = W7 m ρ c (Proc.devRef .tc r) :=
  W8_of_ne m ρ c r h
theorem k89 (r : Ref sig .tc) (h : ∀ w, Pipeline.arrRef spec2 w ≠ r) : W9 m ρ c (Proc.devRef .tc r) = W8 m ρ c (Proc.devRef .tc r) :=
  W9_of_ne m ρ c r h
theorem k9_11 (r : Ref sig .tc) (h1 : r ∉ w3) (h2 : r ∉ w3_1) : W11 m ρ c (Proc.devRef .tc r) = W9 m ρ c (Proc.devRef .tc r) :=
  (keep3_1 _ r h2).trans (keep3 _ r h1)
theorem k11_12 (r : Ref sig .tc) (h : r ∉ w3_2) : W12 m ρ c (Proc.devRef .tc r) = W11 m ρ c (Proc.devRef .tc r) := keep3_2 _ r h
theorem k12_13 (r : Ref sig .tc) (h : ∀ w, Pipeline.arrRef spec3 w ≠ r) : W13 m ρ c (Proc.devRef .tc r) = W12 m ρ c (Proc.devRef .tc r) :=
  W13_of_ne m ρ c r h
theorem k13_14 (r : Ref sig .tc) (h : r ∉ w4) : W14 m ρ c (Proc.devRef .tc r) = W13 m ρ c (Proc.devRef .tc r) := keep4 _ r h

/-- From the first tiled region's exit to the second product region's exit. -/
theorem k4_9 (r : Ref sig .tc) (h1 : r ∉ w1) (h2 : r ∉ w1_1) (h3 : r ∉ w1_2) (h4 : ∀ w, Pipeline.arrRef spec1 w ≠ r)
    (h5 : ∀ w, Pipeline.arrRef spec2 w ≠ r) : W9 m ρ c (Proc.devRef .tc r) = W4 m ρ c (Proc.devRef .tc r) :=
  (k89 m ρ c r h5).trans ((k78 m ρ c r h4).trans ((k67 m ρ c r h3).trans (k46 m ρ c r h1 h2)))

/-- From the second product region's exit to the second normalisation region's exit. -/
theorem k9_13 (r : Ref sig .tc) (h1 : r ∉ w3) (h2 : r ∉ w3_1) (h3 : r ∉ w3_2) (h4 : ∀ w, Pipeline.arrRef spec3 w ≠ r) :
    W13 m ρ c (Proc.devRef .tc r) = W9 m ρ c (Proc.devRef .tc r) :=
  (k12_13 m ρ c r h4).trans ((k11_12 m ρ c r h3).trans (k9_11 m ρ c r h1 h2))

/-! ## The argument arrays where they are consumed -/

theorem launch (r : Ref sig .tc) : W0 m ρ c (Proc.devRef .tc r) = m ((c : Thread nD τ).loc r) := rfl

theorem arg_3 (r : Ref sig .tc) (h0 : r ∉ w0) (h1 : r ∉ w0_1) (h2 : r ∉ w0_2) :
    W3 m ρ c (Proc.devRef .tc r) = m ((c : Thread nD τ).loc r) :=
  (k13 m ρ c r h1 h2).trans ((k01 m ρ c r h0).trans (launch m ρ c r))
theorem arg_4 (r : Ref sig .tc) (h0 : r ∉ w0) (h1 : r ∉ w0_1) (h2 : r ∉ w0_2) (h3 : ∀ w, Pipeline.arrRef spec0 w ≠ r) :
    W4 m ρ c (Proc.devRef .tc r) = m ((c : Thread nD τ).loc r) :=
  (k34 m ρ c r h3).trans (arg_3 m ρ c r h0 h1 h2)
theorem arg_6 (r : Ref sig .tc) (h0 : r ∉ w0) (h1 : r ∉ w0_1) (h2 : r ∉ w0_2) (h3 : ∀ w, Pipeline.arrRef spec0 w ≠ r)
    (h4 : r ∉ w1) (h5 : r ∉ w1_1) : W6 m ρ c (Proc.devRef .tc r) = m ((c : Thread nD τ).loc r) :=
  (k46 m ρ c r h4 h5).trans (arg_4 m ρ c r h0 h1 h2 h3)
theorem arg_9 (r : Ref sig .tc) (h0 : r ∉ w0) (h1 : r ∉ w0_1) (h2 : r ∉ w0_2) (h3 : ∀ w, Pipeline.arrRef spec0 w ≠ r)
    (h4 : r ∉ w1) (h5 : r ∉ w1_1) (h6 : r ∉ w1_2) (h7 : ∀ w, Pipeline.arrRef spec1 w ≠ r)
    (h8 : ∀ w, Pipeline.arrRef spec2 w ≠ r) : W9 m ρ c (Proc.devRef .tc r) = m ((c : Thread nD τ).loc r) :=
  (k4_9 m ρ c r h4 h5 h6 h7 h8).trans (arg_4 m ρ c r h0 h1 h2 h3)
theorem arg_8 (r : Ref sig .tc) (h0 : r ∉ w0) (h1 : r ∉ w0_1) (h2 : r ∉ w0_2) (h3 : ∀ w, Pipeline.arrRef spec0 w ≠ r)
    (h4 : r ∉ w1) (h5 : r ∉ w1_1) (h6 : r ∉ w1_2) (h7 : ∀ w, Pipeline.arrRef spec1 w ≠ r) :
    W8 m ρ c (Proc.devRef .tc r) = m ((c : Thread nD τ).loc r) :=
  (k78 m ρ c r h7).trans ((k67 m ρ c r h6).trans (arg_6 m ρ c r h0 h1 h2 h3 h4 h5))
theorem arg_11 (r : Ref sig .tc) (h0 : r ∉ w0) (h1 : r ∉ w0_1) (h2 : r ∉ w0_2) (h3 : ∀ w, Pipeline.arrRef spec0 w ≠ r)
    (h4 : r ∉ w1) (h5 : r ∉ w1_1) (h6 : r ∉ w1_2) (h7 : ∀ w, Pipeline.arrRef spec1 w ≠ r)
    (h8 : ∀ w, Pipeline.arrRef spec2 w ≠ r) (h9 : r ∉ w3) (h10 : r ∉ w3_1) :
    W11 m ρ c (Proc.devRef .tc r) = m ((c : Thread nD τ).loc r) :=
  (k9_11 m ρ c r h9 h10).trans (arg_9 m ρ c r h0 h1 h2 h3 h4 h5 h6 h7 h8)
theorem arg_13 (r : Ref sig .tc) (h0 : r ∉ w0) (h1 : r ∉ w0_1) (h2 : r ∉ w0_2) (h3 : ∀ w, Pipeline.arrRef spec0 w ≠ r)
    (h4 : r ∉ w1) (h5 : r ∉ w1_1) (h6 : r ∉ w1_2) (h7 : ∀ w, Pipeline.arrRef spec1 w ≠ r)
    (h8 : ∀ w, Pipeline.arrRef spec2 w ≠ r) (h9 : r ∉ w3) (h10 : r ∉ w3_1) (h11 : r ∉ w3_2)
    (h12 : ∀ w, Pipeline.arrRef spec3 w ≠ r) : W13 m ρ c (Proc.devRef .tc r) = m ((c : Thread nD τ).loc r) :=
  (k9_13 m ρ c r h9 h10 h11 h12).trans (arg_9 m ρ c r h0 h1 h2 h3 h4 h5 h6 h7 h8)

/-! ## After each tiled region -/

/-- After the first product region: the projection of the features entering it. -/
theorem reg0 : W4 m ρ c (Proc.devRef .tc main_v33)
    = Cert.Stage.project (W3 m ρ c (Proc.devRef .tc main_arg0)) (W3 m ρ c (Proc.devRef .tc main_arg2)) :=
  (W4_arr m ρ c 2).trans (final0 (V3 m ρ) c)

/-- After the first normalisation region. -/
theorem reg1 : W8 m ρ c (Proc.devRef .tc main_v57)
    = Cert.Stage.normRelu (W7 m ρ c (Proc.devRef .tc main_v48)) (W7 m ρ c (Proc.devRef .tc main_v53)) (W7 m ρ c (Proc.devRef .tc main_v54))
        (W7 m ρ c (Proc.devRef .tc main_v55)) (W7 m ρ c (Proc.devRef .tc main_v56)) :=
  (W8_arr m ρ c 5).trans (final1 (V7 m ρ) c)

/-- After the second product region. -/
theorem reg2 : W9 m ρ c (Proc.devRef .tc main_v58)
    = Cert.Stage.project (W8 m ρ c (Proc.devRef .tc main_v57)) (W8 m ρ c (Proc.devRef .tc main_arg6)) :=
  (W9_arr m ρ c 2).trans (final2 (V8 m ρ) c)

/-- After the second normalisation region. -/
theorem reg3 : W13 m ρ c (Proc.devRef .tc main_v82)
    = Cert.Stage.normRelu (W12 m ρ c (Proc.devRef .tc main_v73)) (W12 m ρ c (Proc.devRef .tc main_v78)) (W12 m ρ c (Proc.devRef .tc main_v79))
        (W12 m ρ c (Proc.devRef .tc main_v80)) (W12 m ρ c (Proc.devRef .tc main_v81)) :=
  (W13_arr m ρ c 5).trans (final3 (V12 m ρ) c)

/-- After the head region. -/
theorem reg4 : W15 m ρ c (Proc.devRef .tc main_v86)
    = Cert.Stage.affine (W14 m ρ c (Proc.devRef .tc main_v82)) (W14 m ρ c (Proc.devRef .tc main_v83)) (W14 m ρ c (Proc.devRef .tc main_v85)) :=
  (W15_arr m ρ c 3).trans (final4 (V14 m ρ) c)

end Cert.KernelIdeal.Side

end
-- ==== Proof.KernelReads.lean ====
/-
  The short stretches of host operations between the tiled regions, each read as explicit terms.

  Over an arbitrary valuation of the buffers, what such a stretch leaves in each buffer it writes is the operation's
  function of the contents of the buffers it reads: a vector of 256 entries reshaped to one row of 256; two 256×128
  matrices joined along the columns into one 256×256 matrix; two vectors of 128 entries joined into one of 256 and
  reshaped to one row; and the two halves, columns 0 … 127 and 128 … 255, of a 50000×256 array.
-/
import proofs.«135953_j54030688584374_1_alg».proof.Proof.Gen.KernelIdeal.Launch
import Idealize.ShloMosaic.Lib.StableHlo.Run
import Idealize.ShloMosaic.PureOps.Ideal

set_option maxRecDepth 16384

noncomputable section

namespace Cert.KernelIdeal.Reads

open Idealize.ShloMosaic Idealize.ShloMosaic.TcCoe Idealize.SL.Sem Idealize.ShloMosaic.StableHlo
open Cert.KernelIdeal Cert.KernelIdeal.Gen

variable (V : Valuation τ sig (Elt Ideal))

/-- After the first stretch of four reshapes, each one-row buffer holds its 256-entry source reshaped to one row. -/
theorem reshape0 :
    after (hostOps1_2 (F := Ideal)) V (Proc.devRef .tc main_v53)
        = shapeCast S1x256 (V (Proc.devRef .tc main_v51)) shapeCasts_S256_S1x256
      ∧ after (hostOps1_2 (F := Ideal)) V (Proc.devRef .tc main_v54)
        = shapeCast S1x256 (V (Proc.devRef .tc main_v52)) shapeCasts_S256_S1x256
      ∧ after (hostOps1_2 (F := Ideal)) V (Proc.devRef .tc main_v55)
        = shapeCast S1x256 (V (Proc.devRef .tc main_arg4)) shapeCasts_S256_S1x256
      ∧ after (hostOps1_2 (F := Ideal)) V (Proc.devRef .tc main_v56)
        = shapeCast S1x256 (V (Proc.devRef .tc main_arg5)) shapeCasts_S256_S1x256 := by
  refine ⟨?_, ?_, ?_, ?_⟩ <;> ((dsimp only [hostOps1_2]; after_results_simp) <;> rfl)

/-- After the second stretch of four reshapes, likewise. -/
theorem reshape1 :
    after (hostOps3_2 (F := Ideal)) V (Proc.devRef .tc main_v78)
        = shapeCast S1x256 (V (Proc.devRef .tc main_v76)) shapeCasts_S256_S1x256
      ∧ after (hostOps3_2 (F := Ideal)) V (Proc.devRef .tc main_v79)
        = shapeCast S1x256 (V (Proc.devRef .tc main_v77)) shapeCasts_S256_S1x256
      ∧ after (hostOps3_2 (F := Ideal)) V (Proc.devRef .tc main_v80)
        = shapeCast S1x256 (V (Proc.devRef .tc main_arg8)) shapeCasts_S256_S1x256
      ∧ after (hostOps3_2 (F := Ideal)) V (Proc.devRef .tc main_v81)
        = shapeCast S1x256 (V (Proc.devRef .tc main_arg9)) shapeCasts_S256_S1x256 := by
  refine ⟨?_, ?_, ?_, ?_⟩ <;> ((dsimp only [hostOps3_2]; after_results_simp) <;> rfl)

/-- After the stretch that joins the two halves of the weights: the 256×256 matrix is the two 256×128 matrices joined
    along the columns, and the one-row bias is the two 128-entry vectors joined and reshaped to one row. -/
theorem joined :
    after (hostOps4 (F := Ideal)) V (Proc.devRef .tc main_v83)
        = concatenate S256x256 1 [⟨S256x128, V (Proc.devRef .tc main_arg10)⟩, ⟨S256x128, V (Proc.devRef .tc main_arg12)⟩]
            concatenates_S256x128_S256x128_S256x256_d1
      ∧ after (hostOps4 (F := Ideal)) V (Proc.devRef .tc main_v85)
        = shapeCast S1x256 (concatenate S256 0 [⟨S128, V (Proc.devRef .tc main_arg11)⟩, ⟨S128, V (Proc.devRef .tc main_arg13)⟩]
            concatenates_S128_S128_S256_d0) shapeCasts_S256_S1x256 := by
  refine ⟨?_, ?_⟩
  · (dsimp only [hostOps4]; after_results) <;> rfl
  · (dsimp only [hostOps4]; after_results) <;> rfl

/-- After the last stretch: the two results are the left and right halves, by columns, of the 50000×256 array. -/
theorem halves :
    after (hostOps5 (F := Ideal)) V (Proc.devRef .tc main_v87)
        = extractStridedSlice S50000x128 ![0, 0] (V (Proc.devRef .tc main_v86)) slices_S50000x256_S50000x128_0_0
      ∧ after (hostOps5 (F := Ideal)) V (Proc.devRef .tc main_v88)
        = extractStridedSlice S50000x128 ![0, 128] (V (Proc.devRef .tc main_v86)) slices_S50000x256_S50000x128_0_128 := by
  refine ⟨?_, ?_⟩ <;> ((dsimp only [hostOps5]; after_results_simp) <;> rfl)

end Cert.KernelIdeal.Reads

end
-- ==== Proof.SimPrep.lean ====
/-
  The preparation stretch of host operations, stepped on both programs at once.

  Before the first feature projection both programs run the same operations on the edge index array. The edge list is
  extended by one self-loop per node: each row of the edge index array, the sources and the targets, is concatenated
  with the list of node numbers. The node degrees are a scatter-add of ones at the targets; from them come the mask
  "degree positive" and the inverse square root of the larger of the degree and one. Then that vector is kept where
  the mask holds and set to zero elsewhere, gathered at the sources and at the targets of every edge (each index first
  wrapped: a negative index has the node count added), the two gathered vectors are multiplied, and the product is
  broadcast to a column: the edge coefficients. The idealized kernel program and the reference do this on buffers of
  their own, so the step is stated relationally: from buffer contents that agree on the edge index array the two
  programs' extended sources, extended targets, mask, inverse square root and zero constant agree, and from contents
  that agree on those five the edge coefficients agree. Each side is read as one term of the operations over its
  inputs; with the inputs identified the two terms are the same operations with the same dimension numbers, so the
  equation is closed by unfolding names.
-/
import proofs.«135953_j54030688584374_1_alg».proof.Proof.Gen.KernelIdeal.Launch
import proofs.«135953_j54030688584374_1_alg».proof.Proof.RefRun
import Idealize.ShloMosaic.PureOps.Ideal
import Idealize.ShloMosaic.Lib.StableHlo.Run

set_option maxRecDepth 16384

noncomputable section

namespace Cert.Sim

open Idealize.ShloMosaic Idealize.ShloMosaic.TcCoe Idealize.SL.Sem Idealize.ShloMosaic.StableHlo

local notation "𝔨" b => (Proc.devRef Proc.tc b : DevRef Cert.KernelIdeal.τ Cert.KernelIdeal.sig)
local notation "𝔯" b => (Proc.devRef Proc.tc b : DevRef Cert.ReferenceIdeal.τ Cert.ReferenceIdeal.sig)

variable (VK : Valuation Cert.KernelIdeal.τ Cert.KernelIdeal.sig (Elt Ideal))
variable (VR : Valuation Cert.ReferenceIdeal.τ Cert.ReferenceIdeal.sig (Elt Ideal))

/-- The extended edge sources agree. -/
theorem prepA_src (h1 : VK (𝔨 Cert.KernelIdeal.main_arg1) = VR (𝔯 Cert.ReferenceIdeal.main_arg1)) :
    after (Cert.KernelIdeal.Gen.hostOps0 (F := Ideal)) VK (𝔨 Cert.KernelIdeal.main_v3)
      = after (Cert.ReferenceIdeal.Hand.opsPrepA (F := Ideal)) VR (𝔯 Cert.ReferenceIdeal.main_v3) := by
  dsimp only [Cert.KernelIdeal.Gen.hostOps0, Cert.ReferenceIdeal.Hand.opsPrepA]
  after_results_simp
  repeat (first
    | rw [nullary_result] | rw [unary_result] | rw [binary_result] | rw [reshape_result]
    | (rw [nullary_result_ne]; rotate_left; decide)
    | (rw [unary_result_ne]; rotate_left; decide)
    | (rw [binary_result_ne]; rotate_left; decide)
    | (rw [reshape_result_ne]; rotate_left; decide))
  rw [h1]
  rfl

/-- The extended edge targets agree. -/
theorem prepA_dst (h1 : VK (𝔨 Cert.KernelIdeal.main_arg1) = VR (𝔯 Cert.ReferenceIdeal.main_arg1)) :
    after (Cert.KernelIdeal.Gen.hostOps0 (F := Ideal)) VK (𝔨 Cert.KernelIdeal.main_v6)
      = after (Cert.ReferenceIdeal.Hand.opsPrepA (F := Ideal)) VR (𝔯 Cert.ReferenceIdeal.main_v6) := by
  dsimp only [Cert.KernelIdeal.Gen.hostOps0, Cert.ReferenceIdeal.Hand.opsPrepA]
  after_results_simp
  repeat (first
    | rw [nullary_result] | rw [unary_result] | rw [binary_result] | rw [reshape_result]
    | (rw [nullary_result_ne]; rotate_left; decide)
    | (rw [unary_result_ne]; rotate_left; decide)
    | (rw [binary_result_ne]; rotate_left; decide)
    | (rw [reshape_result_ne]; rotate_left; decide))
  rw [h1]
  rfl

/-- The masks of the nodes of positive degree agree. -/
theorem prepA_pos (h1 : VK (𝔨 Cert.KernelIdeal.main_arg1) = VR (𝔯 Cert.ReferenceIdeal.main_arg1)) :
    after (Cert.KernelIdeal.Gen.hostOps0 (F := Ideal)) VK (𝔨 Cert.KernelIdeal.main_v12)
      = after (Cert.ReferenceIdeal.Hand.opsPrepA (F := Ideal)) VR (𝔯 Cert.ReferenceIdeal.main_v12) := by
  dsimp only [Cert.KernelIdeal.Gen.hostOps0, Cert.ReferenceIdeal.Hand.opsPrepA]
  after_results_simp
  repeat (first
    | rw [nullary_result] | rw [unary_result] | rw [binary_result] | rw [reshape_result]
    | (rw [nullary_result_ne]; rotate_left; decide)
    | (rw [unary_result_ne]; rotate_left; decide)
    | (rw [binary_result_ne]; rotate_left; decide)
    | (rw [reshape_result_ne]; rotate_left; decide))
  rw [h1]
  rfl

/-- The inverse square roots of the larger of the degree and one agree. -/
theorem prepA_dinv (h1 : VK (𝔨 Cert.KernelIdeal.main_arg1) = VR (𝔯 Cert.ReferenceIdeal.main_arg1)) :
    after (Cert.KernelIdeal.Gen.hostOps0 (F := Ideal)) VK (𝔨 Cert.KernelIdeal.main_v15)
      = after (Cert.ReferenceIdeal.Hand.opsPrepA (F := Ideal)) VR (𝔯 Cert.ReferenceIdeal.main_v15) := by
  dsimp only [Cert.KernelIdeal.Gen.hostOps0, Cert.ReferenceIdeal.Hand.opsPrepA]
  after_results_simp
  repeat (first
    | rw [nullary_result] | rw [unary_result] | rw [binary_result] | rw [reshape_result]
    | (rw [nullary_result_ne]; rotate_left; decide)
    | (rw [unary_result_ne]; rotate_left; decide)
    | (rw [binary_result_ne]; rotate_left; decide)
    | (rw [reshape_result_ne]; rotate_left; decide))
  rw [h1]
  rfl

/-- The zero constants agree. -/
theorem prepA_zero :
    after (Cert.KernelIdeal.Gen.hostOps0 (F := Ideal)) VK (𝔨 Cert.KernelIdeal.main_cst_3)
      = after (Cert.ReferenceIdeal.Hand.opsPrepA (F := Ideal)) VR (𝔯 Cert.ReferenceIdeal.main_cst_3) := by
  dsimp only [Cert.KernelIdeal.Gen.hostOps0, Cert.ReferenceIdeal.Hand.opsPrepA]
  after_results_simp

/-- The edge coefficients agree. -/
theorem prepB_coef
    (hs : VK (𝔨 Cert.KernelIdeal.main_v3) = VR (𝔯 Cert.ReferenceIdeal.main_v3))
    (hd : VK (𝔨 Cert.KernelIdeal.main_v6) = VR (𝔯 Cert.ReferenceIdeal.main_v6))
    (hp : VK (𝔨 Cert.KernelIdeal.main_v12) = VR (𝔯 Cert.ReferenceIdeal.main_v12))
    (hi : VK (𝔨 Cert.KernelIdeal.main_v15) = VR (𝔯 Cert.ReferenceIdeal.main_v15))
    (hz : VK (𝔨 Cert.KernelIdeal.main_cst_3) = VR (𝔯 Cert.ReferenceIdeal.main_cst_3)) :
    after (Cert.KernelIdeal.Gen.hostOps0_2 (F := Ideal)) (after (Cert.KernelIdeal.Gen.hostOps0_1 (F := Ideal)) VK) (𝔨 Cert.KernelIdeal.main_v32)
      = after (Cert.ReferenceIdeal.Hand.opsPrepB (F := Ideal)) VR (𝔯 Cert.ReferenceIdeal.main_v32) := by
  dsimp only [Cert.KernelIdeal.Gen.hostOps0_1, Cert.KernelIdeal.Gen.hostOps0_2, Cert.ReferenceIdeal.Hand.opsPrepB]
  after_results_simp
  rw [hs, hd, hp, hi, hz]
  rfl

end Cert.Sim

end
-- ==== Proof.SimConv.lean ====
/-
  The graph-convolution stretch of host operations, stepped on both programs at once.

  After the feature projection both programs run the same operations: gather the projected rows at the edge sources,
  scale each by its edge coefficient, scatter-add at the edge targets, add the bias row; then the column means and the
  column variances of the result. The idealized kernel program and the reference do this on buffers of their own, so
  the step is stated relationally: from buffer contents that agree on the projected features, the two edge index
  arrays, the edge coefficients and the bias, the two programs' aggregated features, column means and column variances
  agree. Each side is read as one term of the operations over its inputs; with the inputs identified the two terms
  are the same operations with the same dimension numbers, so the equation is closed by unfolding names.
-/
import proofs.«135953_j54030688584374_1_alg».proof.Proof.Gen.KernelIdeal.Launch
import proofs.«135953_j54030688584374_1_alg».proof.Proof.RefRun
import Idealize.ShloMosaic.PureOps.Ideal
import Idealize.ShloMosaic.Lib.StableHlo.Run

set_option maxRecDepth 16384

noncomputable section

namespace Cert.Sim

open Idealize.ShloMosaic Idealize.ShloMosaic.TcCoe Idealize.SL.Sem Idealize.ShloMosaic.StableHlo

local notation "𝔨" b => (Proc.devRef Proc.tc b : DevRef Cert.KernelIdeal.τ Cert.KernelIdeal.sig)
local notation "𝔯" b => (Proc.devRef Proc.tc b : DevRef Cert.ReferenceIdeal.τ Cert.ReferenceIdeal.sig)

variable (VK : Valuation Cert.KernelIdeal.τ Cert.KernelIdeal.sig (Elt Ideal))
variable (VR : Valuation Cert.ReferenceIdeal.τ Cert.ReferenceIdeal.sig (Elt Ideal))

/-- Layer 0: the aggregated features plus bias agree. -/
theorem conv0_agg
    (hh : VK (𝔨 Cert.KernelIdeal.main_v33) = VR (𝔯 Cert.ReferenceIdeal.main_v33))
    (hs : VK (𝔨 Cert.KernelIdeal.main_v3) = VR (𝔯 Cert.ReferenceIdeal.main_v3))
    (hd : VK (𝔨 Cert.KernelIdeal.main_v6) = VR (𝔯 Cert.ReferenceIdeal.main_v6))
    (hc : VK (𝔨 Cert.KernelIdeal.main_v32) = VR (𝔯 Cert.ReferenceIdeal.main_v32))
    (hb : VK (𝔨 Cert.KernelIdeal.main_arg3) = VR (𝔯 Cert.ReferenceIdeal.main_arg3)) :
    after (Cert.KernelIdeal.Gen.hostOps1_1 (F := Ideal)) (after (Cert.KernelIdeal.Gen.hostOps1 (F := Ideal)) VK) (𝔨 Cert.KernelIdeal.main_v48)
      = after (Cert.ReferenceIdeal.Hand.opsConv0 (F := Ideal)) VR (𝔯 Cert.ReferenceIdeal.main_v48) := by
  dsimp only [Cert.KernelIdeal.Gen.hostOps1, Cert.KernelIdeal.Gen.hostOps1_1, Cert.ReferenceIdeal.Hand.opsConv0]
  after_results_simp
  rw [hh, hs, hd, hc, hb]
  rfl

/-- Layer 0: the column means agree. -/
theorem conv0_mean
    (hh : VK (𝔨 Cert.KernelIdeal.main_v33) = VR (𝔯 Cert.ReferenceIdeal.main_v33))
    (hs : VK (𝔨 Cert.KernelIdeal.main_v3) = VR (𝔯 Cert.ReferenceIdeal.main_v3))
    (hd : VK (𝔨 Cert.KernelIdeal.main_v6) = VR (𝔯 Cert.ReferenceIdeal.main_v6))
    (hc : VK (𝔨 Cert.KernelIdeal.main_v32) = VR (𝔯 Cert.ReferenceIdeal.main_v32))
    (hb : VK (𝔨 Cert.KernelIdeal.main_arg3) = VR (𝔯 Cert.ReferenceIdeal.main_arg3)) :
    after (Cert.KernelIdeal.Gen.hostOps1_1 (F := Ideal)) (after (Cert.KernelIdeal.Gen.hostOps1 (F := Ideal)) VK) (𝔨 Cert.KernelIdeal.main_v51)
      = after (Cert.ReferenceIdeal.Hand.opsConv0 (F := Ideal)) VR (𝔯 Cert.ReferenceIdeal.main_v51) := by
  dsimp only [Cert.KernelIdeal.Gen.hostOps1, Cert.KernelIdeal.Gen.hostOps1_1, Cert.ReferenceIdeal.Hand.opsConv0]
  after_results_simp
  rw [hh, hs, hd, hc, hb]
  rfl

/-- Layer 0: the column variances agree. -/
theorem conv0_var
    (hh : VK (𝔨 Cert.KernelIdeal.main_v33) = VR (𝔯 Cert.ReferenceIdeal.main_v33))
    (hs : VK (𝔨 Cert.KernelIdeal.main_v3) = VR (𝔯 Cert.ReferenceIdeal.main_v3))
    (hd : VK (𝔨 Cert.KernelIdeal.main_v6) = VR (𝔯 Cert.ReferenceIdeal.main_v6))
    (hc : VK (𝔨 Cert.KernelIdeal.main_v32) = VR (𝔯 Cert.ReferenceIdeal.main_v32))
    (hb : VK (𝔨 Cert.KernelIdeal.main_arg3) = VR (𝔯 Cert.ReferenceIdeal.main_arg3)) :
    after (Cert.KernelIdeal.Gen.hostOps1_1 (F := Ideal)) (after (Cert.KernelIdeal.Gen.hostOps1 (F := Ideal)) VK) (𝔨 Cert.KernelIdeal.main_v52)
      = after (Cert.ReferenceIdeal.Hand.opsConv0 (F := Ideal)) VR (𝔯 Cert.ReferenceIdeal.main_v52) := by
  dsimp only [Cert.KernelIdeal.Gen.hostOps1, Cert.KernelIdeal.Gen.hostOps1_1, Cert.ReferenceIdeal.Hand.opsConv0]
  after_results_simp
  rw [hh, hs, hd, hc, hb]
  rfl

/-- Layer 1: the aggregated features plus bias agree. -/
theorem conv1_agg
    (hh : VK (𝔨 Cert.KernelIdeal.main_v58) = VR (𝔯 Cert.ReferenceIdeal.main_v69))
    (hs : VK (𝔨 Cert.KernelIdeal.main_v3) = VR (𝔯 Cert.ReferenceIdeal.main_v3))
    (hd : VK (𝔨 Cert.KernelIdeal.main_v6) = VR (𝔯 Cert.ReferenceIdeal.main_v6))
    (hc : VK (𝔨 Cert.KernelIdeal.main_v32) = VR (𝔯 Cert.ReferenceIdeal.main_v32))
    (hb : VK (𝔨 Cert.KernelIdeal.main_arg7) = VR (𝔯 Cert.ReferenceIdeal.main_arg7)) :
    after (Cert.KernelIdeal.Gen.hostOps3_1 (F := Ideal)) (after (Cert.KernelIdeal.Gen.hostOps3 (F := Ideal)) VK) (𝔨 Cert.KernelIdeal.main_v73)
      = after (Cert.ReferenceIdeal.Hand.opsConv1 (F := Ideal)) VR (𝔯 Cert.ReferenceIdeal.main_v84) := by
  dsimp only [Cert.KernelIdeal.Gen.hostOps3, Cert.KernelIdeal.Gen.hostOps3_1, Cert.ReferenceIdeal.Hand.opsConv1]
  after_results_simp
  rw [hh, hs, hd, hc, hb]
  rfl

/-- Layer 1: the column means agree. -/
theorem conv1_mean
    (hh : VK (𝔨 Cert.KernelIdeal.main_v58) = VR (𝔯 Cert.ReferenceIdeal.main_v69))
    (hs : VK (𝔨 Cert.KernelIdeal.main_v3) = VR (𝔯 Cert.ReferenceIdeal.main_v3))
    (hd : VK (𝔨 Cert.KernelIdeal.main_v6) = VR (𝔯 Cert.ReferenceIdeal.main_v6))
    (hc : VK (𝔨 Cert.KernelIdeal.main_v32) = VR (𝔯 Cert.ReferenceIdeal.main_v32))
    (hb : VK (𝔨 Cert.KernelIdeal.main_arg7) = VR (𝔯 Cert.ReferenceIdeal.main_arg7)) :
    after (Cert.KernelIdeal.Gen.hostOps3_1 (F := Ideal)) (after (Cert.KernelIdeal.Gen.hostOps3 (F := Ideal)) VK) (𝔨 Cert.KernelIdeal.main_v76)
      = after (Cert.ReferenceIdeal.Hand.opsConv1 (F := Ideal)) VR (𝔯 Cert.ReferenceIdeal.main_v87) := by
  dsimp only [Cert.KernelIdeal.Gen.hostOps3, Cert.KernelIdeal.Gen.hostOps3_1, Cert.ReferenceIdeal.Hand.opsConv1]
  after_results_simp
  rw [hh, hs, hd, hc, hb]
  rfl

/-- Layer 1: the column variances agree. -/
theorem conv1_var
    (hh : VK (𝔨 Cert.KernelIdeal.main_v58) = VR (𝔯 Cert.ReferenceIdeal.main_v69))
    (hs : VK (𝔨 Cert.KernelIdeal.main_v3) = VR (𝔯 Cert.ReferenceIdeal.main_v3))
    (hd : VK (𝔨 Cert.KernelIdeal.main_v6) = VR (𝔯 Cert.ReferenceIdeal.main_v6))
    (hc : VK (𝔨 Cert.KernelIdeal.main_v32) = VR (𝔯 Cert.ReferenceIdeal.main_v32))
    (hb : VK (𝔨 Cert.KernelIdeal.main_arg7) = VR (𝔯 Cert.ReferenceIdeal.main_arg7)) :
    after (Cert.KernelIdeal.Gen.hostOps3_1 (F := Ideal)) (after (Cert.KernelIdeal.Gen.hostOps3 (F := Ideal)) VK) (𝔨 Cert.KernelIdeal.main_v77)
      = after (Cert.ReferenceIdeal.Hand.opsConv1 (F := Ideal)) VR (𝔯 Cert.ReferenceIdeal.main_v88) := by
  dsimp only [Cert.KernelIdeal.Gen.hostOps3, Cert.KernelIdeal.Gen.hostOps3_1, Cert.ReferenceIdeal.Hand.opsConv1]
  after_results_simp
  rw [hh, hs, hd, hc, hb]
  rfl

end Cert.Sim

end
-- ==== Proof.Equal.lean ====
/-
  The two programs compute the same arrays: the simulation, step by step.

  Run from launch memories that agree on the fourteen arguments, the idealized kernel program and the idealized
  reference pass through nine matching points. At each point the buffers still to be read hold the same arrays in both
  programs: the extended edge lists and the edge coefficients; then the projected features; the aggregated features with
  their column means and variances; the normalised features; and so on through the second layer to the two heads.
  Between two points either both programs run the same host operations (the relational steps of SimPrep and SimConv),
  or the kernel program runs a tiled region where the reference runs host operations — then the region's output is the
  stage's whole-array function (KernelSide) and that function is the reference's operations (Bridges). Buffers a step
  does not write are carried along unchanged on both sides.
-/
import proofs.«135953_j54030688584374_1_alg».proof.Proof.KernelSide
import proofs.«135953_j54030688584374_1_alg».proof.Proof.KernelReads
import proofs.«135953_j54030688584374_1_alg».proof.Proof.RefSide
import proofs.«135953_j54030688584374_1_alg».proof.Proof.SimPrep
import proofs.«135953_j54030688584374_1_alg».proof.Proof.SimConv
import proofs.«135953_j54030688584374_1_alg».proof.Proof.Bridges

set_option maxRecDepth 16384

noncomputable section

namespace Cert.Equal

open Idealize.ShloMosaic Idealize.ShloMosaic.TcCoe Idealize.SL.Sem Idealize.ShloMosaic.StableHlo

local notation "𝔨" b => (Proc.devRef Proc.tc b : DevRef Cert.KernelIdeal.τ Cert.KernelIdeal.sig)
local notation "𝔯" b => (Proc.devRef Proc.tc b : DevRef Cert.ReferenceIdeal.τ Cert.ReferenceIdeal.sig)

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

/-- The two launch memories agree on the fourteen argument arrays (on device `c`). -/
structure Agree : Prop where
  a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  a9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  a10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
  a11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
  a12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
  a13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)

variable {m m' c} (h : Agree m m' c)
include h

/-! ## The graph preparation -/

theorem edges0 : Cert.KernelIdeal.Gen.W0 m ρ c (𝔨 Cert.KernelIdeal.main_arg1) = (launchContents m' c) (𝔯 Cert.ReferenceIdeal.main_arg1) := h.a1.symm

theorem src1 : Cert.KernelIdeal.Gen.W1 m ρ c (𝔨 Cert.KernelIdeal.main_v3) = Cert.ReferenceIdeal.Side.R1 (launchContents m' c) (𝔯 Cert.ReferenceIdeal.main_v3) := Cert.Sim.prepA_src _ _ (edges0 ρ h)
theorem dst1 : Cert.KernelIdeal.Gen.W1 m ρ c (𝔨 Cert.KernelIdeal.main_v6) = Cert.ReferenceIdeal.Side.R1 (launchContents m' c) (𝔯 Cert.ReferenceIdeal.main_v6) := Cert.Sim.prepA_dst _ _ (edges0 ρ h)
theorem pos1 : Cert.KernelIdeal.Gen.W1 m ρ c (𝔨 Cert.KernelIdeal.main_v12) = Cert.ReferenceIdeal.Side.R1 (launchContents m' c) (𝔯 Cert.ReferenceIdeal.main_v12) := Cert.Sim.prepA_pos _ _ (edges0 ρ h)
theorem dinv1 : Cert.KernelIdeal.Gen.W1 m ρ c (𝔨 Cert.KernelIdeal.main_v15) = Cert.ReferenceIdeal.Side.R1 (launchContents m' c) (𝔯 Cert.ReferenceIdeal.main_v15) := Cert.Sim.prepA_dinv _ _ (edges0 ρ h)
omit h in
theorem zero1 : Cert.KernelIdeal.Gen.W1 m ρ c (𝔨 Cert.KernelIdeal.main_cst_3) = Cert.ReferenceIdeal.Side.R1 (launchContents m' c) (𝔯 Cert.ReferenceIdeal.main_cst_3) := Cert.Sim.prepA_zero _ _

theorem coef3 : Cert.KernelIdeal.Gen.W3 m ρ c (𝔨 Cert.KernelIdeal.main_v32) = Cert.ReferenceIdeal.Side.R2 (launchContents m' c) (𝔯 Cert.ReferenceIdeal.main_v32) :=
  Cert.Sim.prepB_coef _ _ (src1 ρ h) (dst1 ρ h) (pos1 ρ h) (dinv1 ρ h) (zero1 (m := m) (m' := m') (c := c) ρ)
theorem src3 : Cert.KernelIdeal.Gen.W3 m ρ c (𝔨 Cert.KernelIdeal.main_v3) = Cert.ReferenceIdeal.Side.R2 (launchContents m' c) (𝔯 Cert.ReferenceIdeal.main_v3) :=
  (Cert.KernelIdeal.Side.k13 m ρ c Cert.KernelIdeal.main_v3 (by decide) (by decide)).trans
    ((src1 ρ h).trans (Cert.ReferenceIdeal.Keep.keepPrepB (Cert.ReferenceIdeal.Side.R1 (launchContents m' c)) Cert.ReferenceIdeal.main_v3 (by decide)).symm)
theorem dst3 : Cert.KernelIdeal.Gen.W3 m ρ c (𝔨 Cert.KernelIdeal.main_v6) = Cert.ReferenceIdeal.Side.R2 (launchContents m' c) (𝔯 Cert.ReferenceIdeal.main_v6) :=
  (Cert.KernelIdeal.Side.k13 m ρ c Cert.KernelIdeal.main_v6 (by decide) (by decide)).trans
    ((dst1 ρ h).trans (Cert.ReferenceIdeal.Keep.keepPrepB (Cert.ReferenceIdeal.Side.R1 (launchContents m' c)) Cert.ReferenceIdeal.main_v6 (by decide)).symm)

/-! ## Layer 0 -/

/-- The projected features: the first tiled region against the reference's first product. -/
theorem proj0 : Cert.KernelIdeal.Gen.W4 m ρ c (𝔨 Cert.KernelIdeal.main_v33) = Cert.ReferenceIdeal.Side.R3 (launchContents m' c) (𝔯 Cert.ReferenceIdeal.main_v33) := by
  rw [Cert.KernelIdeal.Side.reg0, (Cert.KernelIdeal.Side.arg_3 m ρ c Cert.KernelIdeal.main_arg0 (by decide) (by decide) (by decide)), (Cert.KernelIdeal.Side.arg_3 m ρ c Cert.KernelIdeal.main_arg2 (by decide) (by decide) (by decide)), ← h.a0, ← h.a2,
    Cert.Bridge.project_eq_dot Cert.ReferenceIdeal.dot_S50000x256_S256x256_S50000x256_1_0_0_1_n_n rfl rfl rfl rfl rfl rfl]
  show _ = after (Cert.ReferenceIdeal.Hand.opsDot0 (F := Ideal)) (Cert.ReferenceIdeal.Side.R2 (launchContents m' c)) (𝔯 Cert.ReferenceIdeal.main_v33)
  rw [Cert.ReferenceIdeal.Side.dot0_read, (Cert.ReferenceIdeal.Side.arg_keep (launchContents m' c) Cert.ReferenceIdeal.main_arg0 (by decide)).2.1, (Cert.ReferenceIdeal.Side.arg_keep (launchContents m' c) Cert.ReferenceIdeal.main_arg2 (by decide)).2.1]

theorem src4 : Cert.KernelIdeal.Gen.W4 m ρ c (𝔨 Cert.KernelIdeal.main_v3) = Cert.ReferenceIdeal.Side.R3 (launchContents m' c) (𝔯 Cert.ReferenceIdeal.main_v3) :=
  (Cert.KernelIdeal.Side.k34 m ρ c Cert.KernelIdeal.main_v3 (by decide)).trans
    ((src3 ρ h).trans (Cert.ReferenceIdeal.Keep.keepDot0 (Cert.ReferenceIdeal.Side.R2 (launchContents m' c)) Cert.ReferenceIdeal.main_v3 (by decide)).symm)
theorem dst4 : Cert.KernelIdeal.Gen.W4 m ρ c (𝔨 Cert.KernelIdeal.main_v6) = Cert.ReferenceIdeal.Side.R3 (launchContents m' c) (𝔯 Cert.ReferenceIdeal.main_v6) :=
  (Cert.KernelIdeal.Side.k34 m ρ c Cert.KernelIdeal.main_v6 (by decide)).trans
    ((dst3 ρ h).trans (Cert.ReferenceIdeal.Keep.keepDot0 (Cert.ReferenceIdeal.Side.R2 (launchContents m' c)) Cert.ReferenceIdeal.main_v6 (by decide)).symm)
theorem coef4 : Cert.KernelIdeal.Gen.W4 m ρ c (𝔨 Cert.KernelIdeal.main_v32) = Cert.ReferenceIdeal.Side.R3 (launchContents m' c) (𝔯 Cert.ReferenceIdeal.main_v32) :=
  (Cert.KernelIdeal.Side.k34 m ρ c Cert.KernelIdeal.main_v32 (by decide)).trans
    ((coef3 ρ h).trans (Cert.ReferenceIdeal.Keep.keepDot0 (Cert.ReferenceIdeal.Side.R2 (launchContents m' c)) Cert.ReferenceIdeal.main_v32 (by decide)).symm)
theorem bias4 : Cert.KernelIdeal.Gen.W4 m ρ c (𝔨 Cert.KernelIdeal.main_arg3) = Cert.ReferenceIdeal.Side.R3 (launchContents m' c) (𝔯 Cert.ReferenceIdeal.main_arg3) := (((Cert.KernelIdeal.Side.arg_4 m ρ c Cert.KernelIdeal.main_arg3 (by decide) (by decide) (by decide) (by decide))).trans ((h.a3).symm.trans ((Cert.ReferenceIdeal.Side.arg_keep (launchContents m' c) Cert.ReferenceIdeal.main_arg3 (by decide)).2.2.1).symm))

theorem agg0 : Cert.KernelIdeal.Gen.W6 m ρ c (𝔨 Cert.KernelIdeal.main_v48) = Cert.ReferenceIdeal.Side.R4 (launchContents m' c) (𝔯 Cert.ReferenceIdeal.main_v48) :=
  Cert.Sim.conv0_agg _ _ (proj0 ρ h) (src4 ρ h) (dst4 ρ h) (coef4 ρ h) (bias4 ρ h)
theorem mean0 : Cert.KernelIdeal.Gen.W6 m ρ c (𝔨 Cert.KernelIdeal.main_v51) = Cert.ReferenceIdeal.Side.R4 (launchContents m' c) (𝔯 Cert.ReferenceIdeal.main_v51) :=
  Cert.Sim.conv0_mean _ _ (proj0 ρ h) (src4 ρ h) (dst4 ρ h) (coef4 ρ h) (bias4 ρ h)
theorem var0 : Cert.KernelIdeal.Gen.W6 m ρ c (𝔨 Cert.KernelIdeal.main_v52) = Cert.ReferenceIdeal.Side.R4 (launchContents m' c) (𝔯 Cert.ReferenceIdeal.main_v52) :=
  Cert.Sim.conv0_var _ _ (proj0 ρ h) (src4 ρ h) (dst4 ρ h) (coef4 ρ h) (bias4 ρ h)
theorem gamma6 : Cert.KernelIdeal.Gen.W6 m ρ c (𝔨 Cert.KernelIdeal.main_arg4) = Cert.ReferenceIdeal.Side.R4 (launchContents m' c) (𝔯 Cert.ReferenceIdeal.main_arg4) := (((Cert.KernelIdeal.Side.arg_6 m ρ c Cert.KernelIdeal.main_arg4 (by decide) (by decide) (by decide) (by decide) (by decide) (by decide))).trans ((h.a4).symm.trans ((Cert.ReferenceIdeal.Side.arg_keep (launchContents m' c) Cert.ReferenceIdeal.main_arg4 (by decide)).2.2.2.1).symm))
theorem beta6 : Cert.KernelIdeal.Gen.W6 m ρ c (𝔨 Cert.KernelIdeal.main_arg5) = Cert.ReferenceIdeal.Side.R4 (launchContents m' c) (𝔯 Cert.ReferenceIdeal.main_arg5) := (((Cert.KernelIdeal.Side.arg_6 m ρ c Cert.KernelIdeal.main_arg5 (by decide) (by decide) (by decide) (by decide) (by decide) (by decide))).trans ((h.a5).symm.trans ((Cert.ReferenceIdeal.Side.arg_keep (launchContents m' c) Cert.ReferenceIdeal.main_arg5 (by decide)).2.2.2.1).symm))

/-- The normalised features of layer 0: the second tiled region against the reference's chain. -/
theorem act0 : Cert.KernelIdeal.Gen.W8 m ρ c (𝔨 Cert.KernelIdeal.main_v57) = Cert.ReferenceIdeal.Side.R5 (launchContents m' c) (𝔯 Cert.ReferenceIdeal.main_v68) := by
  rw [Cert.KernelIdeal.Side.reg1, Cert.KernelIdeal.Side.k67 m ρ c Cert.KernelIdeal.main_v48 (by decide),
    show Cert.KernelIdeal.Gen.W7 m ρ c (𝔨 Cert.KernelIdeal.main_v53) = _ from (Cert.KernelIdeal.Reads.reshape0 (Cert.KernelIdeal.Gen.W6 m ρ c)).1,
    show Cert.KernelIdeal.Gen.W7 m ρ c (𝔨 Cert.KernelIdeal.main_v54) = _ from (Cert.KernelIdeal.Reads.reshape0 (Cert.KernelIdeal.Gen.W6 m ρ c)).2.1,
    show Cert.KernelIdeal.Gen.W7 m ρ c (𝔨 Cert.KernelIdeal.main_v55) = _ from (Cert.KernelIdeal.Reads.reshape0 (Cert.KernelIdeal.Gen.W6 m ρ c)).2.2.1,
    show Cert.KernelIdeal.Gen.W7 m ρ c (𝔨 Cert.KernelIdeal.main_v56) = _ from (Cert.KernelIdeal.Reads.reshape0 (Cert.KernelIdeal.Gen.W6 m ρ c)).2.2.2,
    agg0 ρ h, mean0 ρ h, var0 ρ h, gamma6 ρ h, beta6 ρ h]
  show _ = after (Cert.ReferenceIdeal.Hand.opsNorm0 (F := Ideal)) (Cert.ReferenceIdeal.Side.R4 (launchContents m' c)) (𝔯 Cert.ReferenceIdeal.main_v68)
  rw [Cert.ReferenceIdeal.Side.norm0_read]
  exact Cert.Bridge.normRelu_eq_host _ _ _ _ _ _ _ _ _ _

/-! ## Layer 1 -/

theorem src9 : Cert.KernelIdeal.Gen.W9 m ρ c (𝔨 Cert.KernelIdeal.main_v3) = Cert.ReferenceIdeal.Side.R6 (launchContents m' c) (𝔯 Cert.ReferenceIdeal.main_v3) :=
  (Cert.KernelIdeal.Side.k4_9 m ρ c Cert.KernelIdeal.main_v3 (by decide) (by decide) (by decide) (by decide) (by decide)).trans
    ((src4 ρ h).trans ((Cert.ReferenceIdeal.Keep.keepDot1 (Cert.ReferenceIdeal.Side.R5 (launchContents m' c)) Cert.ReferenceIdeal.main_v3 (by decide)).trans
      ((Cert.ReferenceIdeal.Keep.keepNorm0 (Cert.ReferenceIdeal.Side.R4 (launchContents m' c)) Cert.ReferenceIdeal.main_v3 (by decide)).trans
        (Cert.ReferenceIdeal.Keep.keepConv0 (Cert.ReferenceIdeal.Side.R3 (launchContents m' c)) Cert.ReferenceIdeal.main_v3 (by decide)))).symm)
theorem dst9 : Cert.KernelIdeal.Gen.W9 m ρ c (𝔨 Cert.KernelIdeal.main_v6) = Cert.ReferenceIdeal.Side.R6 (launchContents m' c) (𝔯 Cert.ReferenceIdeal.main_v6) :=
  (Cert.KernelIdeal.Side.k4_9 m ρ c Cert.KernelIdeal.main_v6 (by decide) (by decide) (by decide) (by decide) (by decide)).trans
    ((dst4 ρ h).trans ((Cert.ReferenceIdeal.Keep.keepDot1 (Cert.ReferenceIdeal.Side.R5 (launchContents m' c)) Cert.ReferenceIdeal.main_v6 (by decide)).trans
      ((Cert.ReferenceIdeal.Keep.keepNorm0 (Cert.ReferenceIdeal.Side.R4 (launchContents m' c)) Cert.ReferenceIdeal.main_v6 (by decide)).trans
        (Cert.ReferenceIdeal.Keep.keepConv0 (Cert.ReferenceIdeal.Side.R3 (launchContents m' c)) Cert.ReferenceIdeal.main_v6 (by decide)))).symm)
theorem coef9 : Cert.KernelIdeal.Gen.W9 m ρ c (𝔨 Cert.KernelIdeal.main_v32) = Cert.ReferenceIdeal.Side.R6 (launchContents m' c) (𝔯 Cert.ReferenceIdeal.main_v32) :=
  (Cert.KernelIdeal.Side.k4_9 m ρ c Cert.KernelIdeal.main_v32 (by decide) (by decide) (by decide) (by decide) (by decide)).trans
    ((coef4 ρ h).trans ((Cert.ReferenceIdeal.Keep.keepDot1 (Cert.ReferenceIdeal.Side.R5 (launchContents m' c)) Cert.ReferenceIdeal.main_v32 (by decide)).trans
      ((Cert.ReferenceIdeal.Keep.keepNorm0 (Cert.ReferenceIdeal.Side.R4 (launchContents m' c)) Cert.ReferenceIdeal.main_v32 (by decide)).trans
        (Cert.ReferenceIdeal.Keep.keepConv0 (Cert.ReferenceIdeal.Side.R3 (launchContents m' c)) Cert.ReferenceIdeal.main_v32 (by decide)))).symm)
theorem bias9 : Cert.KernelIdeal.Gen.W9 m ρ c (𝔨 Cert.KernelIdeal.main_arg7) = Cert.ReferenceIdeal.Side.R6 (launchContents m' c) (𝔯 Cert.ReferenceIdeal.main_arg7) := (((Cert.KernelIdeal.Side.arg_9 m ρ c Cert.KernelIdeal.main_arg7 (by decide) (by decide) (by decide) (by decide) (by decide) (by decide) (by decide) (by decide) (by decide))).trans ((h.a7).symm.trans ((Cert.ReferenceIdeal.Side.arg_keep (launchContents m' c) Cert.ReferenceIdeal.main_arg7 (by decide)).2.2.2.2.2.1).symm))

/-- The projected features of layer 1. -/
theorem proj1 : Cert.KernelIdeal.Gen.W9 m ρ c (𝔨 Cert.KernelIdeal.main_v58) = Cert.ReferenceIdeal.Side.R6 (launchContents m' c) (𝔯 Cert.ReferenceIdeal.main_v69) := by
  rw [Cert.KernelIdeal.Side.reg2, act0 ρ h, (Cert.KernelIdeal.Side.arg_8 m ρ c Cert.KernelIdeal.main_arg6 (by decide) (by decide) (by decide) (by decide) (by decide) (by decide) (by decide) (by decide)), ← h.a6,
    Cert.Bridge.project_eq_dot Cert.ReferenceIdeal.dot_S50000x256_S256x256_S50000x256_1_0_0_1_n_n rfl rfl rfl rfl rfl rfl]
  show _ = after (Cert.ReferenceIdeal.Hand.opsDot1 (F := Ideal)) (Cert.ReferenceIdeal.Side.R5 (launchContents m' c)) (𝔯 Cert.ReferenceIdeal.main_v69)
  rw [Cert.ReferenceIdeal.Side.dot1_read, (Cert.ReferenceIdeal.Side.arg_keep (launchContents m' c) Cert.ReferenceIdeal.main_arg6 (by decide)).2.2.2.2.1]

theorem agg1 : Cert.KernelIdeal.Gen.W11 m ρ c (𝔨 Cert.KernelIdeal.main_v73) = Cert.ReferenceIdeal.Side.R7 (launchContents m' c) (𝔯 Cert.ReferenceIdeal.main_v84) :=
  Cert.Sim.conv1_agg _ _ (proj1 ρ h) (src9 ρ h) (dst9 ρ h) (coef9 ρ h) (bias9 ρ h)
theorem mean1 : Cert.KernelIdeal.Gen.W11 m ρ c (𝔨 Cert.KernelIdeal.main_v76) = Cert.ReferenceIdeal.Side.R7 (launchContents m' c) (𝔯 Cert.ReferenceIdeal.main_v87) :=
  Cert.Sim.conv1_mean _ _ (proj1 ρ h) (src9 ρ h) (dst9 ρ h) (coef9 ρ h) (bias9 ρ h)
theorem var1 : Cert.KernelIdeal.Gen.W11 m ρ c (𝔨 Cert.KernelIdeal.main_v77) = Cert.ReferenceIdeal.Side.R7 (launchContents m' c) (𝔯 Cert.ReferenceIdeal.main_v88) :=
  Cert.Sim.conv1_var _ _ (proj1 ρ h) (src9 ρ h) (dst9 ρ h) (coef9 ρ h) (bias9 ρ h)
theorem gamma11 : Cert.KernelIdeal.Gen.W11 m ρ c (𝔨 Cert.KernelIdeal.main_arg8) = Cert.ReferenceIdeal.Side.R7 (launchContents m' c) (𝔯 Cert.ReferenceIdeal.main_arg8) := (((Cert.KernelIdeal.Side.arg_11 m ρ c Cert.KernelIdeal.main_arg8 (by decide) (by decide) (by decide) (by decide) (by decide) (by decide) (by decide) (by decide) (by decide) (by decide) (by decide))).trans ((h.a8).symm.trans ((Cert.ReferenceIdeal.Side.arg_keep (launchContents m' c) Cert.ReferenceIdeal.main_arg8 (by decide)).2.2.2.2.2.2.1).symm))
theorem beta11 : Cert.KernelIdeal.Gen.W11 m ρ c (𝔨 Cert.KernelIdeal.main_arg9) = Cert.ReferenceIdeal.Side.R7 (launchContents m' c) (𝔯 Cert.ReferenceIdeal.main_arg9) := (((Cert.KernelIdeal.Side.arg_11 m ρ c Cert.KernelIdeal.main_arg9 (by decide) (by decide) (by decide) (by decide) (by decide) (by decide) (by decide) (by decide) (by decide) (by decide) (by decide))).trans ((h.a9).symm.trans ((Cert.ReferenceIdeal.Side.arg_keep (launchContents m' c) Cert.ReferenceIdeal.main_arg9 (by decide)).2.2.2.2.2.2.1).symm))

/-- The normalised features of layer 1. -/
theorem act1 : Cert.KernelIdeal.Gen.W13 m ρ c (𝔨 Cert.KernelIdeal.main_v82) = Cert.ReferenceIdeal.Side.R8 (launchContents m' c) (𝔯 Cert.ReferenceIdeal.main_v104) := by
  rw [Cert.KernelIdeal.Side.reg3, Cert.KernelIdeal.Side.k11_12 m ρ c Cert.KernelIdeal.main_v73 (by decide),
    show Cert.KernelIdeal.Gen.W12 m ρ c (𝔨 Cert.KernelIdeal.main_v78) = _ from (Cert.KernelIdeal.Reads.reshape1 (Cert.KernelIdeal.Gen.W11 m ρ c)).1,
    show Cert.KernelIdeal.Gen.W12 m ρ c (𝔨 Cert.KernelIdeal.main_v79) = _ from (Cert.KernelIdeal.Reads.reshape1 (Cert.KernelIdeal.Gen.W11 m ρ c)).2.1,
    show Cert.KernelIdeal.Gen.W12 m ρ c (𝔨 Cert.KernelIdeal.main_v80) = _ from (Cert.KernelIdeal.Reads.reshape1 (Cert.KernelIdeal.Gen.W11 m ρ c)).2.2.1,
    show Cert.KernelIdeal.Gen.W12 m ρ c (𝔨 Cert.KernelIdeal.main_v81) = _ from (Cert.KernelIdeal.Reads.reshape1 (Cert.KernelIdeal.Gen.W11 m ρ c)).2.2.2,
    agg1 ρ h, mean1 ρ h, var1 ρ h, gamma11 ρ h, beta11 ρ h]
  show _ = after (Cert.ReferenceIdeal.Hand.opsNorm1 (F := Ideal)) (Cert.ReferenceIdeal.Side.R7 (launchContents m' c)) (𝔯 Cert.ReferenceIdeal.main_v104)
  rw [Cert.ReferenceIdeal.Side.norm1_read]
  exact Cert.Bridge.normRelu_eq_host _ _ _ _ _ _ _ _ _ _

/-! ## The heads -/

/-- What the head region is entered with, and its output, in the reference's terms. -/
theorem joint : Cert.KernelIdeal.Gen.W15 m ρ c (𝔨 Cert.KernelIdeal.main_v86)
    = Cert.Stage.affine (Cert.ReferenceIdeal.Side.R8 (launchContents m' c) (𝔯 Cert.ReferenceIdeal.main_v104))
        (concatenate Cert.KernelIdeal.S256x256 1 [⟨Cert.KernelIdeal.S256x128, m' ((c.tc : Thread Cert.ReferenceIdeal.nD Cert.ReferenceIdeal.τ).loc Cert.ReferenceIdeal.main_arg10)⟩,
          ⟨Cert.KernelIdeal.S256x128, m' ((c.tc : Thread Cert.ReferenceIdeal.nD Cert.ReferenceIdeal.τ).loc Cert.ReferenceIdeal.main_arg12)⟩]
          Cert.KernelIdeal.Facts₀.concatenates_S256x128_S256x128_S256x256_d1)
        (shapeCast Cert.KernelIdeal.S1x256
          (concatenate Cert.KernelIdeal.S256 0 [⟨Cert.KernelIdeal.S128, m' ((c.tc : Thread Cert.ReferenceIdeal.nD Cert.ReferenceIdeal.τ).loc Cert.ReferenceIdeal.main_arg11)⟩,
            ⟨Cert.KernelIdeal.S128, m' ((c.tc : Thread Cert.ReferenceIdeal.nD Cert.ReferenceIdeal.τ).loc Cert.ReferenceIdeal.main_arg13)⟩]
            Cert.KernelIdeal.Facts₀.concatenates_S128_S128_S256_d0)
          Cert.KernelIdeal.Facts₀.shapeCasts_S256_S1x256) := by
  rw [Cert.KernelIdeal.Side.reg4, Cert.KernelIdeal.Side.k13_14 m ρ c Cert.KernelIdeal.main_v82 (by decide), act1 ρ h,
    show Cert.KernelIdeal.Gen.W14 m ρ c (𝔨 Cert.KernelIdeal.main_v83) = _ from (Cert.KernelIdeal.Reads.joined (Cert.KernelIdeal.Gen.W13 m ρ c)).1,
    show Cert.KernelIdeal.Gen.W14 m ρ c (𝔨 Cert.KernelIdeal.main_v85) = _ from (Cert.KernelIdeal.Reads.joined (Cert.KernelIdeal.Gen.W13 m ρ c)).2,
    (Cert.KernelIdeal.Side.arg_13 m ρ c Cert.KernelIdeal.main_arg10 (by decide) (by decide) (by decide) (by decide) (by decide) (by decide) (by decide) (by decide) (by decide) (by decide) (by decide) (by decide) (by decide)), (Cert.KernelIdeal.Side.arg_13 m ρ c Cert.KernelIdeal.main_arg11 (by decide) (by decide) (by decide) (by decide) (by decide) (by decide) (by decide) (by decide) (by decide) (by decide) (by decide) (by decide) (by decide)), (Cert.KernelIdeal.Side.arg_13 m ρ c Cert.KernelIdeal.main_arg12 (by decide) (by decide) (by decide) (by decide) (by decide) (by decide) (by decide) (by decide) (by decide) (by decide) (by decide) (by decide) (by decide)), (Cert.KernelIdeal.Side.arg_13 m ρ c Cert.KernelIdeal.main_arg13 (by decide) (by decide) (by decide) (by decide) (by decide) (by decide) (by decide) (by decide) (by decide) (by decide) (by decide) (by decide) (by decide)), ← h.a10, ← h.a11, ← h.a12, ← h.a13]

/-- The first result (the means head). -/
theorem out_mu : Cert.KernelIdeal.Gen.W16 m ρ c (𝔨 Cert.KernelIdeal.main_v87) = after (Cert.ReferenceIdeal.Hand.ops (F := Ideal)) (launchContents m' c) (𝔯 Cert.ReferenceIdeal.main_v108) := by
  rw [Cert.ReferenceIdeal.Side.ops_eq]
  show after (Cert.KernelIdeal.Gen.hostOps5 (F := Ideal)) (Cert.KernelIdeal.Gen.W15 m ρ c) (𝔨 Cert.KernelIdeal.main_v87)
    = after (Cert.ReferenceIdeal.Hand.opsHead (F := Ideal)) (Cert.ReferenceIdeal.Side.R8 (launchContents m' c)) (𝔯 Cert.ReferenceIdeal.main_v108)
  rw [(Cert.KernelIdeal.Reads.halves (Cert.KernelIdeal.Gen.W15 m ρ c)).1, joint ρ h, Cert.ReferenceIdeal.Side.head_mu_read, (Cert.ReferenceIdeal.Side.arg_keep (launchContents m' c) Cert.ReferenceIdeal.main_arg10 (by decide)).2.2.2.2.2.2.2.1, (Cert.ReferenceIdeal.Side.arg_keep (launchContents m' c) Cert.ReferenceIdeal.main_arg11 (by decide)).2.2.2.2.2.2.2.1]
  exact Cert.Bridge.head_left Cert.ReferenceIdeal.dot_S50000x256_S256x128_S50000x128_1_0_0_1_n_n rfl rfl rfl rfl rfl rfl _ _ _ _ _ _ _ _ _ _ _

/-- The second result (the log-variances head). -/
theorem out_lv : Cert.KernelIdeal.Gen.W16 m ρ c (𝔨 Cert.KernelIdeal.main_v88) = after (Cert.ReferenceIdeal.Hand.ops (F := Ideal)) (launchContents m' c) (𝔯 Cert.ReferenceIdeal.main_v112) := by
  rw [Cert.ReferenceIdeal.Side.ops_eq]
  show after (Cert.KernelIdeal.Gen.hostOps5 (F := Ideal)) (Cert.KernelIdeal.Gen.W15 m ρ c) (𝔨 Cert.KernelIdeal.main_v88)
    = after (Cert.ReferenceIdeal.Hand.opsHead (F := Ideal)) (Cert.ReferenceIdeal.Side.R8 (launchContents m' c)) (𝔯 Cert.ReferenceIdeal.main_v112)
  rw [(Cert.KernelIdeal.Reads.halves (Cert.KernelIdeal.Gen.W15 m ρ c)).2, joint ρ h, Cert.ReferenceIdeal.Side.head_lv_read, (Cert.ReferenceIdeal.Side.arg_keep (launchContents m' c) Cert.ReferenceIdeal.main_arg12 (by decide)).2.2.2.2.2.2.2.1, (Cert.ReferenceIdeal.Side.arg_keep (launchContents m' c) Cert.ReferenceIdeal.main_arg13 (by decide)).2.2.2.2.2.2.2.1]
  exact Cert.Bridge.head_right Cert.ReferenceIdeal.dot_S50000x256_S256x128_S50000x128_1_0_0_1_n_n rfl rfl rfl rfl rfl rfl _ _ _ _ _ _ _ _ _ _ _

end Cert.Equal

end
-- ==== Proof.lean ====
/-
  The certificate: the tiled graph encoder against its plain reference, on the extended reals.

  Both programs compute two graph-convolution layers followed by two linear heads. A layer projects the node
  features by a weight matrix, gathers the projected rows along the edges (with one self-loop per node), scales each
  by the symmetric degree normalisation, sums them at the edge targets and adds a bias; the result is normalised
  column by column with its own batch statistics, scaled, shifted and clipped below at zero. The tiled program runs
  the three products and the two normalisations as tiled stages of 2000 rows and leaves the gather, the scatter-add
  and the statistics to the same host operations the reference uses; it also fuses the two heads into one product
  with the two matrices side by side.

  At the ideal instance a change of float format is the identity and every operation is exact, so each tiled stage
  is, entry by entry, the very expression the reference evaluates: a product is the same sum over the contracted axis,
  the normalisation is the same operations in the same order, and a column of the fused heads only meets its own
  matrix and bias. No law of arithmetic beyond that is used, and the finiteness of the inputs is not needed.

  The three frame claims are the generated frames of the two kernel programs and the hand-written run of the
  reference with every buffer named; `preserves` is trivial (the ideal pass rewrote nothing); `algebraic` is the two
  named runs joined by the step-by-step simulation of `Cert.Equal`.
-/
import proofs.«135953_j54030688584374_1_alg».proof.Defs
import proofs.«135953_j54030688584374_1_alg».proof.Proof.Gen.Kernel
import proofs.«135953_j54030688584374_1_alg».proof.Proof.Gen.Kernel.Frame
import proofs.«135953_j54030688584374_1_alg».proof.Proof.Gen.KernelIdeal
import proofs.«135953_j54030688584374_1_alg».proof.Proof.Gen.KernelIdeal.Frame
import proofs.«135953_j54030688584374_1_alg».proof.Proof.Gen.ReferenceIdeal
import proofs.«135953_j54030688584374_1_alg».proof.Proof.Gen.Pre_finite_inputs
import proofs.«135953_j54030688584374_1_alg».proof.Proof.KernelRun
import proofs.«135953_j54030688584374_1_alg».proof.Proof.RefRun
import proofs.«135953_j54030688584374_1_alg».proof.Proof.RefSide
import proofs.«135953_j54030688584374_1_alg».proof.Proof.Equal
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo

local notation "𝔨" b => (Proc.devRef Proc.tc b : DevRef Cert.KernelIdeal.τ Cert.KernelIdeal.sig)
local notation "𝔯" b => (Proc.devRef Proc.tc b : DevRef Cert.ReferenceIdeal.τ Cert.ReferenceIdeal.sig)

/-- In the reference's run an argument array ends as launched: no operation writes it. -/
theorem ref_arg (m' : (ℓ : Loc Cert.ReferenceIdeal.nD Cert.ReferenceIdeal.τ Cert.ReferenceIdeal.sig) → Buf (Elt Ideal) ℓ)
    (c : Dev Cert.ReferenceIdeal.nD) (b : Ref Cert.ReferenceIdeal.sig .tc)
    (hb : b ∉ Cert.ReferenceIdeal.Keep.wPrepA ++ Cert.ReferenceIdeal.Keep.wPrepB ++ Cert.ReferenceIdeal.Keep.wDot0
      ++ Cert.ReferenceIdeal.Keep.wConv0 ++ Cert.ReferenceIdeal.Keep.wNorm0 ++ Cert.ReferenceIdeal.Keep.wDot1
      ++ Cert.ReferenceIdeal.Keep.wConv1 ++ Cert.ReferenceIdeal.Keep.wNorm1 ++ Cert.ReferenceIdeal.Keep.wHead) :
    after (Cert.ReferenceIdeal.Hand.ops (F := Ideal)) (launchContents m' c) (𝔯 b)
      = m' ((c.tc : Thread Cert.ReferenceIdeal.nD Cert.ReferenceIdeal.τ).loc b) :=
  (congrFun (Cert.ReferenceIdeal.Side.ops_eq (launchContents m' c)) (𝔯 b)).trans
    (Cert.ReferenceIdeal.Side.arg_keep (launchContents m' c) b hb).2.2.2.2.2.2.2.2

theorem frame_k : Cert.frame_Kernel := fun m ρ _ => Cert.Kernel.Gen.frame m ρ

theorem frame_ki : Cert.frame_KernelIdeal := fun m ρ _ => Cert.KernelIdeal.Gen.frame m ρ

/-- The reference runs, and its argument arrays end unchanged: its run with every buffer named, read at the arguments. -/
theorem frame_ri : Cert.frame_ReferenceIdeal := fun m ρ _ =>
  (θ_run Cert.ReferenceIdeal.defs _ _).mono (fun r h c =>
    ⟨(h c Cert.ReferenceIdeal.main_arg0).trans (ref_arg m c Cert.ReferenceIdeal.main_arg0 (by decide)),
     (h c Cert.ReferenceIdeal.main_arg1).trans (ref_arg m c Cert.ReferenceIdeal.main_arg1 (by decide)),
     (h c Cert.ReferenceIdeal.main_arg2).trans (ref_arg m c Cert.ReferenceIdeal.main_arg2 (by decide)),
     (h c Cert.ReferenceIdeal.main_arg3).trans (ref_arg m c Cert.ReferenceIdeal.main_arg3 (by decide)),
     (h c Cert.ReferenceIdeal.main_arg4).trans (ref_arg m c Cert.ReferenceIdeal.main_arg4 (by decide)),
     (h c Cert.ReferenceIdeal.main_arg5).trans (ref_arg m c Cert.ReferenceIdeal.main_arg5 (by decide)),
     (h c Cert.ReferenceIdeal.main_arg6).trans (ref_arg m c Cert.ReferenceIdeal.main_arg6 (by decide)),
     (h c Cert.ReferenceIdeal.main_arg7).trans (ref_arg m c Cert.ReferenceIdeal.main_arg7 (by decide)),
     (h c Cert.ReferenceIdeal.main_arg8).trans (ref_arg m c Cert.ReferenceIdeal.main_arg8 (by decide)),
     (h c Cert.ReferenceIdeal.main_arg9).trans (ref_arg m c Cert.ReferenceIdeal.main_arg9 (by decide)),
     (h c Cert.ReferenceIdeal.main_arg10).trans (ref_arg m c Cert.ReferenceIdeal.main_arg10 (by decide)),
     (h c Cert.ReferenceIdeal.main_arg11).trans (ref_arg m c Cert.ReferenceIdeal.main_arg11 (by decide)),
     (h c Cert.ReferenceIdeal.main_arg12).trans (ref_arg m c Cert.ReferenceIdeal.main_arg12 (by decide)),
     (h c Cert.ReferenceIdeal.main_arg13).trans (ref_arg m c Cert.ReferenceIdeal.main_arg13 (by decide))⟩)
    (Cert.ReferenceIdeal.Hand.run_all (F := Ideal) m ρ)

/-- The ideal pass rewrote no operation. -/
theorem preserves : Cert.preserves_Kernel_KernelIdeal := trivial

/-- Both idealized programs run, from memories agreeing on the arguments, to the same two result arrays. -/
theorem algebraic : Cert.algebraic_KernelIdeal_ReferenceIdeal := by
  intro m ρ m' ρ' _ hagree
  have agree : ∀ c : Dev Cert.KernelIdeal.nD, Cert.Equal.Agree m m' c := fun c =>
    ⟨(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2⟩
  refine ⟨fun c => Cert.KernelIdeal.Gen.W16 m ρ c (𝔨 Cert.KernelIdeal.main_v87),
    fun c => Cert.KernelIdeal.Gen.W16 m ρ c (𝔨 Cert.KernelIdeal.main_v88), ?_, ?_⟩
  · exact (θ_run Cert.KernelIdeal.defs _ _).mono (fun r h c =>
      ⟨h c Cert.KernelIdeal.main_v87 (by decide), h c Cert.KernelIdeal.main_v88 (by decide),
       (h c Cert.KernelIdeal.main_arg0 (by decide)).trans (Cert.KernelIdeal.Gen.W16_main_arg0 m ρ c),
       (h c Cert.KernelIdeal.main_arg1 (by decide)).trans (Cert.KernelIdeal.Gen.W16_main_arg1 m ρ c),
       (h c Cert.KernelIdeal.main_arg2 (by decide)).trans (Cert.KernelIdeal.Gen.W16_main_arg2 m ρ c),
       (h c Cert.KernelIdeal.main_arg3 (by decide)).trans (Cert.KernelIdeal.Gen.W16_main_arg3 m ρ c),
       (h c Cert.KernelIdeal.main_arg4 (by decide)).trans (Cert.KernelIdeal.Gen.W16_main_arg4 m ρ c),
       (h c Cert.KernelIdeal.main_arg5 (by decide)).trans (Cert.KernelIdeal.Gen.W16_main_arg5 m ρ c),
       (h c Cert.KernelIdeal.main_arg6 (by decide)).trans (Cert.KernelIdeal.Gen.W16_main_arg6 m ρ c),
       (h c Cert.KernelIdeal.main_arg7 (by decide)).trans (Cert.KernelIdeal.Gen.W16_main_arg7 m ρ c),
       (h c Cert.KernelIdeal.main_arg8 (by decide)).trans (Cert.KernelIdeal.Gen.W16_main_arg8 m ρ c),
       (h c Cert.KernelIdeal.main_arg9 (by decide)).trans (Cert.KernelIdeal.Gen.W16_main_arg9 m ρ c),
       (h c Cert.KernelIdeal.main_arg10 (by decide)).trans (Cert.KernelIdeal.Gen.W16_main_arg10 m ρ c),
       (h c Cert.KernelIdeal.main_arg11 (by decide)).trans (Cert.KernelIdeal.Gen.W16_main_arg11 m ρ c),
       (h c Cert.KernelIdeal.main_arg12 (by decide)).trans (Cert.KernelIdeal.Gen.W16_main_arg12 m ρ c),
       (h c Cert.KernelIdeal.main_arg13 (by decide)).trans (Cert.KernelIdeal.Gen.W16_main_arg13 m ρ c)⟩)
      (Cert.KernelIdeal.Hand.run_all (F := Ideal) m ρ)
  · exact (θ_run Cert.ReferenceIdeal.defs _ _).mono (fun r h c =>
      ⟨(h c Cert.ReferenceIdeal.main_v108).trans (Cert.Equal.out_mu ρ (agree c)).symm,
       (h c Cert.ReferenceIdeal.main_v112).trans (Cert.Equal.out_lv ρ (agree c)).symm,
       (h c Cert.ReferenceIdeal.main_arg0).trans (ref_arg m' c Cert.ReferenceIdeal.main_arg0 (by decide)),
       (h c Cert.ReferenceIdeal.main_arg1).trans (ref_arg m' c Cert.ReferenceIdeal.main_arg1 (by decide)),
       (h c Cert.ReferenceIdeal.main_arg2).trans (ref_arg m' c Cert.ReferenceIdeal.main_arg2 (by decide)),
       (h c Cert.ReferenceIdeal.main_arg3).trans (ref_arg m' c Cert.ReferenceIdeal.main_arg3 (by decide)),
       (h c Cert.ReferenceIdeal.main_arg4).trans (ref_arg m' c Cert.ReferenceIdeal.main_arg4 (by decide)),
       (h c Cert.ReferenceIdeal.main_arg5).trans (ref_arg m' c Cert.ReferenceIdeal.main_arg5 (by decide)),
       (h c Cert.ReferenceIdeal.main_arg6).trans (ref_arg m' c Cert.ReferenceIdeal.main_arg6 (by decide)),
       (h c Cert.ReferenceIdeal.main_arg7).trans (ref_arg m' c Cert.ReferenceIdeal.main_arg7 (by decide)),
       (h c Cert.ReferenceIdeal.main_arg8).trans (ref_arg m' c Cert.ReferenceIdeal.main_arg8 (by decide)),
       (h c Cert.ReferenceIdeal.main_arg9).trans (ref_arg m' c Cert.ReferenceIdeal.main_arg9 (by decide)),
       (h c Cert.ReferenceIdeal.main_arg10).trans (ref_arg m' c Cert.ReferenceIdeal.main_arg10 (by decide)),
       (h c Cert.ReferenceIdeal.main_arg11).trans (ref_arg m' c Cert.ReferenceIdeal.main_arg11 (by decide)),
       (h c Cert.ReferenceIdeal.main_arg12).trans (ref_arg m' c Cert.ReferenceIdeal.main_arg12 (by decide)),
       (h c Cert.ReferenceIdeal.main_arg13).trans (ref_arg m' c Cert.ReferenceIdeal.main_arg13 (by decide))⟩)
      (Cert.ReferenceIdeal.Hand.run_all (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
